-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S8x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S16384x1024 : Shape := ⟨2, ![16384, 1024]⟩
abbrev S1024x3072 : Shape := ⟨2, ![1024, 3072]⟩
abbrev S3072 : Shape := ⟨1, ![3072]⟩
abbrev S1x3072 : Shape := ⟨2, ![1, 3072]⟩
abbrev S1x1024 : Shape := ⟨2, ![1, 1024]⟩
abbrev S1x1024x1024 : Shape := ⟨3, ![1, 1024, 1024]⟩
abbrev S1024x1 : Shape := ⟨2, ![1024, 1]⟩

abbrev nBuf : Space → Nat
  | .hbm => 23
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S16384x1024, .f32⟩
  | .hbm, ⟨10, _⟩ => ⟨S1024x3072, .f32⟩
  | .hbm, ⟨11, _⟩ => ⟨S1024x3072, .bf16⟩
  | .hbm, ⟨12, _⟩ => ⟨S3072, .f32⟩
  | .hbm, ⟨13, _⟩ => ⟨S1x3072, .f32⟩
  | .hbm, ⟨14, _⟩ => ⟨S1024x1024, .bf16⟩
  | .hbm, ⟨15, _⟩ => ⟨S1x1024, .f32⟩
  | .hbm, ⟨16, _⟩ => ⟨S16384x1024, .bf16⟩
  | .hbm, ⟨17, _⟩ => ⟨S16384x1024, .bf16⟩
  | .hbm, ⟨18, _⟩ => ⟨S16384x1024, .bf16⟩
  | .hbm, ⟨19, _⟩ => ⟨S8x2048x1024, .bf16⟩
  | .hbm, ⟨20, _⟩ => ⟨S8x2048x1024, .bf16⟩
  | .hbm, ⟨21, _⟩ => ⟨S8x2048x1024, .bf16⟩
  | .hbm, ⟨22, _⟩ => ⟨S8x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S1x3072, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1024x1024, .f32⟩
  | .local _ .vmem, ⟨19, _⟩ => ⟨S1x1024x1024, .f32⟩
  | .local _ .vmem, ⟨20, _⟩ => ⟨S1024x1, .f32⟩
  | .local _ .vmem, ⟨21, _⟩ => ⟨S1024x1, .f32⟩
  | .local _ .vmem, ⟨22, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![8, 2, 2], ![false, false, false]⟩

def k1_cond2 (i : grid1.Coords) : BitVec 1 :=
  let arg2 : BitVec 32 := BitVec.ofNat 32 (i 2).val
  let c1_i32 : BitVec 32 := 1#32
  let v42 : BitVec 1 := Scalar.cmpi .eq arg2 c1_i32
  let v43 : BitVec 32 := Scalar.extui v42
  let c0_i32_27 : BitVec 32 := 0#32
  let v44 : BitVec 1 := Scalar.cmpi .ne v43 c0_i32_27
  v44

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S8x2048x1024_S16384x1024 : S8x2048x1024.ShapeCasts S16384x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S1024x3072 : S1x3072.Broadcasts S1024x3072
  slices_S1024x3072_o0_0_S1024x1024 : S1024x3072.Slices ![0, 0] S1024x1024
  packedbf16_S1024x1024_S1024x1024_0_0 : (Rect.unit (s := S1024x1024) ![0, 0] S1024x1024.size inb_S1024x1024_S1024x1024_0_0).PackedRows (EltTy.packing .bf16)
  slices_S1024x3072_o0_1024_S1024x1024 : S1024x3072.Slices ![0, 1024] S1024x1024
  slices_S1024x3072_o0_2048_S1024x1024 : S1024x3072.Slices ![0, 2048] S1024x1024
  shapeCasts_S16384x1024_S8x2048x1024 : S16384x1024.ShapeCasts S8x2048x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x1024_S1x1024x1024 : S1024x1024.ShapeCasts S1x1024x1024
  dot_S1024x1024_S1024x3072_S1024x3072_1_0_0_1_n_n_wf : DotDims.WF S1024x1024 S1024x3072 S1024x3072 [1] [0] [0] [1] [] []
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .bf16 = 32 ∨ (Rect.block (s := S16384x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x1024.size a
  hwx0_4 : ∀ i : grid0.Coords, EltTy.bits .bf16 = 32 ∨ (Rect.block (s := S16384x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x1024.size a
  hwx0_5 : ∀ i : grid0.Coords, EltTy.bits .bf16 = 32 ∨ (Rect.block (s := S16384x1024) S1024x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S8x2048x1024.size a
  hwx1_0 : ∀ i : grid1.Coords, EltTy.bits .bf16 = 32 ∨ (Rect.block (s := S8x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S8x2048x1024.size a
  hwx1_1 : ∀ i : grid1.Coords, EltTy.bits .bf16 = 32 ∨ (Rect.block (s := S8x2048x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S8x2048x1024.size a
  hwx1_2 : ∀ i : grid1.Coords, EltTy.bits .bf16 = 32 ∨ (Rect.block (s := S8x2048x1024) S1x1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x1024.size a ≤ S8x2048x1024.size a
  hwx1_5 : ∀ i : grid1.Coords, EltTy.bits .f32 = 32 ∨ (Rect.block (s := S8x2048x1024) S1x1024x1024.size (cc1_transform_5 i) (hinb1_5 i)).WholeWords (EltTy.packing .f32)

variable [Facts₀]

def dot_S1024x1024_S1024x3072_S1024x3072_1_0_0_1_n_n : DotDims S1024x1024 S1024x3072 S1024x3072 where
  lhsContracting := [1]
  rhsContracting := [0]
  lhsNonContracting := [0]
  rhsNonContracting := [1]
  lhsBatch := []
  rhsBatch := []
  wf := dot_S1024x1024_S1024x3072_S1024x3072_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v8) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x2048x2048 : Shape := ⟨3, ![8, 2048, 2048]⟩
abbrev S8x2048 : Shape := ⟨2, ![8, 2048]⟩
abbrev S8x2048x1 : Shape := ⟨3, ![8, 2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8x2048x1024, .f32⟩
  | .hbm, ⟨10, _⟩ => ⟨S1x1x1024, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S1x1x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048, .f32⟩
  | .hbm, ⟨30, _⟩ => ⟨S_, .f32⟩
  | .hbm, ⟨31, _⟩ => ⟨S8x2048, .f32⟩
  | .hbm, ⟨32, _⟩ => ⟨S8x2048, .f32⟩
  | .hbm, ⟨33, _⟩ => ⟨S8x2048x1, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S8x2048x2048, .f32⟩
  | .hbm, ⟨41, _⟩ => ⟨S8x2048x2048, .f32⟩
  | .hbm, ⟨42, _⟩ => ⟨S8x2048x1024, .f32⟩
  | .hbm, ⟨43, _⟩ => ⟨S8x2048x1024, .f32⟩
  | .hbm, ⟨44, _⟩ => ⟨S1x1x1024, .f32⟩
  | .hbm, ⟨45, _⟩ => ⟨S8x2048x1024, .f32⟩
  | .hbm, ⟨46, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.ProjRegionB.lean ====
/-
  The projection kernel's region: a grid of 16 points, point `t` taking rows `1024 t … 1024 t + 1023` of the
  flattened input `x : [16384, 1024]`, the whole concatenated weight `[1024, 3072]` and the whole bias row `[1, 3072]`,
  and leaving in its three output blocks the three column thirds of `x_t · W + b`.

  Everything is stated at a parameter `V`, the contents of the core's buffers when the region is entered. Per
  point the body loads the three input blocks whole and stores each output block whole; so what an output block holds
  after the body is one piece, the body's value for that third at the point's input blocks (`q0`, `k0`, `v0`),
  and the region's proof data name exactly that. The body's triple is by symbolic execution of its memory operations.
-/
import proofs.«163083_j50611894616492_2_alg».proof.Proof.Gen.Kernel.Launch
import proofs.«163083_j50611894616492_2_alg».proof.Proof.Gen.Kernel.Skeleton
import proofs.«163083_j50611894616492_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the projection grid, read off its array as the region finds it. -/
def pblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or the
    index has not moved since the last fetch. -/
theorem pbefore_0 {c : Dev nD} (dat : Dat τ (Elt F) Unit ℕ (UR sig nD τ) ℕ cfg0 c) (hA : dat.A 0 = V c (Pipeline.arrRef spec0 0))
    (hafter : ∀ t, dat.after 0 t = pblk V c 0 t) (t : Fin cfg0.N) (d) : dat.before 0 t d = pblk V c 0 t :=
  (dat.before_in_eq_fetched 0 rfl (fun _ => rfl) (fun _ _ _ => rfl) (fun t => by rw [hafter]; unfold Dat.blockOf pblk; rw [hA]; try rfl) t d).trans
    (by unfold Dat.fetched Dat.blockOf pblk; rw [hA]; try rfl)
theorem pbefore_1 {c : Dev nD} (dat : Dat τ (Elt F) Unit ℕ (UR sig nD τ) ℕ cfg0 c) (hA : dat.A 1 = V c (Pipeline.arrRef spec0 1))
    (hafter : ∀ t, dat.after 1 t = pblk V c 1 t) (t : Fin cfg0.N) (d) : dat.before 1 t d = pblk V c 1 t :=
  (dat.before_in_eq_fetched 1 rfl (fun _ => rfl) (fun _ _ _ => rfl) (fun t => by rw [hafter]; unfold Dat.blockOf pblk; rw [hA]; try rfl) t d).trans
    (by unfold Dat.fetched Dat.blockOf pblk; rw [hA]; try rfl)
theorem pbefore_2 {c : Dev nD} (dat : Dat τ (Elt F) Unit ℕ (UR sig nD τ) ℕ cfg0 c) (hA : dat.A 2 = V c (Pipeline.arrRef spec0 2))
    (hafter : ∀ t, dat.after 2 t = pblk V c 2 t) (t : Fin cfg0.N) (d) : dat.before 2 t d = pblk V c 2 t :=
  (dat.before_in_eq_fetched 2 rfl (fun _ => rfl) (fun _ _ _ => rfl) (fun t => by rw [hafter]; unfold Dat.blockOf pblk; rw [hA]; try rfl) t d).trans
    (by unfold Dat.fetched Dat.blockOf pblk; rw [hA]; try rfl)

/-! ## What the body reads and writes: whole blocks -/

abbrev rX : Rect S1024x1024 := Rect.unit (s := S1024x1024) ![0, 0] S1024x1024.size inb_S1024x1024_S1024x1024_0_0
abbrev rW : Rect S1024x3072 := Rect.unit (s := S1024x3072) ![0, 0] S1024x3072.size inb_S1024x3072_S1024x3072_0_0
abbrev rB : Rect S1x3072 := Rect.unit (s := S1x3072) ![0, 0] S1x3072.size inb_S1x3072_S1x3072_0_0

/-- The first third's block after the body: one whole-block piece, columns `0 … 1023` of `x_t · W + b`. -/
def q0 (x : Vec F S1024x1024 .f32) (w : Vec F S1024x3072 .bf16) (b : Vec F S1x3072 .f32) : Vec F S1024x1024 .bf16 :=
  View.canon [⟨rX, k0_pay2 (View.ld x rX) (View.ld w rW) (View.ld b rB)⟩]
/-- The second third's: columns `1024 … 2047`. -/
def k0 (x : Vec F S1024x1024 .f32) (w : Vec F S1024x3072 .bf16) (b : Vec F S1x3072 .f32) : Vec F S1024x1024 .bf16 :=
  View.canon [⟨rX, k0_pay3 (View.ld x rX) (View.ld w rW) (View.ld b rB)⟩]
/-- The last third's: columns `2048 … 3071`. -/
def v0 (x : Vec F S1024x1024 .f32) (w : Vec F S1024x3072 .bf16) (b : Vec F S1x3072 .f32) : Vec F S1024x1024 .bf16 :=
  View.canon [⟨rX, k0_pay4 (View.ld x rX) (View.ld w rW) (View.ld b rB)⟩]

/-- One whole-block piece covers the block. -/
theorem pcover (p : Vec F S1024x1024 .bf16) (y : S1024x1024.Idx) :
    ∃ pc ∈ ([⟨rX, p⟩] : List (View.Piece (Elt F) S1024x1024 .bf16)), y ∈ pc.1.set :=
  View.cover_of_tiled [⟨rX, p⟩] S1024x1024.size (by rfl) y

set_option maxHeartbeats 2000000 in
/-- The body on whole staging buffers: the inputs' come back as they were, each output's holds its third. -/
theorem proj_body (c : Dev nD) (E : Set ℕ) (i : grid0.Coords)
    (a1 : Memref sig .tc .vmem S1024x1024 .f32) (h1 : a1.IsWhole) (a2 : Memref sig .tc .vmem S1024x3072 .bf16) (h2 : a2.IsWhole)
    (a3 : Memref sig .tc .vmem S1x3072 .f32) (h3 : a3.IsWhole) (a4 : Memref sig .tc .vmem S1024x1024 .bf16) (h4 : a4.IsWhole)
    (a5 : Memref sig .tc .vmem S1024x1024 .bf16) (h5 : a5.IsWhole) (a6 : Memref sig .tc .vmem S1024x1024 .bf16) (h6 : a6.IsWhole)
    (x : Vec F S1024x1024 .f32) (w : Vec F S1024x3072 .bf16) (b : Vec F S1x3072 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d) ∗ (∃ d, owns (c : Thread nD τ) a5 fullShare d) ∗ (∃ d, owns (c : Thread nD τ) a6 fullShare d)
        ∗ (iprop(owns (c : Thread nD τ) a1 fullShare x ∗ owns (c : Thread nD τ) a2 fullShare w ∗ owns (c : Thread nD τ) a3 fullShare b
            ∗ owns (c : Thread nD τ) a4 fullShare (q0 x w b) ∗ owns (c : Thread nD τ) a5 fullShare (k0 x w b) ∗ owns (c : Thread nD τ) a6 fullShare (v0 x w b)) -∗ K ⟨⟩))
      ⊢ wp frame (wpE (defs₀ (F := F)) Variants.none c none) E (cc0_kernel i a1 h1 a2 h2 a3 h3 a4 h4 a5 h5 a6 h6) K := by
  simp only [cc0_kernel_eq_skeleton]; unfold cc0_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (pcover _)
  isplitl [H5]
  · iexists _; isplitr
    swap; · iexact H5
    ipureintro
    exact View.read_writes_eq_canon _ _ _ (pcover _)
  iexists _; isplitr
  swap; · iexact H6
  ipureintro
  exact View.read_writes_eq_canon _ _ _ (pcover _)

/-! ## The region's proof data -/

/-- The arrays as the region finds them; after the body at point `t` each input's buffer at its block and each
    output's at its third of the point's blocks; between points only the scoped rest and the generator register;
    nothing owed; full shares. -/
def pdat (c : Dev nD) : Dat τ (Elt F) Unit ℕ (UR sig nD τ) ℕ cfg0 c where
  A w := V c (Pipeline.arrRef spec0 w)
  after w t := match w with
    | ⟨0, _⟩ => pblk V c 0 t
    | ⟨1, _⟩ => pblk V c 1 t
    | ⟨2, _⟩ => pblk V c 2 t
    | ⟨3, _⟩ => q0 (pblk V c 0 t) (pblk V c 1 t) (pblk V c 2 t)
    | ⟨4, _⟩ => k0 (pblk V c 0 t) (pblk V c 1 t) (pblk V c 2 t)
    | ⟨5, _⟩ => v0 (pblk V c 0 t) (pblk V c 1 t) (pblk V c 2 t)
  Φ _ := Pipeline.ΦA spec0 c
  q _ := fullShare
  owed _ := 0

theorem pdat_A (c : Dev nD) (w : Fin cfg0.W) : (pdat V c).A w = V c (Pipeline.arrRef spec0 w) := by
  dsimp only [pdat]

theorem pafter_0 (c : Dev nD) (t : Fin cfg0.N) : (pdat V c).after 0 t = pblk V c 0 t := by dsimp only [pdat]
theorem pafter_1 (c : Dev nD) (t : Fin cfg0.N) : (pdat V c).after 1 t = pblk V c 1 t := by dsimp only [pdat]
theorem pafter_2 (c : Dev nD) (t : Fin cfg0.N) : (pdat V c).after 2 t = pblk V c 2 t := by dsimp only [pdat]
theorem pafter_3 (c : Dev nD) (t : Fin cfg0.N) : (pdat V c).after 3 t = q0 (pblk V c 0 t) (pblk V c 1 t) (pblk V c 2 t) := by dsimp only [pdat]
theorem pafter_4 (c : Dev nD) (t : Fin cfg0.N) : (pdat V c).after 4 t = k0 (pblk V c 0 t) (pblk V c 1 t) (pblk V c 2 t) := by dsimp only [pdat]
theorem pafter_5 (c : Dev nD) (t : Fin cfg0.N) : (pdat V c).after 5 t = v0 (pblk V c 0 t) (pblk V c 1 t) (pblk V c 2 t) := by dsimp only [pdat]

theorem pbefore0 (c : Dev nD) (t : Fin cfg0.N) (d) : (pdat V c).before 0 t d = pblk V c 0 t :=
  pbefore_0 V (pdat V c) (pdat_A V c 0) (pafter_0 V c) t d
theorem pbefore1 (c : Dev nD) (t : Fin cfg0.N) (d) : (pdat V c).before 1 t d = pblk V c 1 t :=
  pbefore_1 V (pdat V c) (pdat_A V c 1) (pafter_1 V c) t d
theorem pbefore2 (c : Dev nD) (t : Fin cfg0.N) (d) : (pdat V c).before 2 t d = pblk V c 2 t :=
  pbefore_2 V (pdat V c) (pdat_A V c 2) (pafter_2 V c) t d

/-! ## The body obligation at a point -/

def pPre (c : Dev nD) (t : Fin cfg0.N) : sProp 𝕄 :=
  iprop((pdat V c).Φ t.castSucc ∗ (pdat V c).owesAt () t.castSucc
    ∗ (∃ d, owns (c : Thread nD τ) (st0_0 t) fullShare ((pdat V c).before 0 t d))
    ∗ (∃ d, owns (c : Thread nD τ) (st0_1 t) fullShare ((pdat V c).before 1 t d))
    ∗ (∃ d, owns (c : Thread nD τ) (st0_2 t) fullShare ((pdat V c).before 2 t d))
    ∗ (∃ d, owns (c : Thread nD τ) (st0_3 t) fullShare ((pdat V c).before 3 t d))
    ∗ (∃ d, owns (c : Thread nD τ) (st0_4 t) fullShare ((pdat V c).before 4 t d))
    ∗ (∃ d, owns (c : Thread nD τ) (st0_5 t) fullShare ((pdat V c).before 5 t d)))

def pPost (c : Dev nD) (t : Fin cfg0.N) : sProp 𝕄 :=
  iprop((pdat V c).Φ t.succ ∗ (pdat V c).owesAt () t.succ
    ∗ owns (c : Thread nD τ) (st0_0 t) fullShare ((pdat V c).after 0 t)
    ∗ owns (c : Thread nD τ) (st0_1 t) fullShare ((pdat V c).after 1 t)
    ∗ owns (c : Thread nD τ) (st0_2 t) fullShare ((pdat V c).after 2 t)
    ∗ owns (c : Thread nD τ) (st0_3 t) fullShare ((pdat V c).after 3 t)
    ∗ owns (c : Thread nD τ) (st0_4 t) fullShare ((pdat V c).after 4 t)
    ∗ owns (c : Thread nD τ) (st0_5 t) fullShare ((pdat V c).after 5 t))

theorem proj_point (c : Dev nD) (t : Fin cfg0.N) :
    pPre V c t ⊢ wp frame (wpE (defs₀ (F := F)) Variants.none c none) Set.univ (bodyAt0 t) (fun _ => pPost V c t) := by
  unfold pPre pPost bodyAt0
  simp only [pbefore0, pbefore1, pbefore2]
  rw [show (pdat V c).Φ t.succ = (pdat V c).Φ t.castSucc from rfl,
    show (pdat V c).owesAt () t.succ = (pdat V c).owesAt () t.castSucc from rfl,
    pafter_0, pafter_1, pafter_2, pafter_3, pafter_4, pafter_5]
  iintro ⟨HΦ, Ho, ⟨%d0, H0⟩, ⟨%d1, H1⟩, ⟨%d2, H2⟩, ⟨%d3, H3⟩, ⟨%d4, H4⟩, ⟨%d5, H5⟩⟩
  iapply (proj_body c Set.univ _ _ _ _ _ _ _ _ _ _ _ _ _ (pblk V c 0 t) (pblk V c 1 t) (pblk V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem proj_obligation (c : Dev nD) : BodyObligation (pdat (F := F) V c) (defs₀ (F := F)) Variants.none () Set.univ := fun t => by
  rw [bigSep_W0, bigSep_W0]
  exact proj_point V c t

end Cert.Kernel.Hand

end
-- ==== Proof.AttnBaseB.lean ====
/-
  The attention kernel's region: a grid of 8 × 2 × 2 points (batch, query half, key half), the key half innermost.
  At a point the body sees one query block, one key block and one value block of 1024 rows each, the output weight and
  bias whole, one output block, and three scratch buffers of its own that live across points: the running maximum `m`,
  the running denominator `l` and the running numerator `acc`.

  Two kinds of points occur. At a point of the FIRST key half the body resets the three scratch buffers and then takes
  one step of the recurrence; it stores nothing into the output block. At a point of the SECOND key half it takes one
  more step from what the first left, and then writes the output block. This module holds what the two runs share:
  the blocks, the two branch conditions in closed form over the grid, where the output window is idle, and the
  region's resting invariant opened into its scratch buffers.
-/
import proofs.«163083_j50611894616492_2_alg».proof.Proof.Gen.Kernel.Launch
import proofs.«163083_j50611894616492_2_alg».proof.Proof.Gen.Kernel.Skeleton
import proofs.«163083_j50611894616492_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the attention grid, read off its array as the region finds it. -/
def ablk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem abefore_0 {c : Dev nD} (dat : Dat τ (Elt F) Unit ℕ (UR sig nD τ) ℕ cfg1 c) (hA : dat.A 0 = V c (Pipeline.arrRef spec1 0))
    (hafter : ∀ t, dat.after 0 t = ablk V c 0 t) (t : Fin cfg1.N) (d) : dat.before 0 t d = ablk V c 0 t :=
  (dat.before_in_eq_fetched 0 rfl (fun _ => rfl) (fun _ _ _ => rfl) (fun t => by rw [hafter]; unfold Dat.blockOf ablk; rw [hA]; try rfl) t d).trans
    (by unfold Dat.fetched Dat.blockOf ablk; rw [hA]; try rfl)
theorem abefore_1 {c : Dev nD} (dat : Dat τ (Elt F) Unit ℕ (UR sig nD τ) ℕ cfg1 c) (hA : dat.A 1 = V c (Pipeline.arrRef spec1 1))
    (hafter : ∀ t, dat.after 1 t = ablk V c 1 t) (t : Fin cfg1.N) (d) : dat.before 1 t d = ablk V c 1 t :=
  (dat.before_in_eq_fetched 1 rfl (fun _ => rfl) (fun _ _ _ => rfl) (fun t => by rw [hafter]; unfold Dat.blockOf ablk; rw [hA]; try rfl) t d).trans
    (by unfold Dat.fetched Dat.blockOf ablk; rw [hA]; try rfl)
theorem abefore_2 {c : Dev nD} (dat : Dat τ (Elt F) Unit ℕ (UR sig nD τ) ℕ cfg1 c) (hA : dat.A 2 = V c (Pipeline.arrRef spec1 2))
    (hafter : ∀ t, dat.after 2 t = ablk V c 2 t) (t : Fin cfg1.N) (d) : dat.before 2 t d = ablk V c 2 t :=
  (dat.before_in_eq_fetched 2 rfl (fun _ => rfl) (fun _ _ _ => rfl) (fun t => by rw [hafter]; unfold Dat.blockOf ablk; rw [hA]; try rfl) t d).trans
    (by unfold Dat.fetched Dat.blockOf ablk; rw [hA]; try rfl)
theorem abefore_3 {c : Dev nD} (dat : Dat τ (Elt F) Unit ℕ (UR sig nD τ) ℕ cfg1 c) (hA : dat.A 3 = V c (Pipeline.arrRef spec1 3))
    (hafter : ∀ t, dat.after 3 t = ablk V c 3 t) (t : Fin cfg1.N) (d) : dat.before 3 t d = ablk V c 3 t :=
  (dat.before_in_eq_fetched 3 rfl (fun _ => rfl) (fun _ _ _ => rfl) (fun t => by rw [hafter]; unfold Dat.blockOf ablk; rw [hA]; try rfl) t d).trans
    (by unfold Dat.fetched Dat.blockOf ablk; rw [hA]; try rfl)
theorem abefore_4 {c : Dev nD} (dat : Dat τ (Elt F) Unit ℕ (UR sig nD τ) ℕ cfg1 c) (hA : dat.A 4 = V c (Pipeline.arrRef spec1 4))
    (hafter : ∀ t, dat.after 4 t = ablk V c 4 t) (t : Fin cfg1.N) (d) : dat.before 4 t d = ablk V c 4 t :=
  (dat.before_in_eq_fetched 4 rfl (fun _ => rfl) (fun _ _ _ => rfl) (fun t => by rw [hafter]; unfold Dat.blockOf ablk; rw [hA]; try rfl) t d).trans
    (by unfold Dat.fetched Dat.blockOf ablk; rw [hA]; try rfl)

/-! ## The two branch conditions, in closed form over the grid -/

/-- "This is a point of the first key half": the body's first condition, as its scalar chain over the third coordinate. -/
abbrev isFirst (i : grid1.Coords) : Prop := (Scalar.cmpi .ne (Scalar.extui (Scalar.cmpi .eq (BitVec.ofNat 32 (i 2).val) 0#32)) 0#32) = 1#1
/-- It holds at the even points. -/
theorem isFirst_iff : ∀ t : Fin cfg1.N, isFirst (grid1.coords t) ↔ t.val % 2 = 0 :=
  (by decide +kernel : ∀ t : Fin grid1.N, isFirst (grid1.coords t) ↔ t.val % 2 = 0)

/-- "This is a point of the second key half": the body's second condition. -/
abbrev isLast (i : grid1.Coords) : Prop := k1_cond2 i = 1#1
/-- It holds at the odd points. -/
theorem isLast_iff : ∀ t : Fin cfg1.N, isLast (grid1.coords t) ↔ t.val % 2 = 1 :=
  (by decide +kernel : ∀ t : Fin grid1.N, isLast (grid1.coords t) ↔ t.val % 2 = 1)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
/-- At a point of the first key half the output window is idle and is not written back. -/
theorem idle1_5_even : ∀ t : Fin cfg1.N, t.val % 2 = 0 → cfg1.idle 5 (grid1.coords t) = true := by decide +kernel
theorem noflush1_5_even : ∀ t : Fin cfg1.N, t.val % 2 = 0 → (cfg1.win 5).flush t = false := by decide +kernel
/-- At a point of the second key half it is live. -/
theorem live1_5_odd : ∀ t : Fin cfg1.N, t.val % 2 = 1 → cfg1.idle 5 (grid1.coords t) = false := by decide +kernel

/-! ## The staging and scratch buffers by name -/

abbrev mq (t : Fin cfg1.N) : Memref sig .tc .vmem S1x1024x1024 .bf16 := win1_0.stage (cfg1.slots t 0)
abbrev hmq (t : Fin cfg1.N) : (mq t).IsWhole := hstage1_0 ((cfg1.slots t 0).cast nbuf1_0)
abbrev mk (t : Fin cfg1.N) : Memref sig .tc .vmem S1x1024x1024 .bf16 := win1_1.stage (cfg1.slots t 1)
abbrev hmk (t : Fin cfg1.N) : (mk t).IsWhole := hstage1_1 ((cfg1.slots t 1).cast nbuf1_1)
abbrev mv (t : Fin cfg1.N) : Memref sig .tc .vmem S1x1024x1024 .bf16 := win1_2.stage (cfg1.slots t 2)
abbrev hmv (t : Fin cfg1.N) : (mv t).IsWhole := hstage1_2 ((cfg1.slots t 2).cast nbuf1_2)
abbrev mwo (t : Fin cfg1.N) : Memref sig .tc .vmem S1024x1024 .bf16 := win1_3.stage (cfg1.slots t 3)
abbrev hmwo (t : Fin cfg1.N) : (mwo t).IsWhole := hstage1_3 ((cfg1.slots t 3).cast nbuf1_3)
abbrev mbo (t : Fin cfg1.N) : Memref sig .tc .vmem S1x1024 .f32 := win1_4.stage (cfg1.slots t 4)
abbrev hmbo (t : Fin cfg1.N) : (mbo t).IsWhole := hstage1_4 ((cfg1.slots t 4).cast nbuf1_4)
abbrev mo (t : Fin cfg1.N) : Memref sig .tc .vmem S1x1024x1024 .f32 := win1_5.stage (cfg1.slots t 5)
abbrev hmo (t : Fin cfg1.N) : (mo t).IsWhole := hstage1_5 ((cfg1.slots t 5).cast nbuf1_5)

/-- The running maximum's, the running denominator's and the running numerator's buffers. -/
abbrev scMax : Memref sig .tc .vmem S1024x1 .f32 := Memref.whole cc1_scratch0
abbrev scDen : Memref sig .tc .vmem S1024x1 .f32 := Memref.whole cc1_scratch1
abbrev scNum : Memref sig .tc .vmem S1024x1024 .f32 := Memref.whole cc1_scratch2
/-- Views through which their contents, and the output block's, are stated. -/
abbrev vMax : View sig .tc .vmem S1024x1 .f32 := (scMax).view
abbrev vDen : View sig .tc .vmem S1024x1 .f32 := (scDen).view
abbrev vNum : View sig .tc .vmem S1024x1024 .f32 := (scNum).view
abbrev vOut : View sig .tc .vmem S1x1024x1024 .f32 := (Memref.whole cc1_stg5_0 : Memref sig .tc .vmem S1x1024x1024 .f32).view

/-- The other kernel's staging buffers, each whole at some contents: they ride along untouched. -/
def bystanders (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))

/-- The region's resting invariant, opened: the bystanders, the three scratch buffers at some contents, the generator
    register at some state. -/
theorem rest_open (c : Dev nD) :
    (Pipeline.ΦA spec1 c : sProp 𝕄) ⊢ iprop(bystanders (F := F) c ∗ (∃ d, owns (c : Thread nD τ) scMax fullShare d)
      ∗ (∃ d, owns (c : Thread nD τ) scDen fullShare d) ∗ (∃ d, owns (c : Thread nD τ) scNum fullShare d) ∗ (∃ r, prngReg c r)) := by
  unfold Pipeline.ΦA bystanders; rw [scopedRest1_eq]; simp only [scMax, scDen, scNum, owns_whole]
  iintro ⟨⟨H0, H1, H2, H3, H4, H5, H6, H7, H8, H9, S0, S1, S2⟩, Hg⟩
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [S0]; · iexact S0
  isplitl [S1]; · iexact S1
  isplitl [S2]; · iexact S2
  iexact Hg

/-- and closed again. -/
theorem rest_close (c : Dev nD) :
    iprop(bystanders (F := F) c ∗ (∃ d, owns (c : Thread nD τ) scMax fullShare d)
      ∗ (∃ d, owns (c : Thread nD τ) scDen fullShare d) ∗ (∃ d, owns (c : Thread nD τ) scNum fullShare d) ∗ (∃ r, prngReg c r))
      ⊢ (Pipeline.ΦA spec1 c : sProp 𝕄) := by
  unfold Pipeline.ΦA bystanders; rw [scopedRest1_eq]; simp only [scMax, scDen, scNum, owns_whole]
  iintro ⟨⟨H0, H1, H2, H3, H4, H5, H6, H7, H8, H9⟩, S0, S1, S2, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    iexact S2
  iexact Hg

end Cert.Kernel.Hand

end
-- ==== Proof.AttnFirstB.lean ====
/-
  The attention body at a point of the FIRST key half, run symbolically on whole buffers: the five input blocks come
  back as they were, the output block is handed back untouched (the body stores nothing into it here), and each of
  the three scratch buffers ends holding the pieces its stores wrote — the reset followed by the first step of the
  recurrence. The pieces are not transcribed: they are whatever the run finds.
-/
import proofs.«163083_j50611894616492_2_alg».proof.Proof.AttnBaseB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def firstHalfRun (c : Dev nD) (i : grid1.Coords) (a3 : Memref sig .tc .vmem S1x1024x1024 .bf16) (h3 : a3.IsWhole) (a4 : Memref sig .tc .vmem S1x1024x1024 .bf16) (h4 : a4.IsWhole) (a5 : Memref sig .tc .vmem S1x1024x1024 .bf16) (h5 : a5.IsWhole) (a6 : Memref sig .tc .vmem S1024x1024 .bf16) (h6 : a6.IsWhole) (a7 : Memref sig .tc .vmem S1x1024 .f32) (h7 : a7.IsWhole) (a8 : Memref sig .tc .vmem S1x1024x1024 .f32) (h8 : a8.IsWhole) (a9 : Memref sig .tc .vmem S1024x1 .f32) (h9 : a9.IsWhole) (a10 : Memref sig .tc .vmem S1024x1 .f32) (h10 : a10.IsWhole) (a11 : Memref sig .tc .vmem S1024x1024 .f32) (h11 : a11.IsWhole)
    (hc0 : isFirst i) (hc1 : ¬isLast i) (x3 x4 x5 : Vec F S1x1024x1024 .bf16) (x6 : Vec F S1024x1024 .bf16) (x7 : Vec F S1x1024 .f32) :
    Σ' (L9 : List (View.Piece (Elt F) S1024x1 .f32)) (L10 : List (View.Piece (Elt F) S1024x1 .f32)), { L11 : List (View.Piece (Elt F) S1024x1024 .f32) //
      ∀ (xi8 : Vec F S1x1024x1024 .f32) (E : Set ℕ) (K : PUnit → sProp 𝕄),
        iprop(owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare xi8
            ∗ (∃ d, owns (c : Thread nD τ) a9 fullShare d) ∗ (∃ d, owns (c : Thread nD τ) a10 fullShare d) ∗ (∃ d, owns (c : Thread nD τ) a11 fullShare d)
            ∗ (iprop(owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare xi8
                ∗ (∃ f, a9.view.loc (c : Thread nD τ) ↦[a9.view.set]{fullShare} a9.view.writes (Elt F) f L9)
                ∗ (∃ f, a10.view.loc (c : Thread nD τ) ↦[a10.view.set]{fullShare} a10.view.writes (Elt F) f L10)
                ∗ (∃ f, a11.view.loc (c : Thread nD τ) ↦[a11.view.set]{fullShare} a11.view.writes (Elt F) f L11)) -∗ K ⟨⟩))
          ⊢ wp frame (wpE (defs₀ (F := F)) Variants.none c none) E (cc1_kernel i a3 h3 a4 h4 a5 h5 a6 h6 a7 h7 a8 h8 a9 h9 a10 h10 a11 h11) K } := by
  refine ⟨?_, ?_, ?_, fun xi8 E K => ?run⟩
  case run =>
    simp only [cc1_kernel_eq_skeleton]; unfold cc1_kernel_skel
    simp only [k1_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := h3.eq_unread hf3; obtain rfl := h4.eq_unread hf4; obtain rfl := h5.eq_unread hf5
    obtain rfl := h6.eq_unread hf6; obtain rfl := h7.eq_unread hf7; obtain rfl := h8.eq_unread hf8
    sl_exec (disch := first | exact hc0 | exact hc1)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]; · iexists _; iexact H9
    isplitl [H10]; · iexists _; iexact H10
    iexists _; iexact H11

end Cert.Kernel.Hand

end
-- ==== Proof.AttnSecondB.lean ====
/-
  The attention body at a point of the SECOND key half, run symbolically on whole buffers: the three scratch buffers are
  handed in at what the first half left (`m`, `l`, `acc`), the body takes the second step of the recurrence from them
  and then writes the output block: numerator over denominator, through the output weight, plus the bias. The five input
  blocks come back as they were; each written buffer ends holding the pieces its stores wrote, whatever the run finds.
-/
import proofs.«163083_j50611894616492_2_alg».proof.Proof.AttnFirstB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def secondHalfRun (c : Dev nD) (i : grid1.Coords) (a3 : Memref sig .tc .vmem S1x1024x1024 .bf16) (h3 : a3.IsWhole) (a4 : Memref sig .tc .vmem S1x1024x1024 .bf16) (h4 : a4.IsWhole) (a5 : Memref sig .tc .vmem S1x1024x1024 .bf16) (h5 : a5.IsWhole) (a6 : Memref sig .tc .vmem S1024x1024 .bf16) (h6 : a6.IsWhole) (a7 : Memref sig .tc .vmem S1x1024 .f32) (h7 : a7.IsWhole) (a8 : Memref sig .tc .vmem S1x1024x1024 .f32) (h8 : a8.IsWhole) (a9 : Memref sig .tc .vmem S1024x1 .f32) (h9 : a9.IsWhole) (a10 : Memref sig .tc .vmem S1024x1 .f32) (h10 : a10.IsWhole) (a11 : Memref sig .tc .vmem S1024x1024 .f32) (h11 : a11.IsWhole)
    (hc0 : ¬isFirst i) (hc1 : isLast i) (x3 x4 x5 : Vec F S1x1024x1024 .bf16) (x6 : Vec F S1024x1024 .bf16) (x7 : Vec F S1x1024 .f32)
    (m0 l0 : Vec F S1024x1 .f32) (acc0 : Vec F S1024x1024 .f32) :
    Σ' (L8 : List (View.Piece (Elt F) S1x1024x1024 .f32)) (L9 : List (View.Piece (Elt F) S1024x1 .f32)) (L10 : List (View.Piece (Elt F) S1024x1 .f32)), { L11 : List (View.Piece (Elt F) S1024x1024 .f32) //
      ∀ (E : Set ℕ) (K : PUnit → sProp 𝕄),
        iprop(owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
            ∗ owns (c : Thread nD τ) a9 fullShare m0 ∗ owns (c : Thread nD τ) a10 fullShare l0 ∗ owns (c : Thread nD τ) a11 fullShare acc0
            ∗ (iprop(owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
                ∗ (∃ f, a8.view.loc (c : Thread nD τ) ↦[a8.view.set]{fullShare} a8.view.writes (Elt F) f L8)
                ∗ (∃ f, a9.view.loc (c : Thread nD τ) ↦[a9.view.set]{fullShare} a9.view.writes (Elt F) f L9)
                ∗ (∃ f, a10.view.loc (c : Thread nD τ) ↦[a10.view.set]{fullShare} a10.view.writes (Elt F) f L10)
                ∗ (∃ f, a11.view.loc (c : Thread nD τ) ↦[a11.view.set]{fullShare} a11.view.writes (Elt F) f L11)) -∗ K ⟨⟩))
          ⊢ wp frame (wpE (defs₀ (F := F)) Variants.none c none) E (cc1_kernel i a3 h3 a4 h4 a5 h5 a6 h6 a7 h7 a8 h8 a9 h9 a10 h10 a11 h11) K } := by
  refine ⟨?_, ?_, ?_, ?_, fun E K => ?run⟩
  case run =>
    simp only [cc1_kernel_eq_skeleton]; unfold cc1_kernel_skel
    simp only [k1_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, Hk⟩
    obtain rfl := h3.eq_unread hf3; obtain rfl := h4.eq_unread hf4; obtain rfl := h5.eq_unread hf5
    obtain rfl := h6.eq_unread hf6; obtain rfl := h7.eq_unread hf7
    obtain rfl := h9.eq_unread hf9; obtain rfl := h10.eq_unread hf10; obtain rfl := h11.eq_unread hf11
    sl_exec (disch := first | exact hc0 | exact hc1)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexists _; iexact H9
    isplitl [H10]; · iexists _; iexact H10
    iexists _; iexact H11

end Cert.Kernel.Hand

end
-- ==== Proof.AttnRegionB.lean ====
/-
  The attention region's proof data and its body obligation.

  After a point `t` of the first key half the three scratch buffers hold what that point's run wrote: `mAfter`,
  `lAfter`, `accAfter` — the first step of the recurrence on the point's query, key and value blocks. The next point
  `t + 1` (same batch, same query half, second key half) finds them there, takes the second step and writes the output
  block `outAfter`. Between a second-half point and the next first-half point nothing is remembered: the first-half
  body resets the scratch before reading it. The output window is idle at first-half points and written back at
  second-half points only.
-/
import proofs.«163083_j50611894616492_2_alg».proof.Proof.AttnSecondB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the two runs leave -/

/-- The pieces the first-half run writes at point `t` into the three scratch buffers. -/
def firstPieces (c : Dev nD) (t : Fin cfg1.N) (h : t.val % 2 = 0) :=
  firstHalfRun (F := F) c (grid1.coords t) (mq t) (hmq t) (mk t) (hmk t) (mv t) (hmv t) (mwo t) (hmwo t) (mbo t) (hmbo t) (mo t) (hmo t) scMax (Memref.isWhole_whole _) scDen (Memref.isWhole_whole _) scNum (Memref.isWhole_whole _)
    ((isFirst_iff t).mpr h) (fun hl => by have := (isLast_iff t).mp hl; omega) (ablk V c 0 t) (ablk V c 1 t) (ablk V c 2 t) (ablk V c 3 t) (ablk V c 4 t)

/-- Each scratch buffer's pieces tile it. -/
theorem first_cover_max (c : Dev nD) (t : Fin cfg1.N) (h : t.val % 2 = 0) (y : S1024x1.Idx) :
    ∃ pc ∈ (firstPieces V c t h).1, y ∈ pc.1.set :=
  View.cover_of_tiledL (firstPieces V c t h).1 S1024x1.size (by sl_kernel_rfl) y
theorem first_cover_den (c : Dev nD) (t : Fin cfg1.N) (h : t.val % 2 = 0) (y : S1024x1.Idx) :
    ∃ pc ∈ (firstPieces V c t h).2.1, y ∈ pc.1.set :=
  View.cover_of_tiledL (firstPieces V c t h).2.1 S1024x1.size (by sl_kernel_rfl) y
theorem first_cover_num (c : Dev nD) (t : Fin cfg1.N) (h : t.val % 2 = 0) (y : S1024x1024.Idx) :
    ∃ pc ∈ (firstPieces V c t h).2.2.1, y ∈ pc.1.set :=
  View.cover_of_tiledL (firstPieces V c t h).2.2.1 S1024x1024.size (by sl_kernel_rfl) y

/-- The running maximum, denominator and numerator after the first-half point `t`. -/
def mAfter (c : Dev nD) (t : Fin cfg1.N) (h : t.val % 2 = 0) : Vec F S1024x1 .f32 :=
  vMax.read (Elt F) (vMax.writes (Elt F) vMax.junk (firstPieces V c t h).1)
def lAfter (c : Dev nD) (t : Fin cfg1.N) (h : t.val % 2 = 0) : Vec F S1024x1 .f32 :=
  vDen.read (Elt F) (vDen.writes (Elt F) vDen.junk (firstPieces V c t h).2.1)
def accAfter (c : Dev nD) (t : Fin cfg1.N) (h : t.val % 2 = 0) : Vec F S1024x1024 .f32 :=
  vNum.read (Elt F) (vNum.writes (Elt F) vNum.junk (firstPieces V c t h).2.2.1)

/-- The pieces the second-half run writes at point `t`, from what the first-half point `t'` before it left. -/
def secondPieces (c : Dev nD) (t : Fin cfg1.N) (h : t.val % 2 = 1) (t' : Fin cfg1.N) (h' : t'.val % 2 = 0) :=
  secondHalfRun (F := F) c (grid1.coords t) (mq t) (hmq t) (mk t) (hmk t) (mv t) (hmv t) (mwo t) (hmwo t) (mbo t) (hmbo t) (mo t) (hmo t) scMax (Memref.isWhole_whole _) scDen (Memref.isWhole_whole _) scNum (Memref.isWhole_whole _)
    (fun hf => by have := (isFirst_iff t).mp hf; omega) ((isLast_iff t).mpr h) (ablk V c 0 t) (ablk V c 1 t) (ablk V c 2 t) (ablk V c 3 t) (ablk V c 4 t)
    (mAfter V c t' h') (lAfter V c t' h') (accAfter V c t' h')

/-- The output block's pieces tile it. -/
theorem second_cover_out (c : Dev nD) (t : Fin cfg1.N) (h : t.val % 2 = 1) (t' : Fin cfg1.N) (h' : t'.val % 2 = 0) (y : S1x1024x1024.Idx) :
    ∃ pc ∈ (secondPieces V c t h t' h').1, y ∈ pc.1.set :=
  View.cover_of_tiledL (secondPieces V c t h t' h').1 S1x1024x1024.size (by sl_kernel_rfl) y

/-- The output block after the second-half point `t`. -/
def outAfter (c : Dev nD) (t : Fin cfg1.N) (h : t.val % 2 = 1) (t' : Fin cfg1.N) (h' : t'.val % 2 = 0) : Vec F S1x1024x1024 .f32 :=
  vOut.read (Elt F) (vOut.writes (Elt F) vOut.junk (secondPieces V c t h t' h').1)

/-- The output block after position `n`: at an odd position what the second-half run leaves over the position before;
    at an even position the window is idle and this value is never consulted. -/
def outAt (c : Dev nD) : (n : ℕ) → n < cfg1.N → Vec F S1x1024x1024 .f32
  | 0, _ => vOut.read (Elt F) vOut.junk
  | n + 1, hn =>
    if h : n % 2 = 0 then outAfter V c ⟨n + 1, hn⟩ (by dsimp only; omega) ⟨n, Nat.lt_of_succ_lt hn⟩ h
    else vOut.read (Elt F) vOut.junk

/-- The invariant before position `n`: after a first-half point the scratch buffers at what it left; otherwise the
    resting invariant. -/
def restAt (c : Dev nD) : (n : ℕ) → n ≤ cfg1.N → sProp 𝕄
  | 0, _ => Pipeline.ΦA spec1 c
  | n + 1, hn =>
    if h : n % 2 = 0 then
      iprop(bystanders (F := F) c ∗ owns (c : Thread nD τ) scMax fullShare (mAfter V c ⟨n, hn⟩ h)
        ∗ owns (c : Thread nD τ) scDen fullShare (lAfter V c ⟨n, hn⟩ h) ∗ owns (c : Thread nD τ) scNum fullShare (accAfter V c ⟨n, hn⟩ h)
        ∗ (∃ r, prngReg c r))
    else Pipeline.ΦA spec1 c

theorem restAt_even (c : Dev nD) (n : ℕ) (hn : n ≤ cfg1.N) (h : n % 2 = 0) : restAt V c n hn = Pipeline.ΦA spec1 c := by
  cases n with
  | zero => rfl
  | succ n => exact dif_neg (by omega)

theorem restAt_after_first (c : Dev nD) (t : Fin cfg1.N) (h : t.val % 2 = 0) :
    restAt V c (t.val + 1) t.isLt = iprop(bystanders (F := F) c ∗ owns (c : Thread nD τ) scMax fullShare (mAfter V c t h)
        ∗ owns (c : Thread nD τ) scDen fullShare (lAfter V c t h) ∗ owns (c : Thread nD τ) scNum fullShare (accAfter V c t h)
        ∗ (∃ r, prngReg c r)) := dif_pos h

/-! ## The proof data -/

def adat (c : Dev nD) : Dat τ (Elt F) Unit ℕ (UR sig nD τ) ℕ cfg1 c where
  A w := V c (Pipeline.arrRef spec1 w)
  after w t := match w with
    | ⟨0, _⟩ => ablk V c 0 t
    | ⟨1, _⟩ => ablk V c 1 t
    | ⟨2, _⟩ => ablk V c 2 t
    | ⟨3, _⟩ => ablk V c 3 t
    | ⟨4, _⟩ => ablk V c 4 t
    | ⟨5, _⟩ => outAt V c t.val t.isLt
  Φ n := restAt V c n.val (Nat.le_of_lt_succ n.isLt)
  q _ := fullShare
  owed _ := 0

theorem adat_A (c : Dev nD) (w : Fin cfg1.W) : (adat V c).A w = V c (Pipeline.arrRef spec1 w) := by
  dsimp only [adat]

theorem aafter_0 (c : Dev nD) (t : Fin cfg1.N) : (adat V c).after 0 t = ablk V c 0 t := by dsimp only [adat]
theorem aafter_1 (c : Dev nD) (t : Fin cfg1.N) : (adat V c).after 1 t = ablk V c 1 t := by dsimp only [adat]
theorem aafter_2 (c : Dev nD) (t : Fin cfg1.N) : (adat V c).after 2 t = ablk V c 2 t := by dsimp only [adat]
theorem aafter_3 (c : Dev nD) (t : Fin cfg1.N) : (adat V c).after 3 t = ablk V c 3 t := by dsimp only [adat]
theorem aafter_4 (c : Dev nD) (t : Fin cfg1.N) : (adat V c).after 4 t = ablk V c 4 t := by dsimp only [adat]
theorem aafter_5 (c : Dev nD) (t : Fin cfg1.N) : (adat V c).after 5 t = outAt V c t.val t.isLt := by dsimp only [adat]

theorem abefore0 (c : Dev nD) (t : Fin cfg1.N) (d) : (adat V c).before 0 t d = ablk V c 0 t :=
  abefore_0 V (adat V c) (adat_A V c 0) (aafter_0 V c) t d
theorem abefore1 (c : Dev nD) (t : Fin cfg1.N) (d) : (adat V c).before 1 t d = ablk V c 1 t :=
  abefore_1 V (adat V c) (adat_A V c 1) (aafter_1 V c) t d
theorem abefore2 (c : Dev nD) (t : Fin cfg1.N) (d) : (adat V c).before 2 t d = ablk V c 2 t :=
  abefore_2 V (adat V c) (adat_A V c 2) (aafter_2 V c) t d
theorem abefore3 (c : Dev nD) (t : Fin cfg1.N) (d) : (adat V c).before 3 t d = ablk V c 3 t :=
  abefore_3 V (adat V c) (adat_A V c 3) (aafter_3 V c) t d
theorem abefore4 (c : Dev nD) (t : Fin cfg1.N) (d) : (adat V c).before 4 t d = ablk V c 4 t :=
  abefore_4 V (adat V c) (adat_A V c 4) (aafter_4 V c) t d

theorem aPhi_castSucc (c : Dev nD) (t : Fin cfg1.N) :
    (adat V c).Φ t.castSucc = restAt V c t.val (Nat.le_of_lt t.isLt) := by
  dsimp only [adat]; simp only [Fin.coe_castSucc]

/-- The output block after an odd point, named through the point before. -/
theorem outAt_odd (c : Dev nD) (t : Fin cfg1.N) (h : t.val % 2 = 1) :
    outAt V c t.val t.isLt = outAfter V c t h ⟨t.val - 1, Nat.lt_of_le_of_lt (Nat.sub_le _ _) t.isLt⟩ (by dsimp only; omega) := by
  obtain ⟨n, hn⟩ := t
  cases n with
  | zero => exact absurd h (by dsimp only; omega)
  | succ n => exact dif_pos (by dsimp only at h; omega)

/-- The invariant before an odd point, named through the point before. -/
theorem restAt_odd (c : Dev nD) (t : Fin cfg1.N) (h : t.val % 2 = 1) :
    restAt V c t.val (Nat.le_of_lt t.isLt) = iprop(bystanders (F := F) c
        ∗ owns (c : Thread nD τ) scMax fullShare (mAfter V c ⟨t.val - 1, Nat.lt_of_le_of_lt (Nat.sub_le _ _) t.isLt⟩ (by dsimp only; omega))
        ∗ owns (c : Thread nD τ) scDen fullShare (lAfter V c ⟨t.val - 1, Nat.lt_of_le_of_lt (Nat.sub_le _ _) t.isLt⟩ (by dsimp only; omega))
        ∗ owns (c : Thread nD τ) scNum fullShare (accAfter V c ⟨t.val - 1, Nat.lt_of_le_of_lt (Nat.sub_le _ _) t.isLt⟩ (by dsimp only; omega))
        ∗ (∃ r, prngReg c r)) := by
  obtain ⟨n, hn⟩ := t
  cases n with
  | zero => exact absurd h (by dsimp only; omega)
  | succ n => exact dif_pos (by dsimp only at h; omega)

/-! ## The body obligation at a point -/

def aPre (c : Dev nD) (t : Fin cfg1.N) : sProp 𝕄 :=
  iprop((adat V c).Φ t.castSucc ∗ (adat V c).owesAt () t.castSucc
    ∗ (∃ d, owns (c : Thread nD τ) (mq t) fullShare ((adat V c).before 0 t d))
    ∗ (∃ d, owns (c : Thread nD τ) (mk t) fullShare ((adat V c).before 1 t d))
    ∗ (∃ d, owns (c : Thread nD τ) (mv t) fullShare ((adat V c).before 2 t d))
    ∗ (∃ d, owns (c : Thread nD τ) (mwo t) fullShare ((adat V c).before 3 t d))
    ∗ (∃ d, owns (c : Thread nD τ) (mbo t) fullShare ((adat V c).before 4 t d))
    ∗ (∃ d, owns (c : Thread nD τ) (mo t) fullShare ((adat V c).before 5 t d)))

def aPost (c : Dev nD) (t : Fin cfg1.N) : sProp 𝕄 :=
  iprop((adat V c).Φ t.succ ∗ (adat V c).owesAt () t.succ
    ∗ (adat V c).leavesExact 0 t ∗ (adat V c).leavesExact 1 t ∗ (adat V c).leavesExact 2 t
    ∗ (adat V c).leavesExact 3 t ∗ (adat V c).leavesExact 4 t ∗ (adat V c).leavesExact 5 t)

theorem aleaves_0 (c : Dev nD) (t : Fin cfg1.N) : (adat V c).leavesExact 0 t = owns (c : Thread nD τ) (mq t) fullShare (ablk V c 0 t) := by
  unfold Dat.leavesExact; rw [live1_0 t, aafter_0]
theorem aleaves_1 (c : Dev nD) (t : Fin cfg1.N) : (adat V c).leavesExact 1 t = owns (c : Thread nD τ) (mk t) fullShare (ablk V c 1 t) := by
  unfold Dat.leavesExact; rw [live1_1 t, aafter_1]
theorem aleaves_2 (c : Dev nD) (t : Fin cfg1.N) : (adat V c).leavesExact 2 t = owns (c : Thread nD τ) (mv t) fullShare (ablk V c 2 t) := by
  unfold Dat.leavesExact; rw [live1_2 t, aafter_2]
theorem aleaves_3 (c : Dev nD) (t : Fin cfg1.N) : (adat V c).leavesExact 3 t = owns (c : Thread nD τ) (mwo t) fullShare (ablk V c 3 t) := by
  unfold Dat.leavesExact; rw [live1_3 t, aafter_3]
theorem aleaves_4 (c : Dev nD) (t : Fin cfg1.N) : (adat V c).leavesExact 4 t = owns (c : Thread nD τ) (mbo t) fullShare (ablk V c 4 t) := by
  unfold Dat.leavesExact; rw [live1_4 t, aafter_4]

set_option maxHeartbeats 4000000 in
theorem attn_point (c : Dev nD) (t : Fin cfg1.N) :
    aPre V c t ⊢ wp frame (wpE (defs₀ (F := F)) Variants.none c none) Set.univ (bodyAt1 t) (fun _ => aPost V c t) := by
  unfold aPre aPost bodyAt1
  simp only [abefore0, abefore1, abefore2, abefore3, abefore4]
  rw [show (adat V c).owesAt () t.succ = (adat V c).owesAt () t.castSucc from rfl]
  rw [show (adat V c).Φ t.succ = restAt V c (t.val + 1) t.isLt from rfl, aPhi_castSucc]
  rw [aleaves_0, aleaves_1, aleaves_2, aleaves_3, aleaves_4]
  by_cases h : t.val % 2 = 0
  · -- a point of the first key half
    rw [Dat.leavesExact_idle (adat V c) 5 t (idle1_5_even t h) (noflush1_5_even t h)]
    rw [restAt_even V c _ _ h, restAt_after_first V c t h]
    iintro ⟨HΦ, Ho, ⟨%d0, H0⟩, ⟨%d1, H1⟩, ⟨%d2, H2⟩, ⟨%d3, H3⟩, ⟨%d4, H4⟩, ⟨%d5, H5⟩⟩
    ihave HΦ' := (rest_open (F := F) c) $$ HΦ
    icases HΦ' with ⟨Hby, HS0, HS1, HS2, Hg⟩
    iapply ((firstPieces V c t h).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, ⟨%e0, HS0⟩, ⟨%e1, HS1⟩, ⟨%e2, HS2⟩⟩
    isplitl [Hby HS0 HS1 HS2 Hg]
    · isplitl [Hby]; · iexact Hby
      isplitl [HS0]
      · unfold mAfter owns; iexists _; isplitr
        swap; · iexact HS0
        ipureintro; exact View.read_writes_of_cover _ _ _ _ _ (first_cover_max V c t h)
      isplitl [HS1]
      · unfold lAfter owns; iexists _; isplitr
        swap; · iexact HS1
        ipureintro; exact View.read_writes_of_cover _ _ _ _ _ (first_cover_den V c t h)
      isplitl [HS2]
      · unfold accAfter owns; iexists _; isplitr
        swap; · iexact HS2
        ipureintro; exact View.read_writes_of_cover _ _ _ _ _ (first_cover_num V c t h)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · -- a point of the second key half
    have h1 : t.val % 2 = 1 := by omega
    rw [show (adat V c).leavesExact 5 t = owns (c : Thread nD τ) (mo t) fullShare ((adat V c).after 5 t) from by
      unfold Dat.leavesExact; rw [live1_5_odd t h1], aafter_5, outAt_odd V c t h1]
    rw [restAt_odd V c t h1, restAt_even V c (t.val + 1) _ (by omega)]
    iintro ⟨⟨Hby, HS0, HS1, HS2, Hg⟩, Ho, ⟨%d0, H0⟩, ⟨%d1, H1⟩, ⟨%d2, H2⟩, ⟨%d3, H3⟩, ⟨%d4, H4⟩, ⟨%d5, H5⟩⟩
    iapply ((secondPieces V c t h1 _ _).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, ⟨%e5, H5⟩, ⟨%e0, HS0⟩, ⟨%e1, HS1⟩, ⟨%e2, HS2⟩⟩
    isplitl [Hby HS0 HS1 HS2 Hg]
    · iapply (rest_close (F := F) c)
      isplitl [Hby]; · iexact Hby
      isplitl [HS0]; · unfold owns; iexists _; iexists _; isplitr; swap; · iexact HS0
                       ipureintro; rfl
      isplitl [HS1]; · unfold owns; iexists _; iexists _; isplitr; swap; · iexact HS1
                       ipureintro; rfl
      isplitl [HS2]; · unfold owns; iexists _; iexists _; isplitr; swap; · iexact HS2
                       ipureintro; rfl
      iexact Hg
    isplitl [Ho]; · iexact Ho
    isplitl [H0]; · iexact H0
    isplitl [H1]; · iexact H1
    isplitl [H2]; · iexact H2
    isplitl [H3]; · iexact H3
    isplitl [H4]; · iexact H4
    unfold outAfter owns; iexists _; isplitr
    swap; · iexact H5
    ipureintro; exact View.read_writes_of_cover _ _ _ _ _ (second_cover_out V c t h1 _ _)

theorem attn_obligation (c : Dev nD) : BodyObligation (adat (F := F) V c) (defs₀ (F := F)) Variants.none () Set.univ := fun t => by
  rw [bigSep_W1, bigSep_W1]
  exact attn_point V c t

/-- What the region is handed is the invariant before the first point, -/
theorem attn_in (c : Dev nD) : Pipeline.ΦA spec1 c ⊢ (adat V c).Φ 0 := by
  rw [show (adat V c).Φ 0 = restAt V c 0 (Nat.zero_le _) from rfl]
  try exact Idealize.SL.BI.Entails.refl _

/-- and the invariant after the last point (an even position) gives it back. -/
theorem attn_out (c : Dev nD) : (adat V c).Φ (Fin.last cfg1.N) ⊢ Pipeline.ΦA spec1 c := by
  rw [show (adat V c).Φ (Fin.last cfg1.N) = restAt V c cfg1.N (Nat.le_refl _) from rfl,
    restAt_even V c cfg1.N _ (by rw [show cfg1.N = 32 from N_1])]
  try exact Idealize.SL.BI.Entails.refl _

end Cert.Kernel.Hand

end
-- ==== Proof.KernelRunB.lean ====
/-
  The whole program's run: host operations, the projection region, three reshapes, the attention region.

  The contents of the core's unscoped buffers are followed from the launch memory through the four segments
  (`B0 … B4`): a stretch of host operations applies them; a region leaves its input arrays as entered and each output
  array at what its write-backs leave, every other buffer untouched. Every weakly fair execution terminates with every
  unscoped buffer at `B4`; the argument arrays are read back through the fold to their launch contents, and the result
  array is what the attention region's write-backs leave.
-/
import proofs.«163083_j50611894616492_2_alg».proof.Proof.Gen.Kernel.Regions
import proofs.«163083_j50611894616492_2_alg».proof.Proof.ProjRegionB
import proofs.«163083_j50611894616492_2_alg».proof.Proof.AttnRegionB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the segment boundaries -/

/-- At launch. -/
abbrev B0 : Dev nD → Valuation τ sig (Elt F) := fun c b => (s₀ m ρ).mem ((c : Dev nD), b)
/-- After the host operations before the projection region. -/
abbrev B1 : Dev nD → Valuation τ sig (Elt F) := fun c => StableHlo.after hostOps0 (B0 m ρ c)
abbrev R1 : (c : Dev nD) → (b : Ref sig .tc) → Buf (Elt F) ((c : Thread nD τ).loc b) := fun c b => B1 m ρ c b
/-- After the projection region. -/
def B2 (c : Dev nD) : Valuation τ sig (Elt F) :=
  Pipeline.withArrays spec0 c (B1 m ρ c) fun w => (pdat (R1 m ρ) c).arrAt w cfg0.N
theorem B2_arr (c : Dev nD) (w : Fin cfg0.W) :
    B2 m ρ c (Proc.devRef .tc (Pipeline.arrRef spec0 w)) = (pdat (R1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev R2 : (c : Dev nD) → (b : Ref sig .tc) → Buf (Elt F) ((c : Thread nD τ).loc b) := fun c b => B2 m ρ c b
theorem exit0_arr (c : Dev nD) (w : Fin cfg0.W) : (pdat (R1 m ρ) c).arrAt w cfg0.N = R2 m ρ c (Pipeline.arrRef spec0 w) :=
  (B2_arr m ρ c w).symm
theorem exit0_rest (c : Dev nD) : ∀ b, b ∉ Finset.univ.image (Pipeline.arrRef spec0) → R2 m ρ c b = R1 m ρ c b :=
  fun b hb => B2_of_ne m ρ c b fun w e => hb (Finset.mem_image.mpr ⟨w, Finset.mem_univ _, e⟩)

/-- After the three reshapes. -/
abbrev B3 : Dev nD → Valuation τ sig (Elt F) := fun c => StableHlo.after hostOps1 (B2 m ρ c)
abbrev R3 : (c : Dev nD) → (b : Ref sig .tc) → Buf (Elt F) ((c : Thread nD τ).loc b) := fun c b => B3 m ρ c b
/-- After the attention region. -/
def B4 (c : Dev nD) : Valuation τ sig (Elt F) :=
  Pipeline.withArrays spec1 c (B3 m ρ c) fun w => (adat (R3 m ρ) c).arrAt w cfg1.N
theorem B4_arr (c : Dev nD) (w : Fin cfg1.W) :
    B4 m ρ c (Proc.devRef .tc (Pipeline.arrRef spec1 w)) = (adat (R3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev R4 : (c : Dev nD) → (b : Ref sig .tc) → Buf (Elt F) ((c : Thread nD τ).loc b) := fun c b => B4 m ρ c b
theorem exit1_arr (c : Dev nD) (w : Fin cfg1.W) : (adat (R3 m ρ) c).arrAt w cfg1.N = R4 m ρ c (Pipeline.arrRef spec1 w) :=
  (B4_arr m ρ c w).symm
theorem exit1_rest (c : Dev nD) : ∀ b, b ∉ Finset.univ.image (Pipeline.arrRef spec1) → R4 m ρ c b = R3 m ρ c b :=
  fun b hb => B4_of_ne m ρ c b fun w e => hb (Finset.mem_image.mpr ⟨w, Finset.mem_univ _, e⟩)

/-! ## An argument array is never written: the fold at its buffer walks back to the launch memory -/

theorem host0_keeps (c : Dev nD) (b : Ref sig .tc) (hb : b ∉ ([main_v0, main_v1, main_v2, main_v3, main_v4, main_v5, main_v6] : List (Ref sig .tc))) :
    B1 m ρ c (Proc.devRef .tc b) = B0 m ρ c (Proc.devRef .tc b) :=
  StableHlo.after_of_writes_sub hostOps0 _ Gen.hostOps0_writes hb
theorem host1_keeps (c : Dev nD) (b : Ref sig .tc) (hb : b ∉ ([main_v8, main_v9, main_v10] : List (Ref sig .tc))) :
    B3 m ρ c (Proc.devRef .tc b) = B2 m ρ c (Proc.devRef .tc b) :=
  StableHlo.after_of_writes_sub hostOps1 _ Gen.hostOps1_writes hb

/-- A buffer that no host operation writes and that is no array of either region ends as launched. -/
theorem B4_bypass (c : Dev nD) (b : Ref sig .tc)
    (h0 : b ∉ ([main_v0, main_v1, main_v2, main_v3, main_v4, main_v5, main_v6] : List (Ref sig .tc)))
    (h1 : ∀ w, Pipeline.arrRef spec0 w ≠ b) (h2 : b ∉ ([main_v8, main_v9, main_v10] : List (Ref sig .tc)))
    (h3 : ∀ w, Pipeline.arrRef spec1 w ≠ b) :
    B4 m ρ c (Proc.devRef .tc b) = m ((c : Thread nD τ).loc b) :=
  (B4_of_ne m ρ c b h3).trans <| (host1_keeps m ρ c b h2).trans <| (B2_of_ne m ρ c b h1).trans <| (host0_keeps m ρ c b h0).trans rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => pdat (R1 m ρ) c
  | ⟨1, _⟩ => fun c => adat (R3 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev Rd (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (B4 m ρ c) ∗ ∃ r, prngReg c r)

/-! ## The two regions as segments -/

set_option backward.isDefEq.respectTransparency.types false in
/-- The projection region: entered with every unscoped buffer at `B1`, left with them at `B2`. -/
def projSeg : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (proj_obligation (R1 m ρ) c).loose
  hwaits := Pipeline.hwaits_of_owed_zero _ _ _ _ L lv 0 fun _ _ => rfl
  pre c := iprop(StableHlo.held (c : Thread nD τ) (Pipeline.ucRefs τ sig) (B1 m ρ c) ∗ Rd c)
  post c := iprop(StableHlo.held (c : Thread nD τ) (Pipeline.ucRefs τ sig) (B2 m ρ c) ∗ Rd c)
  X c := iprop(∃ r, prngReg c r)
  Y c := iprop(∃ r, prngReg c r)
  Z c := Pipeline.unscopedRest (Ix := Unit) (Name := ℕ) (U := UR sig nD τ) (Lvl := ℕ) spec0 c (R1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (R1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (R1 m ρ c) (R2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered with every unscoped buffer at `B3`, left with them at `B4`; its invariant is the
    resting one at both ends. -/
def attnSeg : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (attn_obligation (R3 m ρ) c).loose
  hwaits := Pipeline.hwaits_of_owed_zero _ _ _ _ L lv 1 fun _ _ => rfl
  pre c := iprop(StableHlo.held (c : Thread nD τ) (Pipeline.ucRefs τ sig) (B3 m ρ c) ∗ Rd c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (R3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (R3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (adat (R3 m ρ) c).Φ 0 from rfl]
    have hstart : iprop(Pipeline.scopedRest (Ix := Unit) (Name := ℕ) (U := UR sig nD τ) (Lvl := ℕ) (Val := Elt F) spec1 c ∗ ∃ r, prngReg c r) ⊢ (adat (R3 m ρ) c).Φ 0 := by
      have h := attn_in (R3 m ρ) c; unfold Pipeline.ΦA at h; exact h
    iintro ⟨Hp, -, Hr⟩
    iapply hstart
    isplitl [Hr]; · iexact Hr
    iexact Hp
  hout c := by
    rw [Pipeline.ownSems0_none, show (pdats m ρ 1 c).Φ (Fin.last _) = (adat (R3 m ρ) c).Φ (Fin.last cfg1.N) from rfl]
    have hend : (adat (R3 m ρ) c).Φ (Fin.last cfg1.N) ⊢ iprop(Pipeline.scopedRest (Ix := Unit) (Name := ℕ) (U := UR sig nD τ) (Lvl := ℕ) (Val := Elt F) spec1 c ∗ ∃ r, prngReg c r) := by
      have h := attn_out (R3 m ρ) c; unfold Pipeline.ΦA at h; exact h
    iintro HΦ
    ihave HΦ' := hend $$ HΦ
    icases HΦ' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (R3 m ρ c) (R4 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four segments, and the run -/

abbrev segs : List (Pipeline.Seg (pcfgs (F := F)) adm (pdats m ρ) () defs₀ 𝒱₀ L lv) :=
  [ .host (hseg hostOps0 hostOps0_sub Gen.hostOps0_fresh (B0 m ρ)),
    .region (projSeg m ρ),
    .host (hseg hostOps1 hostOps1_sub Gen.hostOps1_fresh (B2 m ρ)),
    .region (attnSeg m ρ) ]
theorem main_run (c : Dev nD) : main (F := F) c = Pipeline.Seg.run (segs m ρ) := (main_chain c).trans (by chain_rfl)

set_option backward.isDefEq.respectTransparency.types false in
/-- Every weakly fair execution terminates, nothing faulting, with every unscoped buffer of every core at `B4`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rd c)) (Tₙ := Tend m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-- The nine argument arrays end as launched. -/
theorem args_kept (c : Dev nD) :
    B4 m ρ c (Proc.devRef .tc main_arg0) = m ((c : Thread nD τ).loc main_arg0)
    ∧ B4 m ρ c (Proc.devRef .tc main_arg1) = m ((c : Thread nD τ).loc main_arg1)
    ∧ B4 m ρ c (Proc.devRef .tc main_arg2) = m ((c : Thread nD τ).loc main_arg2)
    ∧ B4 m ρ c (Proc.devRef .tc main_arg3) = m ((c : Thread nD τ).loc main_arg3)
    ∧ B4 m ρ c (Proc.devRef .tc main_arg4) = m ((c : Thread nD τ).loc main_arg4)
    ∧ B4 m ρ c (Proc.devRef .tc main_arg5) = m ((c : Thread nD τ).loc main_arg5)
    ∧ B4 m ρ c (Proc.devRef .tc main_arg6) = m ((c : Thread nD τ).loc main_arg6)
    ∧ B4 m ρ c (Proc.devRef .tc main_arg7) = m ((c : Thread nD τ).loc main_arg7)
    ∧ B4 m ρ c (Proc.devRef .tc main_arg8) = m ((c : Thread nD τ).loc main_arg8) :=
  ⟨B4_bypass m ρ c main_arg0 (by decide) (by decide) (by decide) (by decide),
   B4_bypass m ρ c main_arg1 (by decide) (by decide) (by decide) (by decide),
   B4_bypass m ρ c main_arg2 (by decide) (by decide) (by decide) (by decide),
   B4_bypass m ρ c main_arg3 (by decide) (by decide) (by decide) (by decide),
   B4_bypass m ρ c main_arg4 (by decide) (by decide) (by decide) (by decide),
   B4_bypass m ρ c main_arg5 (by decide) (by decide) (by decide) (by decide),
   B4_bypass m ρ c main_arg6 (by decide) (by decide) (by decide) (by decide),
   B4_bypass m ρ c main_arg7 (by decide) (by decide) (by decide) (by decide),
   B4_bypass m ρ c main_arg8 (by decide) (by decide) (by decide) (by decide)⟩

/-- THE FRAME: every weakly fair execution terminates, nothing faulting, the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun s h c =>
    ⟨(h c _ (mem_uc main_arg0 (by decide))).trans (args_kept m ρ c).1,
     (h c _ (mem_uc main_arg1 (by decide))).trans (args_kept m ρ c).2.1,
     (h c _ (mem_uc main_arg2 (by decide))).trans (args_kept m ρ c).2.2.1,
     (h c _ (mem_uc main_arg3 (by decide))).trans (args_kept m ρ c).2.2.2.1,
     (h c _ (mem_uc main_arg4 (by decide))).trans (args_kept m ρ c).2.2.2.2.1,
     (h c _ (mem_uc main_arg5 (by decide))).trans (args_kept m ρ c).2.2.2.2.2.1,
     (h c _ (mem_uc main_arg6 (by decide))).trans (args_kept m ρ c).2.2.2.2.2.2.1,
     (h c _ (mem_uc main_arg7 (by decide))).trans (args_kept m ρ c).2.2.2.2.2.2.2.1,
     (h c _ (mem_uc main_arg8 (by decide))).trans (args_kept m ρ c).2.2.2.2.2.2.2.2⟩) (run_all m ρ)

end Cert.Kernel.Hand

end
-- ==== Proof.ProjRegionI.lean ====
/-
  The projection kernel's region: a grid of 16 points, point `t` taking rows `1024 t … 1024 t + 1023` of the
  flattened input `x : [16384, 1024]`, the whole concatenated weight `[1024, 3072]` and the whole bias row `[1, 3072]`,
  and leaving in its three output blocks the three column thirds of `x_t · W + b`.

  Everything is stated at a parameter `V`, the contents of the core's buffers when the region is entered. Per
  point the body loads the three input blocks whole and stores each output block whole; so what an output block holds
  after the body is one piece, the body's value for that third at the point's input blocks (`q0`, `k0`, `v0`),
  and the region's proof data name exactly that. The body's triple is by symbolic execution of its memory operations.
-/
import proofs.«163083_j50611894616492_2_alg».proof.Proof.Gen.KernelIdeal.Launch
import proofs.«163083_j50611894616492_2_alg».proof.Proof.Gen.KernelIdeal.Skeleton
import proofs.«163083_j50611894616492_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the projection grid, read off its array as the region finds it. -/
def pblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or the
    index has not moved since the last fetch. -/
theorem pbefore_0 {c : Dev nD} (dat : Dat τ (Elt F) Unit ℕ (UR sig nD τ) ℕ cfg0 c) (hA : dat.A 0 = V c (Pipeline.arrRef spec0 0))
    (hafter : ∀ t, dat.after 0 t = pblk V c 0 t) (t : Fin cfg0.N) (d) : dat.before 0 t d = pblk V c 0 t :=
  (dat.before_in_eq_fetched 0 rfl (fun _ => rfl) (fun _ _ _ => rfl) (fun t => by rw [hafter]; unfold Dat.blockOf pblk; rw [hA]; try rfl) t d).trans
    (by unfold Dat.fetched Dat.blockOf pblk; rw [hA]; try rfl)
theorem pbefore_1 {c : Dev nD} (dat : Dat τ (Elt F) Unit ℕ (UR sig nD τ) ℕ cfg0 c) (hA : dat.A 1 = V c (Pipeline.arrRef spec0 1))
    (hafter : ∀ t, dat.after 1 t = pblk V c 1 t) (t : Fin cfg0.N) (d) : dat.before 1 t d = pblk V c 1 t :=
  (dat.before_in_eq_fetched 1 rfl (fun _ => rfl) (fun _ _ _ => rfl) (fun t => by rw [hafter]; unfold Dat.blockOf pblk; rw [hA]; try rfl) t d).trans
    (by unfold Dat.fetched Dat.blockOf pblk; rw [hA]; try rfl)
theorem pbefore_2 {c : Dev nD} (dat : Dat τ (Elt F) Unit ℕ (UR sig nD τ) ℕ cfg0 c) (hA : dat.A 2 = V c (Pipeline.arrRef spec0 2))
    (hafter : ∀ t, dat.after 2 t = pblk V c 2 t) (t : Fin cfg0.N) (d) : dat.before 2 t d = pblk V c 2 t :=
  (dat.before_in_eq_fetched 2 rfl (fun _ => rfl) (fun _ _ _ => rfl) (fun t => by rw [hafter]; unfold Dat.blockOf pblk; rw [hA]; try rfl) t d).trans
    (by unfold Dat.fetched Dat.blockOf pblk; rw [hA]; try rfl)

/-! ## What the body reads and writes: whole blocks -/

abbrev rX : Rect S1024x1024 := Rect.unit (s := S1024x1024) ![0, 0] S1024x1024.size inb_S1024x1024_S1024x1024_0_0
abbrev rW : Rect S1024x3072 := Rect.unit (s := S1024x3072) ![0, 0] S1024x3072.size inb_S1024x3072_S1024x3072_0_0
abbrev rB : Rect S1x3072 := Rect.unit (s := S1x3072) ![0, 0] S1x3072.size inb_S1x3072_S1x3072_0_0

/-- The first third's block after the body: one whole-block piece, columns `0 … 1023` of `x_t · W + b`. -/
def q0 (x : Vec F S1024x1024 .f32) (w : Vec F S1024x3072 .bf16) (b : Vec F S1x3072 .f32) : Vec F S1024x1024 .bf16 :=
  View.canon [⟨rX, k0_pay2 (View.ld x rX) (View.ld w rW) (View.ld b rB)⟩]
/-- The second third's: columns `1024 … 2047`. -/
def k0 (x : Vec F S1024x1024 .f32) (w : Vec F S1024x3072 .bf16) (b : Vec F S1x3072 .f32) : Vec F S1024x1024 .bf16 :=
  View.canon [⟨rX, k0_pay3 (View.ld x rX) (View.ld w rW) (View.ld b rB)⟩]
/-- The last third's: columns `2048 … 3071`. -/
def v0 (x : Vec F S1024x1024 .f32) (w : Vec F S1024x3072 .bf16) (b : Vec F S1x3072 .f32) : Vec F S1024x1024 .bf16 :=
  View.canon [⟨rX, k0_pay4 (View.ld x rX) (View.ld w rW) (View.ld b rB)⟩]

/-- One whole-block piece covers the block. -/
theorem pcover (p : Vec F S1024x1024 .bf16) (y : S1024x1024.Idx) :
    ∃ pc ∈ ([⟨rX, p⟩] : List (View.Piece (Elt F) S1024x1024 .bf16)), y ∈ pc.1.set :=
  View.cover_of_tiled [⟨rX, p⟩] S1024x1024.size (by rfl) y

set_option maxHeartbeats 2000000 in
/-- The body on whole staging buffers: the inputs' come back as they were, each output's holds its third. -/
theorem proj_body (c : Dev nD) (E : Set ℕ) (i : grid0.Coords)
    (a1 : Memref sig .tc .vmem S1024x1024 .f32) (h1 : a1.IsWhole) (a2 : Memref sig .tc .vmem S1024x3072 .bf16) (h2 : a2.IsWhole)
    (a3 : Memref sig .tc .vmem S1x3072 .f32) (h3 : a3.IsWhole) (a4 : Memref sig .tc .vmem S1024x1024 .bf16) (h4 : a4.IsWhole)
    (a5 : Memref sig .tc .vmem S1024x1024 .bf16) (h5 : a5.IsWhole) (a6 : Memref sig .tc .vmem S1024x1024 .bf16) (h6 : a6.IsWhole)
    (x : Vec F S1024x1024 .f32) (w : Vec F S1024x3072 .bf16) (b : Vec F S1x3072 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d) ∗ (∃ d, owns (c : Thread nD τ) a5 fullShare d) ∗ (∃ d, owns (c : Thread nD τ) a6 fullShare d)
        ∗ (iprop(owns (c : Thread nD τ) a1 fullShare x ∗ owns (c : Thread nD τ) a2 fullShare w ∗ owns (c : Thread nD τ) a3 fullShare b
            ∗ owns (c : Thread nD τ) a4 fullShare (q0 x w b) ∗ owns (c : Thread nD τ) a5 fullShare (k0 x w b) ∗ owns (c : Thread nD τ) a6 fullShare (v0 x w b)) -∗ K ⟨⟩))
      ⊢ wp frame (wpE (defs₀ (F := F)) Variants.none c none) E (cc0_kernel i a1 h1 a2 h2 a3 h3 a4 h4 a5 h5 a6 h6) K := by
  simp only [cc0_kernel_eq_skeleton]; unfold cc0_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (pcover _)
  isplitl [H5]
  · iexists _; isplitr
    swap; · iexact H5
    ipureintro
    exact View.read_writes_eq_canon _ _ _ (pcover _)
  iexists _; isplitr
  swap; · iexact H6
  ipureintro
  exact View.read_writes_eq_canon _ _ _ (pcover _)

/-! ## The region's proof data -/

/-- The arrays as the region finds them; after the body at point `t` each input's buffer at its block and each
    output's at its third of the point's blocks; between points only the scoped rest and the generator register;
    nothing owed; full shares. -/
def pdat (c : Dev nD) : Dat τ (Elt F) Unit ℕ (UR sig nD τ) ℕ cfg0 c where
  A w := V c (Pipeline.arrRef spec0 w)
  after w t := match w with
    | ⟨0, _⟩ => pblk V c 0 t
    | ⟨1, _⟩ => pblk V c 1 t
    | ⟨2, _⟩ => pblk V c 2 t
    | ⟨3, _⟩ => q0 (pblk V c 0 t) (pblk V c 1 t) (pblk V c 2 t)
    | ⟨4, _⟩ => k0 (pblk V c 0 t) (pblk V c 1 t) (pblk V c 2 t)
    | ⟨5, _⟩ => v0 (pblk V c 0 t) (pblk V c 1 t) (pblk V c 2 t)
  Φ _ := Pipeline.ΦA spec0 c
  q _ := fullShare
  owed _ := 0

theorem pdat_A (c : Dev nD) (w : Fin cfg0.W) : (pdat V c).A w = V c (Pipeline.arrRef spec0 w) := by
  dsimp only [pdat]

theorem pafter_0 (c : Dev nD) (t : Fin cfg0.N) : (pdat V c).after 0 t = pblk V c 0 t := by dsimp only [pdat]
theorem pafter_1 (c : Dev nD) (t : Fin cfg0.N) : (pdat V c).after 1 t = pblk V c 1 t := by dsimp only [pdat]
theorem pafter_2 (c : Dev nD) (t : Fin cfg0.N) : (pdat V c).after 2 t = pblk V c 2 t := by dsimp only [pdat]
theorem pafter_3 (c : Dev nD) (t : Fin cfg0.N) : (pdat V c).after 3 t = q0 (pblk V c 0 t) (pblk V c 1 t) (pblk V c 2 t) := by dsimp only [pdat]
theorem pafter_4 (c : Dev nD) (t : Fin cfg0.N) : (pdat V c).after 4 t = k0 (pblk V c 0 t) (pblk V c 1 t) (pblk V c 2 t) := by dsimp only [pdat]
theorem pafter_5 (c : Dev nD) (t : Fin cfg0.N) : (pdat V c).after 5 t = v0 (pblk V c 0 t) (pblk V c 1 t) (pblk V c 2 t) := by dsimp only [pdat]

theorem pbefore0 (c : Dev nD) (t : Fin cfg0.N) (d) : (pdat V c).before 0 t d = pblk V c 0 t :=
  pbefore_0 V (pdat V c) (pdat_A V c 0) (pafter_0 V c) t d
theorem pbefore1 (c : Dev nD) (t : Fin cfg0.N) (d) : (pdat V c).before 1 t d = pblk V c 1 t :=
  pbefore_1 V (pdat V c) (pdat_A V c 1) (pafter_1 V c) t d
theorem pbefore2 (c : Dev nD) (t : Fin cfg0.N) (d) : (pdat V c).before 2 t d = pblk V c 2 t :=
  pbefore_2 V (pdat V c) (pdat_A V c 2) (pafter_2 V c) t d

/-! ## The body obligation at a point -/

def pPre (c : Dev nD) (t : Fin cfg0.N) : sProp 𝕄 :=
  iprop((pdat V c).Φ t.castSucc ∗ (pdat V c).owesAt () t.castSucc
    ∗ (∃ d, owns (c : Thread nD τ) (st0_0 t) fullShare ((pdat V c).before 0 t d))
    ∗ (∃ d, owns (c : Thread nD τ) (st0_1 t) fullShare ((pdat V c).before 1 t d))
    ∗ (∃ d, owns (c : Thread nD τ) (st0_2 t) fullShare ((pdat V c).before 2 t d))
    ∗ (∃ d, owns (c : Thread nD τ) (st0_3 t) fullShare ((pdat V c).before 3 t d))
    ∗ (∃ d, owns (c : Thread nD τ) (st0_4 t) fullShare ((pdat V c).before 4 t d))
    ∗ (∃ d, owns (c : Thread nD τ) (st0_5 t) fullShare ((pdat V c).before 5 t d)))

def pPost (c : Dev nD) (t : Fin cfg0.N) : sProp 𝕄 :=
  iprop((pdat V c).Φ t.succ ∗ (pdat V c).owesAt () t.succ
    ∗ owns (c : Thread nD τ) (st0_0 t) fullShare ((pdat V c).after 0 t)
    ∗ owns (c : Thread nD τ) (st0_1 t) fullShare ((pdat V c).after 1 t)
    ∗ owns (c : Thread nD τ) (st0_2 t) fullShare ((pdat V c).after 2 t)
    ∗ owns (c : Thread nD τ) (st0_3 t) fullShare ((pdat V c).after 3 t)
    ∗ owns (c : Thread nD τ) (st0_4 t) fullShare ((pdat V c).after 4 t)
    ∗ owns (c : Thread nD τ) (st0_5 t) fullShare ((pdat V c).after 5 t))

theorem proj_point (c : Dev nD) (t : Fin cfg0.N) :
    pPre V c t ⊢ wp frame (wpE (defs₀ (F := F)) Variants.none c none) Set.univ (bodyAt0 t) (fun _ => pPost V c t) := by
  unfold pPre pPost bodyAt0
  simp only [pbefore0, pbefore1, pbefore2]
  rw [show (pdat V c).Φ t.succ = (pdat V c).Φ t.castSucc from rfl,
    show (pdat V c).owesAt () t.succ = (pdat V c).owesAt () t.castSucc from rfl,
    pafter_0, pafter_1, pafter_2, pafter_3, pafter_4, pafter_5]
  iintro ⟨HΦ, Ho, ⟨%d0, H0⟩, ⟨%d1, H1⟩, ⟨%d2, H2⟩, ⟨%d3, H3⟩, ⟨%d4, H4⟩, ⟨%d5, H5⟩⟩
  iapply (proj_body c Set.univ _ _ _ _ _ _ _ _ _ _ _ _ _ (pblk V c 0 t) (pblk V c 1 t) (pblk V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem proj_obligation (c : Dev nD) : BodyObligation (pdat (F := F) V c) (defs₀ (F := F)) Variants.none () Set.univ := fun t => by
  rw [bigSep_W0, bigSep_W0]
  exact proj_point V c t

end Cert.KernelIdeal.Hand

end
-- ==== Proof.AttnBaseI.lean ====
/-
  The attention kernel's region: a grid of 8 × 2 × 2 points (batch, query half, key half), the key half innermost.
  At a point the body sees one query block, one key block and one value block of 1024 rows each, the output weight and
  bias whole, one output block, and three scratch buffers of its own that live across points: the running maximum `m`,
  the running denominator `l` and the running numerator `acc`.

  Two kinds of points occur. At a point of the FIRST key half the body resets the three scratch buffers and then takes
  one step of the recurrence; it stores nothing into the output block. At a point of the SECOND key half it takes one
  more step from what the first left, and then writes the output block. This module holds what the two runs share:
  the blocks, the two branch conditions in closed form over the grid, where the output window is idle, and the
  region's resting invariant opened into its scratch buffers.
-/
import proofs.«163083_j50611894616492_2_alg».proof.Proof.Gen.KernelIdeal.Launch
import proofs.«163083_j50611894616492_2_alg».proof.Proof.Gen.KernelIdeal.Skeleton
import proofs.«163083_j50611894616492_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the attention grid, read off its array as the region finds it. -/
def ablk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem abefore_0 {c : Dev nD} (dat : Dat τ (Elt F) Unit ℕ (UR sig nD τ) ℕ cfg1 c) (hA : dat.A 0 = V c (Pipeline.arrRef spec1 0))
    (hafter : ∀ t, dat.after 0 t = ablk V c 0 t) (t : Fin cfg1.N) (d) : dat.before 0 t d = ablk V c 0 t :=
  (dat.before_in_eq_fetched 0 rfl (fun _ => rfl) (fun _ _ _ => rfl) (fun t => by rw [hafter]; unfold Dat.blockOf ablk; rw [hA]; try rfl) t d).trans
    (by unfold Dat.fetched Dat.blockOf ablk; rw [hA]; try rfl)
theorem abefore_1 {c : Dev nD} (dat : Dat τ (Elt F) Unit ℕ (UR sig nD τ) ℕ cfg1 c) (hA : dat.A 1 = V c (Pipeline.arrRef spec1 1))
    (hafter : ∀ t, dat.after 1 t = ablk V c 1 t) (t : Fin cfg1.N) (d) : dat.before 1 t d = ablk V c 1 t :=
  (dat.before_in_eq_fetched 1 rfl (fun _ => rfl) (fun _ _ _ => rfl) (fun t => by rw [hafter]; unfold Dat.blockOf ablk; rw [hA]; try rfl) t d).trans
    (by unfold Dat.fetched Dat.blockOf ablk; rw [hA]; try rfl)
theorem abefore_2 {c : Dev nD} (dat : Dat τ (Elt F) Unit ℕ (UR sig nD τ) ℕ cfg1 c) (hA : dat.A 2 = V c (Pipeline.arrRef spec1 2))
    (hafter : ∀ t, dat.after 2 t = ablk V c 2 t) (t : Fin cfg1.N) (d) : dat.before 2 t d = ablk V c 2 t :=
  (dat.before_in_eq_fetched 2 rfl (fun _ => rfl) (fun _ _ _ => rfl) (fun t => by rw [hafter]; unfold Dat.blockOf ablk; rw [hA]; try rfl) t d).trans
    (by unfold Dat.fetched Dat.blockOf ablk; rw [hA]; try rfl)
theorem abefore_3 {c : Dev nD} (dat : Dat τ (Elt F) Unit ℕ (UR sig nD τ) ℕ cfg1 c) (hA : dat.A 3 = V c (Pipeline.arrRef spec1 3))
    (hafter : ∀ t, dat.after 3 t = ablk V c 3 t) (t : Fin cfg1.N) (d) : dat.before 3 t d = ablk V c 3 t :=
  (dat.before_in_eq_fetched 3 rfl (fun _ => rfl) (fun _ _ _ => rfl) (fun t => by rw [hafter]; unfold Dat.blockOf ablk; rw [hA]; try rfl) t d).trans
    (by unfold Dat.fetched Dat.blockOf ablk; rw [hA]; try rfl)
theorem abefore_4 {c : Dev nD} (dat : Dat τ (Elt F) Unit ℕ (UR sig nD τ) ℕ cfg1 c) (hA : dat.A 4 = V c (Pipeline.arrRef spec1 4))
    (hafter : ∀ t, dat.after 4 t = ablk V c 4 t) (t : Fin cfg1.N) (d) : dat.before 4 t d = ablk V c 4 t :=
  (dat.before_in_eq_fetched 4 rfl (fun _ => rfl) (fun _ _ _ => rfl) (fun t => by rw [hafter]; unfold Dat.blockOf ablk; rw [hA]; try rfl) t d).trans
    (by unfold Dat.fetched Dat.blockOf ablk; rw [hA]; try rfl)

/-! ## The two branch conditions, in closed form over the grid -/

/-- "This is a point of the first key half": the body's first condition, as its scalar chain over the third coordinate. -/
abbrev isFirst (i : grid1.Coords) : Prop := (Scalar.cmpi .ne (Scalar.extui (Scalar.cmpi .eq (BitVec.ofNat 32 (i 2).val) 0#32)) 0#32) = 1#1
/-- It holds at the even points. -/
theorem isFirst_iff : ∀ t : Fin cfg1.N, isFirst (grid1.coords t) ↔ t.val % 2 = 0 :=
  (by decide +kernel : ∀ t : Fin grid1.N, isFirst (grid1.coords t) ↔ t.val % 2 = 0)

/-- "This is a point of the second key half": the body's second condition. -/
abbrev isLast (i : grid1.Coords) : Prop := k1_cond2 i = 1#1
/-- It holds at the odd points. -/
theorem isLast_iff : ∀ t : Fin cfg1.N, isLast (grid1.coords t) ↔ t.val % 2 = 1 :=
  (by decide +kernel : ∀ t : Fin grid1.N, isLast (grid1.coords t) ↔ t.val % 2 = 1)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
/-- At a point of the first key half the output window is idle and is not written back. -/
theorem idle1_5_even : ∀ t : Fin cfg1.N, t.val % 2 = 0 → cfg1.idle 5 (grid1.coords t) = true := by decide +kernel
theorem noflush1_5_even : ∀ t : Fin cfg1.N, t.val % 2 = 0 → (cfg1.win 5).flush t = false := by decide +kernel
/-- At a point of the second key half it is live. -/
theorem live1_5_odd : ∀ t : Fin cfg1.N, t.val % 2 = 1 → cfg1.idle 5 (grid1.coords t) = false := by decide +kernel

/-! ## The staging and scratch buffers by name -/

abbrev mq (t : Fin cfg1.N) : Memref sig .tc .vmem S1x1024x1024 .bf16 := win1_0.stage (cfg1.slots t 0)
abbrev hmq (t : Fin cfg1.N) : (mq t).IsWhole := hstage1_0 ((cfg1.slots t 0).cast nbuf1_0)
abbrev mk (t : Fin cfg1.N) : Memref sig .tc .vmem S1x1024x1024 .bf16 := win1_1.stage (cfg1.slots t 1)
abbrev hmk (t : Fin cfg1.N) : (mk t).IsWhole := hstage1_1 ((cfg1.slots t 1).cast nbuf1_1)
abbrev mv (t : Fin cfg1.N) : Memref sig .tc .vmem S1x1024x1024 .bf16 := win1_2.stage (cfg1.slots t 2)
abbrev hmv (t : Fin cfg1.N) : (mv t).IsWhole := hstage1_2 ((cfg1.slots t 2).cast nbuf1_2)
abbrev mwo (t : Fin cfg1.N) : Memref sig .tc .vmem S1024x1024 .bf16 := win1_3.stage (cfg1.slots t 3)
abbrev hmwo (t : Fin cfg1.N) : (mwo t).IsWhole := hstage1_3 ((cfg1.slots t 3).cast nbuf1_3)
abbrev mbo (t : Fin cfg1.N) : Memref sig .tc .vmem S1x1024 .f32 := win1_4.stage (cfg1.slots t 4)
abbrev hmbo (t : Fin cfg1.N) : (mbo t).IsWhole := hstage1_4 ((cfg1.slots t 4).cast nbuf1_4)
abbrev mo (t : Fin cfg1.N) : Memref sig .tc .vmem S1x1024x1024 .f32 := win1_5.stage (cfg1.slots t 5)
abbrev hmo (t : Fin cfg1.N) : (mo t).IsWhole := hstage1_5 ((cfg1.slots t 5).cast nbuf1_5)

/-- The running maximum's, the running denominator's and the running numerator's buffers. -/
abbrev scMax : Memref sig .tc .vmem S1024x1 .f32 := Memref.whole cc1_scratch0
abbrev scDen : Memref sig .tc .vmem S1024x1 .f32 := Memref.whole cc1_scratch1
abbrev scNum : Memref sig .tc .vmem S1024x1024 .f32 := Memref.whole cc1_scratch2
/-- Views through which their contents, and the output block's, are stated. -/
abbrev vMax : View sig .tc .vmem S1024x1 .f32 := (scMax).view
abbrev vDen : View sig .tc .vmem S1024x1 .f32 := (scDen).view
abbrev vNum : View sig .tc .vmem S1024x1024 .f32 := (scNum).view
abbrev vOut : View sig .tc .vmem S1x1024x1024 .f32 := (Memref.whole cc1_stg5_0 : Memref sig .tc .vmem S1x1024x1024 .f32).view

/-- The other kernel's staging buffers, each whole at some contents: they ride along untouched. -/
def bystanders (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))

/-- The region's resting invariant, opened: the bystanders, the three scratch buffers at some contents, the generator
    register at some state. -/
theorem rest_open (c : Dev nD) :
    (Pipeline.ΦA spec1 c : sProp 𝕄) ⊢ iprop(bystanders (F := F) c ∗ (∃ d, owns (c : Thread nD τ) scMax fullShare d)
      ∗ (∃ d, owns (c : Thread nD τ) scDen fullShare d) ∗ (∃ d, owns (c : Thread nD τ) scNum fullShare d) ∗ (∃ r, prngReg c r)) := by
  unfold Pipeline.ΦA bystanders; rw [scopedRest1_eq]; simp only [scMax, scDen, scNum, owns_whole]
  iintro ⟨⟨H0, H1, H2, H3, H4, H5, H6, H7, H8, H9, S0, S1, S2⟩, Hg⟩
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [S0]; · iexact S0
  isplitl [S1]; · iexact S1
  isplitl [S2]; · iexact S2
  iexact Hg

/-- and closed again. -/
theorem rest_close (c : Dev nD) :
    iprop(bystanders (F := F) c ∗ (∃ d, owns (c : Thread nD τ) scMax fullShare d)
      ∗ (∃ d, owns (c : Thread nD τ) scDen fullShare d) ∗ (∃ d, owns (c : Thread nD τ) scNum fullShare d) ∗ (∃ r, prngReg c r))
      ⊢ (Pipeline.ΦA spec1 c : sProp 𝕄) := by
  unfold Pipeline.ΦA bystanders; rw [scopedRest1_eq]; simp only [scMax, scDen, scNum, owns_whole]
  iintro ⟨⟨H0, H1, H2, H3, H4, H5, H6, H7, H8, H9⟩, S0, S1, S2, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    iexact S2
  iexact Hg

end Cert.KernelIdeal.Hand

end
-- ==== Proof.AttnFirstI.lean ====
/-
  The attention body at a point of the FIRST key half, run symbolically on whole buffers: the five input blocks come
  back as they were, the output block is handed back untouched (the body stores nothing into it here), and each of
  the three scratch buffers ends holding the pieces its stores wrote — the reset followed by the first step of the
  recurrence. The pieces are not transcribed: they are whatever the run finds.
-/
import proofs.«163083_j50611894616492_2_alg».proof.Proof.AttnBaseI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def firstHalfRun (c : Dev nD) (i : grid1.Coords) (a3 : Memref sig .tc .vmem S1x1024x1024 .bf16) (h3 : a3.IsWhole) (a4 : Memref sig .tc .vmem S1x1024x1024 .bf16) (h4 : a4.IsWhole) (a5 : Memref sig .tc .vmem S1x1024x1024 .bf16) (h5 : a5.IsWhole) (a6 : Memref sig .tc .vmem S1024x1024 .bf16) (h6 : a6.IsWhole) (a7 : Memref sig .tc .vmem S1x1024 .f32) (h7 : a7.IsWhole) (a8 : Memref sig .tc .vmem S1x1024x1024 .f32) (h8 : a8.IsWhole) (a9 : Memref sig .tc .vmem S1024x1 .f32) (h9 : a9.IsWhole) (a10 : Memref sig .tc .vmem S1024x1 .f32) (h10 : a10.IsWhole) (a11 : Memref sig .tc .vmem S1024x1024 .f32) (h11 : a11.IsWhole)
    (hc0 : isFirst i) (hc1 : ¬isLast i) (x3 x4 x5 : Vec F S1x1024x1024 .bf16) (x6 : Vec F S1024x1024 .bf16) (x7 : Vec F S1x1024 .f32) :
    Σ' (L9 : List (View.Piece (Elt F) S1024x1 .f32)) (L10 : List (View.Piece (Elt F) S1024x1 .f32)), { L11 : List (View.Piece (Elt F) S1024x1024 .f32) //
      ∀ (xi8 : Vec F S1x1024x1024 .f32) (E : Set ℕ) (K : PUnit → sProp 𝕄),
        iprop(owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare xi8
            ∗ (∃ d, owns (c : Thread nD τ) a9 fullShare d) ∗ (∃ d, owns (c : Thread nD τ) a10 fullShare d) ∗ (∃ d, owns (c : Thread nD τ) a11 fullShare d)
            ∗ (iprop(owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare xi8
                ∗ (∃ f, a9.view.loc (c : Thread nD τ) ↦[a9.view.set]{fullShare} a9.view.writes (Elt F) f L9)
                ∗ (∃ f, a10.view.loc (c : Thread nD τ) ↦[a10.view.set]{fullShare} a10.view.writes (Elt F) f L10)
                ∗ (∃ f, a11.view.loc (c : Thread nD τ) ↦[a11.view.set]{fullShare} a11.view.writes (Elt F) f L11)) -∗ K ⟨⟩))
          ⊢ wp frame (wpE (defs₀ (F := F)) Variants.none c none) E (cc1_kernel i a3 h3 a4 h4 a5 h5 a6 h6 a7 h7 a8 h8 a9 h9 a10 h10 a11 h11) K } := by
  refine ⟨?_, ?_, ?_, fun xi8 E K => ?run⟩
  case run =>
    simp only [cc1_kernel_eq_skeleton]; unfold cc1_kernel_skel
    simp only [k1_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := h3.eq_unread hf3; obtain rfl := h4.eq_unread hf4; obtain rfl := h5.eq_unread hf5
    obtain rfl := h6.eq_unread hf6; obtain rfl := h7.eq_unread hf7; obtain rfl := h8.eq_unread hf8
    sl_exec (disch := first | exact hc0 | exact hc1)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]; · iexists _; iexact H9
    isplitl [H10]; · iexists _; iexact H10
    iexists _; iexact H11

end Cert.KernelIdeal.Hand

end
-- ==== Proof.AttnSecondI.lean ====
/-
  The attention body at a point of the SECOND key half, run symbolically on whole buffers: the three scratch buffers are
  handed in at what the first half left (`m`, `l`, `acc`), the body takes the second step of the recurrence from them
  and then writes the output block: numerator over denominator, through the output weight, plus the bias. The five input
  blocks come back as they were; each written buffer ends holding the pieces its stores wrote, whatever the run finds.
-/
import proofs.«163083_j50611894616492_2_alg».proof.Proof.AttnFirstI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def secondHalfRun (c : Dev nD) (i : grid1.Coords) (a3 : Memref sig .tc .vmem S1x1024x1024 .bf16) (h3 : a3.IsWhole) (a4 : Memref sig .tc .vmem S1x1024x1024 .bf16) (h4 : a4.IsWhole) (a5 : Memref sig .tc .vmem S1x1024x1024 .bf16) (h5 : a5.IsWhole) (a6 : Memref sig .tc .vmem S1024x1024 .bf16) (h6 : a6.IsWhole) (a7 : Memref sig .tc .vmem S1x1024 .f32) (h7 : a7.IsWhole) (a8 : Memref sig .tc .vmem S1x1024x1024 .f32) (h8 : a8.IsWhole) (a9 : Memref sig .tc .vmem S1024x1 .f32) (h9 : a9.IsWhole) (a10 : Memref sig .tc .vmem S1024x1 .f32) (h10 : a10.IsWhole) (a11 : Memref sig .tc .vmem S1024x1024 .f32) (h11 : a11.IsWhole)
    (hc0 : ¬isFirst i) (hc1 : isLast i) (x3 x4 x5 : Vec F S1x1024x1024 .bf16) (x6 : Vec F S1024x1024 .bf16) (x7 : Vec F S1x1024 .f32)
    (m0 l0 : Vec F S1024x1 .f32) (acc0 : Vec F S1024x1024 .f32) :
    Σ' (L8 : List (View.Piece (Elt F) S1x1024x1024 .f32)) (L9 : List (View.Piece (Elt F) S1024x1 .f32)) (L10 : List (View.Piece (Elt F) S1024x1 .f32)), { L11 : List (View.Piece (Elt F) S1024x1024 .f32) //
      ∀ (E : Set ℕ) (K : PUnit → sProp 𝕄),
        iprop(owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
            ∗ owns (c : Thread nD τ) a9 fullShare m0 ∗ owns (c : Thread nD τ) a10 fullShare l0 ∗ owns (c : Thread nD τ) a11 fullShare acc0
            ∗ (iprop(owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
                ∗ (∃ f, a8.view.loc (c : Thread nD τ) ↦[a8.view.set]{fullShare} a8.view.writes (Elt F) f L8)
                ∗ (∃ f, a9.view.loc (c : Thread nD τ) ↦[a9.view.set]{fullShare} a9.view.writes (Elt F) f L9)
                ∗ (∃ f, a10.view.loc (c : Thread nD τ) ↦[a10.view.set]{fullShare} a10.view.writes (Elt F) f L10)
                ∗ (∃ f, a11.view.loc (c : Thread nD τ) ↦[a11.view.set]{fullShare} a11.view.writes (Elt F) f L11)) -∗ K ⟨⟩))
          ⊢ wp frame (wpE (defs₀ (F := F)) Variants.none c none) E (cc1_kernel i a3 h3 a4 h4 a5 h5 a6 h6 a7 h7 a8 h8 a9 h9 a10 h10 a11 h11) K } := by
  refine ⟨?_, ?_, ?_, ?_, fun E K => ?run⟩
  case run =>
    simp only [cc1_kernel_eq_skeleton]; unfold cc1_kernel_skel
    simp only [k1_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, Hk⟩
    obtain rfl := h3.eq_unread hf3; obtain rfl := h4.eq_unread hf4; obtain rfl := h5.eq_unread hf5
    obtain rfl := h6.eq_unread hf6; obtain rfl := h7.eq_unread hf7
    obtain rfl := h9.eq_unread hf9; obtain rfl := h10.eq_unread hf10; obtain rfl := h11.eq_unread hf11
    sl_exec (disch := first | exact hc0 | exact hc1)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexists _; iexact H9
    isplitl [H10]; · iexists _; iexact H10
    iexists _; iexact H11

end Cert.KernelIdeal.Hand

end
-- ==== Proof.AttnRegionI.lean ====
/-
  The attention region's proof data and its body obligation.

  After a point `t` of the first key half the three scratch buffers hold what that point's run wrote: `mAfter`,
  `lAfter`, `accAfter` — the first step of the recurrence on the point's query, key and value blocks. The next point
  `t + 1` (same batch, same query half, second key half) finds them there, takes the second step and writes the output
  block `outAfter`. Between a second-half point and the next first-half point nothing is remembered: the first-half
  body resets the scratch before reading it. The output window is idle at first-half points and written back at
  second-half points only.
-/
import proofs.«163083_j50611894616492_2_alg».proof.Proof.AttnSecondI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the two runs leave -/

/-- The pieces the first-half run writes at point `t` into the three scratch buffers. -/
def firstPieces (c : Dev nD) (t : Fin cfg1.N) (h : t.val % 2 = 0) :=
  firstHalfRun (F := F) c (grid1.coords t) (mq t) (hmq t) (mk t) (hmk t) (mv t) (hmv t) (mwo t) (hmwo t) (mbo t) (hmbo t) (mo t) (hmo t) scMax (Memref.isWhole_whole _) scDen (Memref.isWhole_whole _) scNum (Memref.isWhole_whole _)
    ((isFirst_iff t).mpr h) (fun hl => by have := (isLast_iff t).mp hl; omega) (ablk V c 0 t) (ablk V c 1 t) (ablk V c 2 t) (ablk V c 3 t) (ablk V c 4 t)

/-- Each scratch buffer's pieces tile it. -/
theorem first_cover_max (c : Dev nD) (t : Fin cfg1.N) (h : t.val % 2 = 0) (y : S1024x1.Idx) :
    ∃ pc ∈ (firstPieces V c t h).1, y ∈ pc.1.set :=
  View.cover_of_tiledL (firstPieces V c t h).1 S1024x1.size (by sl_kernel_rfl) y
theorem first_cover_den (c : Dev nD) (t : Fin cfg1.N) (h : t.val % 2 = 0) (y : S1024x1.Idx) :
    ∃ pc ∈ (firstPieces V c t h).2.1, y ∈ pc.1.set :=
  View.cover_of_tiledL (firstPieces V c t h).2.1 S1024x1.size (by sl_kernel_rfl) y
theorem first_cover_num (c : Dev nD) (t : Fin cfg1.N) (h : t.val % 2 = 0) (y : S1024x1024.Idx) :
    ∃ pc ∈ (firstPieces V c t h).2.2.1, y ∈ pc.1.set :=
  View.cover_of_tiledL (firstPieces V c t h).2.2.1 S1024x1024.size (by sl_kernel_rfl) y

/-- The running maximum, denominator and numerator after the first-half point `t`. -/
def mAfter (c : Dev nD) (t : Fin cfg1.N) (h : t.val % 2 = 0) : Vec F S1024x1 .f32 :=
  vMax.read (Elt F) (vMax.writes (Elt F) vMax.junk (firstPieces V c t h).1)
def lAfter (c : Dev nD) (t : Fin cfg1.N) (h : t.val % 2 = 0) : Vec F S1024x1 .f32 :=
  vDen.read (Elt F) (vDen.writes (Elt F) vDen.junk (firstPieces V c t h).2.1)
def accAfter (c : Dev nD) (t : Fin cfg1.N) (h : t.val % 2 = 0) : Vec F S1024x1024 .f32 :=
  vNum.read (Elt F) (vNum.writes (Elt F) vNum.junk (firstPieces V c t h).2.2.1)

/-- The pieces the second-half run writes at point `t`, from what the first-half point `t'` before it left. -/
def secondPieces (c : Dev nD) (t : Fin cfg1.N) (h : t.val % 2 = 1) (t' : Fin cfg1.N) (h' : t'.val % 2 = 0) :=
  secondHalfRun (F := F) c (grid1.coords t) (mq t) (hmq t) (mk t) (hmk t) (mv t) (hmv t) (mwo t) (hmwo t) (mbo t) (hmbo t) (mo t) (hmo t) scMax (Memref.isWhole_whole _) scDen (Memref.isWhole_whole _) scNum (Memref.isWhole_whole _)
    (fun hf => by have := (isFirst_iff t).mp hf; omega) ((isLast_iff t).mpr h) (ablk V c 0 t) (ablk V c 1 t) (ablk V c 2 t) (ablk V c 3 t) (ablk V c 4 t)
    (mAfter V c t' h') (lAfter V c t' h') (accAfter V c t' h')

/-- The output block's pieces tile it. -/
theorem second_cover_out (c : Dev nD) (t : Fin cfg1.N) (h : t.val % 2 = 1) (t' : Fin cfg1.N) (h' : t'.val % 2 = 0) (y : S1x1024x1024.Idx) :
    ∃ pc ∈ (secondPieces V c t h t' h').1, y ∈ pc.1.set :=
  View.cover_of_tiledL (secondPieces V c t h t' h').1 S1x1024x1024.size (by sl_kernel_rfl) y

/-- The output block after the second-half point `t`. -/
def outAfter (c : Dev nD) (t : Fin cfg1.N) (h : t.val % 2 = 1) (t' : Fin cfg1.N) (h' : t'.val % 2 = 0) : Vec F S1x1024x1024 .f32 :=
  vOut.read (Elt F) (vOut.writes (Elt F) vOut.junk (secondPieces V c t h t' h').1)

/-- The output block after position `n`: at an odd position what the second-half run leaves over the position before;
    at an even position the window is idle and this value is never consulted. -/
def outAt (c : Dev nD) : (n : ℕ) → n < cfg1.N → Vec F S1x1024x1024 .f32
  | 0, _ => vOut.read (Elt F) vOut.junk
  | n + 1, hn =>
    if h : n % 2 = 0 then outAfter V c ⟨n + 1, hn⟩ (by dsimp only; omega) ⟨n, Nat.lt_of_succ_lt hn⟩ h
    else vOut.read (Elt F) vOut.junk

/-- The invariant before position `n`: after a first-half point the scratch buffers at what it left; otherwise the
    resting invariant. -/
def restAt (c : Dev nD) : (n : ℕ) → n ≤ cfg1.N → sProp 𝕄
  | 0, _ => Pipeline.ΦA spec1 c
  | n + 1, hn =>
    if h : n % 2 = 0 then
      iprop(bystanders (F := F) c ∗ owns (c : Thread nD τ) scMax fullShare (mAfter V c ⟨n, hn⟩ h)
        ∗ owns (c : Thread nD τ) scDen fullShare (lAfter V c ⟨n, hn⟩ h) ∗ owns (c : Thread nD τ) scNum fullShare (accAfter V c ⟨n, hn⟩ h)
        ∗ (∃ r, prngReg c r))
    else Pipeline.ΦA spec1 c

theorem restAt_even (c : Dev nD) (n : ℕ) (hn : n ≤ cfg1.N) (h : n % 2 = 0) : restAt V c n hn = Pipeline.ΦA spec1 c := by
  cases n with
  | zero => rfl
  | succ n => exact dif_neg (by omega)

theorem restAt_after_first (c : Dev nD) (t : Fin cfg1.N) (h : t.val % 2 = 0) :
    restAt V c (t.val + 1) t.isLt = iprop(bystanders (F := F) c ∗ owns (c : Thread nD τ) scMax fullShare (mAfter V c t h)
        ∗ owns (c : Thread nD τ) scDen fullShare (lAfter V c t h) ∗ owns (c : Thread nD τ) scNum fullShare (accAfter V c t h)
        ∗ (∃ r, prngReg c r)) := dif_pos h

/-! ## The proof data -/

def adat (c : Dev nD) : Dat τ (Elt F) Unit ℕ (UR sig nD τ) ℕ cfg1 c where
  A w := V c (Pipeline.arrRef spec1 w)
  after w t := match w with
    | ⟨0, _⟩ => ablk V c 0 t
    | ⟨1, _⟩ => ablk V c 1 t
    | ⟨2, _⟩ => ablk V c 2 t
    | ⟨3, _⟩ => ablk V c 3 t
    | ⟨4, _⟩ => ablk V c 4 t
    | ⟨5, _⟩ => outAt V c t.val t.isLt
  Φ n := restAt V c n.val (Nat.le_of_lt_succ n.isLt)
  q _ := fullShare
  owed _ := 0

theorem adat_A (c : Dev nD) (w : Fin cfg1.W) : (adat V c).A w = V c (Pipeline.arrRef spec1 w) := by
  dsimp only [adat]

theorem aafter_0 (c : Dev nD) (t : Fin cfg1.N) : (adat V c).after 0 t = ablk V c 0 t := by dsimp only [adat]
theorem aafter_1 (c : Dev nD) (t : Fin cfg1.N) : (adat V c).after 1 t = ablk V c 1 t := by dsimp only [adat]
theorem aafter_2 (c : Dev nD) (t : Fin cfg1.N) : (adat V c).after 2 t = ablk V c 2 t := by dsimp only [adat]
theorem aafter_3 (c : Dev nD) (t : Fin cfg1.N) : (adat V c).after 3 t = ablk V c 3 t := by dsimp only [adat]
theorem aafter_4 (c : Dev nD) (t : Fin cfg1.N) : (adat V c).after 4 t = ablk V c 4 t := by dsimp only [adat]
theorem aafter_5 (c : Dev nD) (t : Fin cfg1.N) : (adat V c).after 5 t = outAt V c t.val t.isLt := by dsimp only [adat]

theorem abefore0 (c : Dev nD) (t : Fin cfg1.N) (d) : (adat V c).before 0 t d = ablk V c 0 t :=
  abefore_0 V (adat V c) (adat_A V c 0) (aafter_0 V c) t d
theorem abefore1 (c : Dev nD) (t : Fin cfg1.N) (d) : (adat V c).before 1 t d = ablk V c 1 t :=
  abefore_1 V (adat V c) (adat_A V c 1) (aafter_1 V c) t d
theorem abefore2 (c : Dev nD) (t : Fin cfg1.N) (d) : (adat V c).before 2 t d = ablk V c 2 t :=
  abefore_2 V (adat V c) (adat_A V c 2) (aafter_2 V c) t d
theorem abefore3 (c : Dev nD) (t : Fin cfg1.N) (d) : (adat V c).before 3 t d = ablk V c 3 t :=
  abefore_3 V (adat V c) (adat_A V c 3) (aafter_3 V c) t d
theorem abefore4 (c : Dev nD) (t : Fin cfg1.N) (d) : (adat V c).before 4 t d = ablk V c 4 t :=
  abefore_4 V (adat V c) (adat_A V c 4) (aafter_4 V c) t d

theorem aPhi_castSucc (c : Dev nD) (t : Fin cfg1.N) :
    (adat V c).Φ t.castSucc = restAt V c t.val (Nat.le_of_lt t.isLt) := by
  dsimp only [adat]; simp only [Fin.coe_castSucc]

/-- The output block after an odd point, named through the point before. -/
theorem outAt_odd (c : Dev nD) (t : Fin cfg1.N) (h : t.val % 2 = 1) :
    outAt V c t.val t.isLt = outAfter V c t h ⟨t.val - 1, Nat.lt_of_le_of_lt (Nat.sub_le _ _) t.isLt⟩ (by dsimp only; omega) := by
  obtain ⟨n, hn⟩ := t
  cases n with
  | zero => exact absurd h (by dsimp only; omega)
  | succ n => exact dif_pos (by dsimp only at h; omega)

/-- The invariant before an odd point, named through the point before. -/
theorem restAt_odd (c : Dev nD) (t : Fin cfg1.N) (h : t.val % 2 = 1) :
    restAt V c t.val (Nat.le_of_lt t.isLt) = iprop(bystanders (F := F) c
        ∗ owns (c : Thread nD τ) scMax fullShare (mAfter V c ⟨t.val - 1, Nat.lt_of_le_of_lt (Nat.sub_le _ _) t.isLt⟩ (by dsimp only; omega))
        ∗ owns (c : Thread nD τ) scDen fullShare (lAfter V c ⟨t.val - 1, Nat.lt_of_le_of_lt (Nat.sub_le _ _) t.isLt⟩ (by dsimp only; omega))
        ∗ owns (c : Thread nD τ) scNum fullShare (accAfter V c ⟨t.val - 1, Nat.lt_of_le_of_lt (Nat.sub_le _ _) t.isLt⟩ (by dsimp only; omega))
        ∗ (∃ r, prngReg c r)) := by
  obtain ⟨n, hn⟩ := t
  cases n with
  | zero => exact absurd h (by dsimp only; omega)
  | succ n => exact dif_pos (by dsimp only at h; omega)

/-! ## The body obligation at a point -/

def aPre (c : Dev nD) (t : Fin cfg1.N) : sProp 𝕄 :=
  iprop((adat V c).Φ t.castSucc ∗ (adat V c).owesAt () t.castSucc
    ∗ (∃ d, owns (c : Thread nD τ) (mq t) fullShare ((adat V c).before 0 t d))
    ∗ (∃ d, owns (c : Thread nD τ) (mk t) fullShare ((adat V c).before 1 t d))
    ∗ (∃ d, owns (c : Thread nD τ) (mv t) fullShare ((adat V c).before 2 t d))
    ∗ (∃ d, owns (c : Thread nD τ) (mwo t) fullShare ((adat V c).before 3 t d))
    ∗ (∃ d, owns (c : Thread nD τ) (mbo t) fullShare ((adat V c).before 4 t d))
    ∗ (∃ d, owns (c : Thread nD τ) (mo t) fullShare ((adat V c).before 5 t d)))

def aPost (c : Dev nD) (t : Fin cfg1.N) : sProp 𝕄 :=
  iprop((adat V c).Φ t.succ ∗ (adat V c).owesAt () t.succ
    ∗ (adat V c).leavesExact 0 t ∗ (adat V c).leavesExact 1 t ∗ (adat V c).leavesExact 2 t
    ∗ (adat V c).leavesExact 3 t ∗ (adat V c).leavesExact 4 t ∗ (adat V c).leavesExact 5 t)

theorem aleaves_0 (c : Dev nD) (t : Fin cfg1.N) : (adat V c).leavesExact 0 t = owns (c : Thread nD τ) (mq t) fullShare (ablk V c 0 t) := by
  unfold Dat.leavesExact; rw [live1_0 t, aafter_0]
theorem aleaves_1 (c : Dev nD) (t : Fin cfg1.N) : (adat V c).leavesExact 1 t = owns (c : Thread nD τ) (mk t) fullShare (ablk V c 1 t) := by
  unfold Dat.leavesExact; rw [live1_1 t, aafter_1]
theorem aleaves_2 (c : Dev nD) (t : Fin cfg1.N) : (adat V c).leavesExact 2 t = owns (c : Thread nD τ) (mv t) fullShare (ablk V c 2 t) := by
  unfold Dat.leavesExact; rw [live1_2 t, aafter_2]
theorem aleaves_3 (c : Dev nD) (t : Fin cfg1.N) : (adat V c).leavesExact 3 t = owns (c : Thread nD τ) (mwo t) fullShare (ablk V c 3 t) := by
  unfold Dat.leavesExact; rw [live1_3 t, aafter_3]
theorem aleaves_4 (c : Dev nD) (t : Fin cfg1.N) : (adat V c).leavesExact 4 t = owns (c : Thread nD τ) (mbo t) fullShare (ablk V c 4 t) := by
  unfold Dat.leavesExact; rw [live1_4 t, aafter_4]

set_option maxHeartbeats 4000000 in
theorem attn_point (c : Dev nD) (t : Fin cfg1.N) :
    aPre V c t ⊢ wp frame (wpE (defs₀ (F := F)) Variants.none c none) Set.univ (bodyAt1 t) (fun _ => aPost V c t) := by
  unfold aPre aPost bodyAt1
  simp only [abefore0, abefore1, abefore2, abefore3, abefore4]
  rw [show (adat V c).owesAt () t.succ = (adat V c).owesAt () t.castSucc from rfl]
  rw [show (adat V c).Φ t.succ = restAt V c (t.val + 1) t.isLt from rfl, aPhi_castSucc]
  rw [aleaves_0, aleaves_1, aleaves_2, aleaves_3, aleaves_4]
  by_cases h : t.val % 2 = 0
  · -- a point of the first key half
    rw [Dat.leavesExact_idle (adat V c) 5 t (idle1_5_even t h) (noflush1_5_even t h)]
    rw [restAt_even V c _ _ h, restAt_after_first V c t h]
    iintro ⟨HΦ, Ho, ⟨%d0, H0⟩, ⟨%d1, H1⟩, ⟨%d2, H2⟩, ⟨%d3, H3⟩, ⟨%d4, H4⟩, ⟨%d5, H5⟩⟩
    ihave HΦ' := (rest_open (F := F) c) $$ HΦ
    icases HΦ' with ⟨Hby, HS0, HS1, HS2, Hg⟩
    iapply ((firstPieces V c t h).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, ⟨%e0, HS0⟩, ⟨%e1, HS1⟩, ⟨%e2, HS2⟩⟩
    isplitl [Hby HS0 HS1 HS2 Hg]
    · isplitl [Hby]; · iexact Hby
      isplitl [HS0]
      · unfold mAfter owns; iexists _; isplitr
        swap; · iexact HS0
        ipureintro; exact View.read_writes_of_cover _ _ _ _ _ (first_cover_max V c t h)
      isplitl [HS1]
      · unfold lAfter owns; iexists _; isplitr
        swap; · iexact HS1
        ipureintro; exact View.read_writes_of_cover _ _ _ _ _ (first_cover_den V c t h)
      isplitl [HS2]
      · unfold accAfter owns; iexists _; isplitr
        swap; · iexact HS2
        ipureintro; exact View.read_writes_of_cover _ _ _ _ _ (first_cover_num V c t h)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · -- a point of the second key half
    have h1 : t.val % 2 = 1 := by omega
    rw [show (adat V c).leavesExact 5 t = owns (c : Thread nD τ) (mo t) fullShare ((adat V c).after 5 t) from by
      unfold Dat.leavesExact; rw [live1_5_odd t h1], aafter_5, outAt_odd V c t h1]
    rw [restAt_odd V c t h1, restAt_even V c (t.val + 1) _ (by omega)]
    iintro ⟨⟨Hby, HS0, HS1, HS2, Hg⟩, Ho, ⟨%d0, H0⟩, ⟨%d1, H1⟩, ⟨%d2, H2⟩, ⟨%d3, H3⟩, ⟨%d4, H4⟩, ⟨%d5, H5⟩⟩
    iapply ((secondPieces V c t h1 _ _).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, ⟨%e5, H5⟩, ⟨%e0, HS0⟩, ⟨%e1, HS1⟩, ⟨%e2, HS2⟩⟩
    isplitl [Hby HS0 HS1 HS2 Hg]
    · iapply (rest_close (F := F) c)
      isplitl [Hby]; · iexact Hby
      isplitl [HS0]; · unfold owns; iexists _; iexists _; isplitr; swap; · iexact HS0
                       ipureintro; rfl
      isplitl [HS1]; · unfold owns; iexists _; iexists _; isplitr; swap; · iexact HS1
                       ipureintro; rfl
      isplitl [HS2]; · unfold owns; iexists _; iexists _; isplitr; swap; · iexact HS2
                       ipureintro; rfl
      iexact Hg
    isplitl [Ho]; · iexact Ho
    isplitl [H0]; · iexact H0
    isplitl [H1]; · iexact H1
    isplitl [H2]; · iexact H2
    isplitl [H3]; · iexact H3
    isplitl [H4]; · iexact H4
    unfold outAfter owns; iexists _; isplitr
    swap; · iexact H5
    ipureintro; exact View.read_writes_of_cover _ _ _ _ _ (second_cover_out V c t h1 _ _)

theorem attn_obligation (c : Dev nD) : BodyObligation (adat (F := F) V c) (defs₀ (F := F)) Variants.none () Set.univ := fun t => by
  rw [bigSep_W1, bigSep_W1]
  exact attn_point V c t

/-- What the region is handed is the invariant before the first point, -/
theorem attn_in (c : Dev nD) : Pipeline.ΦA spec1 c ⊢ (adat V c).Φ 0 := by
  rw [show (adat V c).Φ 0 = restAt V c 0 (Nat.zero_le _) from rfl]
  try exact Idealize.SL.BI.Entails.refl _

/-- and the invariant after the last point (an even position) gives it back. -/
theorem attn_out (c : Dev nD) : (adat V c).Φ (Fin.last cfg1.N) ⊢ Pipeline.ΦA spec1 c := by
  rw [show (adat V c).Φ (Fin.last cfg1.N) = restAt V c cfg1.N (Nat.le_refl _) from rfl,
    restAt_even V c cfg1.N _ (by rw [show cfg1.N = 32 from N_1])]
  try exact Idealize.SL.BI.Entails.refl _

end Cert.KernelIdeal.Hand

end
-- ==== Proof.KernelRunI.lean ====
/-
  The whole program's run: host operations, the projection region, three reshapes, the attention region.

  The contents of the core's unscoped buffers are followed from the launch memory through the four segments
  (`B0 … B4`): a stretch of host operations applies them; a region leaves its input arrays as entered and each output
  array at what its write-backs leave, every other buffer untouched. Every weakly fair execution terminates with every
  unscoped buffer at `B4`; the argument arrays are read back through the fold to their launch contents, and the result
  array is what the attention region's write-backs leave.
-/
import proofs.«163083_j50611894616492_2_alg».proof.Proof.Gen.KernelIdeal.Regions
import proofs.«163083_j50611894616492_2_alg».proof.Proof.ProjRegionI
import proofs.«163083_j50611894616492_2_alg».proof.Proof.AttnRegionI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the segment boundaries -/

/-- At launch. -/
abbrev B0 : Dev nD → Valuation τ sig (Elt F) := fun c b => (s₀ m ρ).mem ((c : Dev nD), b)
/-- After the host operations before the projection region. -/
abbrev B1 : Dev nD → Valuation τ sig (Elt F) := fun c => StableHlo.after hostOps0 (B0 m ρ c)
abbrev R1 : (c : Dev nD) → (b : Ref sig .tc) → Buf (Elt F) ((c : Thread nD τ).loc b) := fun c b => B1 m ρ c b
/-- After the projection region. -/
def B2 (c : Dev nD) : Valuation τ sig (Elt F) :=
  Pipeline.withArrays spec0 c (B1 m ρ c) fun w => (pdat (R1 m ρ) c).arrAt w cfg0.N
theorem B2_arr (c : Dev nD) (w : Fin cfg0.W) :
    B2 m ρ c (Proc.devRef .tc (Pipeline.arrRef spec0 w)) = (pdat (R1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev R2 : (c : Dev nD) → (b : Ref sig .tc) → Buf (Elt F) ((c : Thread nD τ).loc b) := fun c b => B2 m ρ c b
theorem exit0_arr (c : Dev nD) (w : Fin cfg0.W) : (pdat (R1 m ρ) c).arrAt w cfg0.N = R2 m ρ c (Pipeline.arrRef spec0 w) :=
  (B2_arr m ρ c w).symm
theorem exit0_rest (c : Dev nD) : ∀ b, b ∉ Finset.univ.image (Pipeline.arrRef spec0) → R2 m ρ c b = R1 m ρ c b :=
  fun b hb => B2_of_ne m ρ c b fun w e => hb (Finset.mem_image.mpr ⟨w, Finset.mem_univ _, e⟩)

/-- After the three reshapes. -/
abbrev B3 : Dev nD → Valuation τ sig (Elt F) := fun c => StableHlo.after hostOps1 (B2 m ρ c)
abbrev R3 : (c : Dev nD) → (b : Ref sig .tc) → Buf (Elt F) ((c : Thread nD τ).loc b) := fun c b => B3 m ρ c b
/-- After the attention region. -/
def B4 (c : Dev nD) : Valuation τ sig (Elt F) :=
  Pipeline.withArrays spec1 c (B3 m ρ c) fun w => (adat (R3 m ρ) c).arrAt w cfg1.N
theorem B4_arr (c : Dev nD) (w : Fin cfg1.W) :
    B4 m ρ c (Proc.devRef .tc (Pipeline.arrRef spec1 w)) = (adat (R3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev R4 : (c : Dev nD) → (b : Ref sig .tc) → Buf (Elt F) ((c : Thread nD τ).loc b) := fun c b => B4 m ρ c b
theorem exit1_arr (c : Dev nD) (w : Fin cfg1.W) : (adat (R3 m ρ) c).arrAt w cfg1.N = R4 m ρ c (Pipeline.arrRef spec1 w) :=
  (B4_arr m ρ c w).symm
theorem exit1_rest (c : Dev nD) : ∀ b, b ∉ Finset.univ.image (Pipeline.arrRef spec1) → R4 m ρ c b = R3 m ρ c b :=
  fun b hb => B4_of_ne m ρ c b fun w e => hb (Finset.mem_image.mpr ⟨w, Finset.mem_univ _, e⟩)

/-! ## An argument array is never written: the fold at its buffer walks back to the launch memory -/

theorem host0_keeps (c : Dev nD) (b : Ref sig .tc) (hb : b ∉ ([main_v0, main_v1, main_v2, main_v3, main_v4, main_v5, main_v6] : List (Ref sig .tc))) :
    B1 m ρ c (Proc.devRef .tc b) = B0 m ρ c (Proc.devRef .tc b) :=
  StableHlo.after_of_writes_sub hostOps0 _ Gen.hostOps0_writes hb
theorem host1_keeps (c : Dev nD) (b : Ref sig .tc) (hb : b ∉ ([main_v8, main_v9, main_v10] : List (Ref sig .tc))) :
    B3 m ρ c (Proc.devRef .tc b) = B2 m ρ c (Proc.devRef .tc b) :=
  StableHlo.after_of_writes_sub hostOps1 _ Gen.hostOps1_writes hb

/-- A buffer that no host operation writes and that is no array of either region ends as launched. -/
theorem B4_bypass (c : Dev nD) (b : Ref sig .tc)
    (h0 : b ∉ ([main_v0, main_v1, main_v2, main_v3, main_v4, main_v5, main_v6] : List (Ref sig .tc)))
    (h1 : ∀ w, Pipeline.arrRef spec0 w ≠ b) (h2 : b ∉ ([main_v8, main_v9, main_v10] : List (Ref sig .tc)))
    (h3 : ∀ w, Pipeline.arrRef spec1 w ≠ b) :
    B4 m ρ c (Proc.devRef .tc b) = m ((c : Thread nD τ).loc b) :=
  (B4_of_ne m ρ c b h3).trans <| (host1_keeps m ρ c b h2).trans <| (B2_of_ne m ρ c b h1).trans <| (host0_keeps m ρ c b h0).trans rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => pdat (R1 m ρ) c
  | ⟨1, _⟩ => fun c => adat (R3 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev Rd (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (B4 m ρ c) ∗ ∃ r, prngReg c r)

/-! ## The two regions as segments -/

set_option backward.isDefEq.respectTransparency.types false in
/-- The projection region: entered with every unscoped buffer at `B1`, left with them at `B2`. -/
def projSeg : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (proj_obligation (R1 m ρ) c).loose
  hwaits := Pipeline.hwaits_of_owed_zero _ _ _ _ L lv 0 fun _ _ => rfl
  pre c := iprop(StableHlo.held (c : Thread nD τ) (Pipeline.ucRefs τ sig) (B1 m ρ c) ∗ Rd c)
  post c := iprop(StableHlo.held (c : Thread nD τ) (Pipeline.ucRefs τ sig) (B2 m ρ c) ∗ Rd c)
  X c := iprop(∃ r, prngReg c r)
  Y c := iprop(∃ r, prngReg c r)
  Z c := Pipeline.unscopedRest (Ix := Unit) (Name := ℕ) (U := UR sig nD τ) (Lvl := ℕ) spec0 c (R1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (R1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (R1 m ρ c) (R2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered with every unscoped buffer at `B3`, left with them at `B4`; its invariant is the
    resting one at both ends. -/
def attnSeg : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (attn_obligation (R3 m ρ) c).loose
  hwaits := Pipeline.hwaits_of_owed_zero _ _ _ _ L lv 1 fun _ _ => rfl
  pre c := iprop(StableHlo.held (c : Thread nD τ) (Pipeline.ucRefs τ sig) (B3 m ρ c) ∗ Rd c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (R3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (R3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (adat (R3 m ρ) c).Φ 0 from rfl]
    have hstart : iprop(Pipeline.scopedRest (Ix := Unit) (Name := ℕ) (U := UR sig nD τ) (Lvl := ℕ) (Val := Elt F) spec1 c ∗ ∃ r, prngReg c r) ⊢ (adat (R3 m ρ) c).Φ 0 := by
      have h := attn_in (R3 m ρ) c; unfold Pipeline.ΦA at h; exact h
    iintro ⟨Hp, -, Hr⟩
    iapply hstart
    isplitl [Hr]; · iexact Hr
    iexact Hp
  hout c := by
    rw [Pipeline.ownSems0_none, show (pdats m ρ 1 c).Φ (Fin.last _) = (adat (R3 m ρ) c).Φ (Fin.last cfg1.N) from rfl]
    have hend : (adat (R3 m ρ) c).Φ (Fin.last cfg1.N) ⊢ iprop(Pipeline.scopedRest (Ix := Unit) (Name := ℕ) (U := UR sig nD τ) (Lvl := ℕ) (Val := Elt F) spec1 c ∗ ∃ r, prngReg c r) := by
      have h := attn_out (R3 m ρ) c; unfold Pipeline.ΦA at h; exact h
    iintro HΦ
    ihave HΦ' := hend $$ HΦ
    icases HΦ' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (R3 m ρ c) (R4 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four segments, and the run -/

abbrev segs : List (Pipeline.Seg (pcfgs (F := F)) adm (pdats m ρ) () defs₀ 𝒱₀ L lv) :=
  [ .host (hseg hostOps0 hostOps0_sub Gen.hostOps0_fresh (B0 m ρ)),
    .region (projSeg m ρ),
    .host (hseg hostOps1 hostOps1_sub Gen.hostOps1_fresh (B2 m ρ)),
    .region (attnSeg m ρ) ]
theorem main_run (c : Dev nD) : main (F := F) c = Pipeline.Seg.run (segs m ρ) := (main_chain c).trans (by chain_rfl)

set_option backward.isDefEq.respectTransparency.types false in
/-- Every weakly fair execution terminates, nothing faulting, with every unscoped buffer of every core at `B4`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rd c)) (Tₙ := Tend m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-- The nine argument arrays end as launched. -/
theorem args_kept (c : Dev nD) :
    B4 m ρ c (Proc.devRef .tc main_arg0) = m ((c : Thread nD τ).loc main_arg0)
    ∧ B4 m ρ c (Proc.devRef .tc main_arg1) = m ((c : Thread nD τ).loc main_arg1)
    ∧ B4 m ρ c (Proc.devRef .tc main_arg2) = m ((c : Thread nD τ).loc main_arg2)
    ∧ B4 m ρ c (Proc.devRef .tc main_arg3) = m ((c : Thread nD τ).loc main_arg3)
    ∧ B4 m ρ c (Proc.devRef .tc main_arg4) = m ((c : Thread nD τ).loc main_arg4)
    ∧ B4 m ρ c (Proc.devRef .tc main_arg5) = m ((c : Thread nD τ).loc main_arg5)
    ∧ B4 m ρ c (Proc.devRef .tc main_arg6) = m ((c : Thread nD τ).loc main_arg6)
    ∧ B4 m ρ c (Proc.devRef .tc main_arg7) = m ((c : Thread nD τ).loc main_arg7)
    ∧ B4 m ρ c (Proc.devRef .tc main_arg8) = m ((c : Thread nD τ).loc main_arg8) :=
  ⟨B4_bypass m ρ c main_arg0 (by decide) (by decide) (by decide) (by decide),
   B4_bypass m ρ c main_arg1 (by decide) (by decide) (by decide) (by decide),
   B4_bypass m ρ c main_arg2 (by decide) (by decide) (by decide) (by decide),
   B4_bypass m ρ c main_arg3 (by decide) (by decide) (by decide) (by decide),
   B4_bypass m ρ c main_arg4 (by decide) (by decide) (by decide) (by decide),
   B4_bypass m ρ c main_arg5 (by decide) (by decide) (by decide) (by decide),
   B4_bypass m ρ c main_arg6 (by decide) (by decide) (by decide) (by decide),
   B4_bypass m ρ c main_arg7 (by decide) (by decide) (by decide) (by decide),
   B4_bypass m ρ c main_arg8 (by decide) (by decide) (by decide) (by decide)⟩

/-- THE FRAME: every weakly fair execution terminates, nothing faulting, the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun s h c =>
    ⟨(h c _ (mem_uc main_arg0 (by decide))).trans (args_kept m ρ c).1,
     (h c _ (mem_uc main_arg1 (by decide))).trans (args_kept m ρ c).2.1,
     (h c _ (mem_uc main_arg2 (by decide))).trans (args_kept m ρ c).2.2.1,
     (h c _ (mem_uc main_arg3 (by decide))).trans (args_kept m ρ c).2.2.2.1,
     (h c _ (mem_uc main_arg4 (by decide))).trans (args_kept m ρ c).2.2.2.2.1,
     (h c _ (mem_uc main_arg5 (by decide))).trans (args_kept m ρ c).2.2.2.2.2.1,
     (h c _ (mem_uc main_arg6 (by decide))).trans (args_kept m ρ c).2.2.2.2.2.2.1,
     (h c _ (mem_uc main_arg7 (by decide))).trans (args_kept m ρ c).2.2.2.2.2.2.2.1,
     (h c _ (mem_uc main_arg8 (by decide))).trans (args_kept m ρ c).2.2.2.2.2.2.2.2⟩) (run_all m ρ)

end Cert.KernelIdeal.Hand

end
-- ==== Proof.LibOnlineSoftmax.lean ====
/-
  The online softmax over two halves of the keys equals the plain softmax, on the extended reals.

  One query row is given by its scores against the keys and by the keys' value rows. The plain softmax takes the
  greatest score M, the weights exp (s k - M), their sum L, and returns the sum over the keys of (weight / L) times
  the value row. The two-step recurrence visits the keys in two halves: it carries a running maximum started from -∞,
  a running denominator and a running numerator started from 0; at each half the carried denominator and numerator are
  rescaled by exp (m_old - m_new) and the half's own weights, taken against the new maximum, are added; one division,
  numerator by denominator, is made at the end.

  Proved here, with every operation the extended reals' own (exp ⊥ = 0, division by a nonzero real the product with
  its reciprocal): for REAL scores and values over any finite nonempty key type K, the recurrence over two copies
  of K equals the plain softmax-weighted sum over Fin 2 × K (online_eq_plain), and over any key type in bijection
  with Fin 2 × K (online_eq_plain_equiv). The road: a finite nonempty family of coerced reals has a coerced real as its
  greatest element; exponentials, finite sums and products of coerced reals are coerced reals; what is left over the
  reals is exp (m₀ - m) * exp (s - m₀) = exp (s - m) and the distribution of a quotient over a finite sum.
  Also: the plain softmax does not change when its keys are re-indexed along a bijection (plainOut_equiv), for
  arbitrary extended-real scores and values.
-/
import Idealize.ShloMosaic.PureOps.Ideal
import Mathlib.Data.Finset.Fold
import Mathlib.Data.Fintype.BigOperators
import Mathlib.Algebra.BigOperators.Fin

noncomputable section

namespace Cert.Attn

open Idealize.ShloMosaic

/-! ## One query row: the plain softmax and the two-step recurrence -/

section Row

variable {K D : Type} [Fintype K]

/-- The greatest of a finite family, from `-∞`. -/
def foldMax (s : K → EReal) : EReal := (Finset.univ : Finset K).fold max ⊥ s

/-- The row's maximum as the plain softmax takes it: `max (-∞) (the greatest score)`. -/
def plainMax (s : K → EReal) : EReal := max ⊥ (foldMax s)

/-- The unnormalised weight of key `k`. -/
def plainW (s : K → EReal) (k : K) : EReal := Ideal.exp (s k - plainMax s)

/-- The denominator: the weights' sum, from `0`. -/
def plainDen (s : K → EReal) : EReal := 0 + ∑ k : K, plainW s k

/-- One entry of the attention output: the normalised weights against column `d` of the value rows. -/
def plainOut (s : K → EReal) (v : K → D → EReal) (d : D) : EReal :=
  ∑ k : K, Ideal.div (plainW s k) (plainDen s) * v k d

/-- The running maximum after the first half, started from `-∞`. -/
def onlineMax0 (s0 : K → EReal) : EReal := max ⊥ (foldMax s0)

/-- The first half's rescaling factor `exp (-∞ - m₀)`. -/
def onlineScale0 (s0 : K → EReal) : EReal := Ideal.exp (⊥ - onlineMax0 s0)

/-- The running denominator after the first half, started from `0`. -/
def onlineDen0 (s0 : K → EReal) : EReal :=
  onlineScale0 s0 * 0 + ∑ k : K, Ideal.exp (s0 k - onlineMax0 s0)

/-- The running numerator after the first half, started from `0`. -/
def onlineNum0 (s0 : K → EReal) (v0 : K → D → EReal) (d : D) : EReal :=
  onlineScale0 s0 * 0 + ∑ k : K, Ideal.exp (s0 k - onlineMax0 s0) * v0 k d

/-- The running maximum after the second half. -/
def onlineMax1 (s0 s1 : K → EReal) : EReal := max (onlineMax0 s0) (foldMax s1)

/-- The second half's rescaling factor `exp (m₀ - m₁)`. -/
def onlineScale1 (s0 s1 : K → EReal) : EReal := Ideal.exp (onlineMax0 s0 - onlineMax1 s0 s1)

/-- The running denominator after the second half. -/
def onlineDen1 (s0 s1 : K → EReal) : EReal :=
  onlineScale1 s0 s1 * onlineDen0 s0 + ∑ k : K, Ideal.exp (s1 k - onlineMax1 s0 s1)

/-- The running numerator after the second half. -/
def onlineNum1 (s0 s1 : K → EReal) (v0 v1 : K → D → EReal) (d : D) : EReal :=
  onlineScale1 s0 s1 * onlineNum0 s0 v0 d + ∑ k : K, Ideal.exp (s1 k - onlineMax1 s0 s1) * v1 k d

/-- One entry of the attention output by the two-step recurrence: numerator over denominator, once, at the end. -/
def onlineOut (s0 s1 : K → EReal) (v0 v1 : K → D → EReal) (d : D) : EReal :=
  Ideal.div (onlineNum1 s0 s1 v0 v1 d) (onlineDen1 s0 s1)

end Row

/-! ## Finite sums and greatest elements of coerced reals -/

section General

variable {K K' : Type} [Fintype K] [Fintype K']

/-- The coercion of a finite sum of reals is the sum of the coercions. -/
theorem coe_finsetSum (t : Finset K) (f : K → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- The greatest of a finite family is below a bound exactly when every member is. -/
theorem foldMax_le_iff (s : K → EReal) (c : EReal) : foldMax s ≤ c ↔ ∀ k, s k ≤ c := by
  simp [foldMax, Finset.fold_max_le]

/-- Re-indexing a finite family along a bijection does not change its greatest element. -/
theorem foldMax_equiv (e : K' ≃ K) (s : K → EReal) : foldMax (fun k => s (e k)) = foldMax s := by
  refine eq_of_forall_ge_iff fun c => ?_
  rw [foldMax_le_iff, foldMax_le_iff]
  exact ⟨fun h k => by simpa using h (e.symm k), fun h k => h (e k)⟩

/-- The greatest element of a family indexed by two copies of "K" is the greater of the two copies' greatest. -/
theorem foldMax_prod_two (f : Fin 2 × K → EReal) :
    foldMax f = max (foldMax fun k => f (0, k)) (foldMax fun k => f (1, k)) := by
  refine eq_of_forall_ge_iff fun c => ?_
  simp only [max_le_iff, foldMax_le_iff, Prod.forall, Fin.forall_fin_two]

/-- A nonempty finite family of coerced reals has a coerced real as its greatest element. -/
theorem foldMax_coe [Nonempty K] (s : K → ℝ) :
    foldMax (fun k => (s k : EReal)) = ((Finset.univ.sup' Finset.univ_nonempty s : ℝ) : EReal) := by
  apply le_antisymm
  · rw [foldMax_le_iff]
    intro k
    exact EReal.coe_le_coe_iff.2 (Finset.le_sup' s (Finset.mem_univ k))
  · obtain ⟨k, -, hk⟩ := Finset.exists_mem_eq_sup' Finset.univ_nonempty s
    rw [hk, foldMax, Finset.le_fold_max]
    exact Or.inr ⟨k, Finset.mem_univ k, le_rfl⟩

end General

/-! ## The weights' sums over the reals -/

section Weights

variable {K D : Type} [Fintype K]

/-- The sum of the real weights "exp (s k - m)". -/
def rDen (s : K → ℝ) (m : ℝ) : ℝ := ∑ k, Real.exp (s k - m)

/-- The sum of the real weights "exp (s k - m)" against column "d" of the values. -/
def rNum (s : K → ℝ) (v : K → D → ℝ) (m : ℝ) (d : D) : ℝ := ∑ k, Real.exp (s k - m) * v k d

theorem rDen_pos [Nonempty K] (s : K → ℝ) (m : ℝ) : 0 < rDen s m :=
  Finset.sum_pos (fun k _ => Real.exp_pos _) Finset.univ_nonempty

/-- Rescaling: "exp (a - m) * exp (s k - a) = exp (s k - m)", summed. -/
theorem exp_mul_rDen (s : K → ℝ) (a m : ℝ) : Real.exp (a - m) * rDen s a = rDen s m := by
  rw [rDen, rDen, Finset.mul_sum]
  refine Finset.sum_congr rfl fun k _ => ?_
  rw [← Real.exp_add]
  congr 1
  ring

theorem exp_mul_rNum (s : K → ℝ) (v : K → D → ℝ) (a m : ℝ) (d : D) :
    Real.exp (a - m) * rNum s v a d = rNum s v m d := by
  rw [rNum, rNum, Finset.mul_sum]
  refine Finset.sum_congr rfl fun k _ => ?_
  rw [← mul_assoc, ← Real.exp_add]
  congr 2
  ring

/-- The extended-real weights of coerced reals against a coerced real maximum sum to the coerced real sum. -/
theorem sum_exp_coe (s : K → ℝ) (m : ℝ) :
    ∑ k, Ideal.exp ((s k : EReal) - (m : EReal)) = ((rDen s m : ℝ) : EReal) := by
  rw [rDen, coe_finsetSum]
  refine Finset.sum_congr rfl fun k _ => ?_
  rw [← EReal.coe_sub, Ideal.exp_coe]

theorem sum_exp_mul_coe (s : K → ℝ) (v : K → D → ℝ) (m : ℝ) (d : D) :
    ∑ k, Ideal.exp ((s k : EReal) - (m : EReal)) * (v k d : EReal) = ((rNum s v m d : ℝ) : EReal) := by
  rw [rNum, coe_finsetSum]
  refine Finset.sum_congr rfl fun k _ => ?_
  rw [← EReal.coe_sub, Ideal.exp_coe, ← EReal.coe_mul]

end Weights

/-! ## The recurrence on coerced reals -/

section Online

variable {K D : Type} [Fintype K] (s0 s1 : K → ℝ) (v0 v1 : K → D → ℝ) (d : D) (m0 m : ℝ)

theorem onlineDen0_coe (h0 : onlineMax0 (fun k => (s0 k : EReal)) = (m0 : EReal)) :
    onlineDen0 (fun k => (s0 k : EReal)) = ((rDen s0 m0 : ℝ) : EReal) := by
  rw [onlineDen0, mul_zero, zero_add, h0, sum_exp_coe]

theorem onlineNum0_coe (h0 : onlineMax0 (fun k => (s0 k : EReal)) = (m0 : EReal)) :
    onlineNum0 (fun k => (s0 k : EReal)) (fun k d => (v0 k d : EReal)) d = ((rNum s0 v0 m0 d : ℝ) : EReal) := by
  rw [onlineNum0, mul_zero, zero_add, h0, sum_exp_mul_coe]

theorem onlineDen1_coe (h0 : onlineMax0 (fun k => (s0 k : EReal)) = (m0 : EReal))
    (h1 : onlineMax1 (fun k => (s0 k : EReal)) (fun k => (s1 k : EReal)) = (m : EReal)) :
    onlineDen1 (fun k => (s0 k : EReal)) (fun k => (s1 k : EReal)) = ((rDen s0 m + rDen s1 m : ℝ) : EReal) := by
  rw [onlineDen1, onlineScale1, h1, onlineDen0_coe s0 m0 h0, h0, ← EReal.coe_sub, Ideal.exp_coe, sum_exp_coe,
    ← EReal.coe_mul, ← EReal.coe_add, exp_mul_rDen]

theorem onlineNum1_coe (h0 : onlineMax0 (fun k => (s0 k : EReal)) = (m0 : EReal))
    (h1 : onlineMax1 (fun k => (s0 k : EReal)) (fun k => (s1 k : EReal)) = (m : EReal)) :
    onlineNum1 (fun k => (s0 k : EReal)) (fun k => (s1 k : EReal)) (fun k d => (v0 k d : EReal))
        (fun k d => (v1 k d : EReal)) d
      = ((rNum s0 v0 m d + rNum s1 v1 m d : ℝ) : EReal) := by
  rw [onlineNum1, onlineScale1, h1, onlineNum0_coe s0 v0 d m0 h0, h0, ← EReal.coe_sub, Ideal.exp_coe,
    sum_exp_mul_coe, ← EReal.coe_mul, ← EReal.coe_add, exp_mul_rNum]

/-- The recurrence's output on coerced reals, as a coerced real quotient. -/
theorem onlineOut_coe [Nonempty K] (h0 : onlineMax0 (fun k => (s0 k : EReal)) = (m0 : EReal))
    (h1 : onlineMax1 (fun k => (s0 k : EReal)) (fun k => (s1 k : EReal)) = (m : EReal)) :
    onlineOut (fun k => (s0 k : EReal)) (fun k => (s1 k : EReal)) (fun k d => (v0 k d : EReal))
        (fun k d => (v1 k d : EReal)) d
      = (((rNum s0 v0 m d + rNum s1 v1 m d) * (1 / (rDen s0 m + rDen s1 m)) : ℝ) : EReal) := by
  have hpos : rDen s0 m + rDen s1 m ≠ 0 := (add_pos (rDen_pos s0 m) (rDen_pos s1 m)).ne'
  rw [onlineOut, onlineNum1_coe s0 s1 v0 v1 d m0 m h0 h1, onlineDen1_coe s0 s1 m0 m h0 h1, Ideal.div_coe hpos,
    ← EReal.coe_mul]

end Online

/-! ## The plain softmax on coerced reals -/

section Plain

variable {K D : Type} [Fintype K] (s : K → ℝ) (v : K → D → ℝ) (d : D) (m : ℝ)

theorem plainW_coe (hm : plainMax (fun k => (s k : EReal)) = (m : EReal)) (k : K) :
    plainW (fun k => (s k : EReal)) k = ((Real.exp (s k - m) : ℝ) : EReal) := by
  rw [plainW, hm, ← EReal.coe_sub, Ideal.exp_coe]

theorem plainDen_coe (hm : plainMax (fun k => (s k : EReal)) = (m : EReal)) :
    plainDen (fun k => (s k : EReal)) = ((rDen s m : ℝ) : EReal) := by
  rw [plainDen, zero_add, rDen, coe_finsetSum]
  exact Finset.sum_congr rfl fun k _ => plainW_coe s m hm k

/-- The plain softmax's output on coerced reals, as a coerced real quotient. -/
theorem plainOut_coe [Nonempty K] (hm : plainMax (fun k => (s k : EReal)) = (m : EReal)) :
    plainOut (fun k => (s k : EReal)) (fun k d => (v k d : EReal)) d
      = ((rNum s v m d * (1 / rDen s m) : ℝ) : EReal) := by
  have hpos : rDen s m ≠ 0 := (rDen_pos s m).ne'
  rw [plainOut, plainDen_coe s m hm, rNum, Finset.sum_mul, coe_finsetSum]
  refine Finset.sum_congr rfl fun k _ => ?_
  rw [plainW_coe s m hm, Ideal.div_coe hpos, ← EReal.coe_mul, ← EReal.coe_mul]
  congr 1
  ring

end Plain

/-! ## The row law -/

section RowLaw

variable {K D : Type} [Fintype K]

/-- The two halves' real scores as one family over two copies of "K". -/
def joinS (s0 s1 : K → ℝ) (p : Fin 2 × K) : ℝ := if p.1 = 0 then s0 p.2 else s1 p.2

/-- The two halves' real values as one family over two copies of "K". -/
def joinV (v0 v1 : K → D → ℝ) (p : Fin 2 × K) (d : D) : ℝ := if p.1 = 0 then v0 p.2 d else v1 p.2 d

theorem rDen_join (s0 s1 : K → ℝ) (m : ℝ) : rDen (joinS s0 s1) m = rDen s0 m + rDen s1 m := by
  simp [rDen, joinS, Fintype.sum_prod_type, Fin.sum_univ_two]

theorem rNum_join (s0 s1 : K → ℝ) (v0 v1 : K → D → ℝ) (m : ℝ) (d : D) :
    rNum (joinS s0 s1) (joinV v0 v1) m d = rNum s0 v0 m d + rNum s1 v1 m d := by
  simp [rNum, joinS, joinV, Fintype.sum_prod_type, Fin.sum_univ_two]

/-- The running maxima and the plain maximum of coerced reals: coerced reals, the last two equal. -/
theorem maxima_coe [Nonempty K] (s0 s1 : K → ℝ) :
    ∃ m0 m : ℝ, onlineMax0 (fun k => (s0 k : EReal)) = (m0 : EReal)
      ∧ onlineMax1 (fun k => (s0 k : EReal)) (fun k => (s1 k : EReal)) = (m : EReal)
      ∧ plainMax (fun p => (joinS s0 s1 p : EReal)) = (m : EReal) := by
  have h0 : onlineMax0 (fun k => (s0 k : EReal))
      = ((Finset.univ.sup' Finset.univ_nonempty s0 : ℝ) : EReal) := by
    rw [onlineMax0, foldMax_coe, max_eq_right bot_le]
  have h1 : onlineMax1 (fun k => (s0 k : EReal)) (fun k => (s1 k : EReal))
      = ((max (Finset.univ.sup' Finset.univ_nonempty s0) (Finset.univ.sup' Finset.univ_nonempty s1) : ℝ) : EReal) := by
    rw [onlineMax1, h0, foldMax_coe, EReal.coe_strictMono.monotone.map_max]
  refine ⟨_, _, h0, h1, ?_⟩
  rw [plainMax, foldMax_prod_two, max_eq_right bot_le, EReal.coe_strictMono.monotone.map_max]
  have e0 : (fun k : K => (joinS s0 s1 (0, k) : EReal)) = fun k => (s0 k : EReal) := by
    funext k; simp [joinS]
  have e1 : (fun k : K => (joinS s0 s1 (1, k) : EReal)) = fun k => (s1 k : EReal) := by
    funext k; simp [joinS]
  rw [e0, e1, foldMax_coe, foldMax_coe]

/-- The two-step recurrence equals the plain softmax over the joined keys, on real scores and values. -/
theorem online_eq_plain [Nonempty K] (s0 s1 : K → ℝ) (v0 v1 : K → D → ℝ) (d : D) :
    onlineOut (fun k => (s0 k : EReal)) (fun k => (s1 k : EReal)) (fun k d => (v0 k d : EReal))
        (fun k d => (v1 k d : EReal)) d
      = plainOut (K := Fin 2 × K) (fun p => ((if p.1 = 0 then s0 p.2 else s1 p.2 : ℝ) : EReal))
          (fun p d => ((if p.1 = 0 then v0 p.2 d else v1 p.2 d : ℝ) : EReal)) d := by
  obtain ⟨m0, m, h0, h1, hp⟩ := maxima_coe s0 s1
  rw [onlineOut_coe s0 s1 v0 v1 d m0 m h0 h1]
  have := plainOut_coe (joinS s0 s1) (joinV v0 v1) d m hp
  rw [rNum_join, rDen_join] at this
  exact this.symm

end RowLaw

/-! ## Re-indexing the plain softmax along a bijection of the keys -/

section Reindex

variable {K K' D : Type} [Fintype K] [Fintype K'] (e : K' ≃ K) (s : K → EReal) (v : K → D → EReal) (d : D)

theorem plainMax_equiv : plainMax (fun k => s (e k)) = plainMax s := by
  rw [plainMax, plainMax, foldMax_equiv e s]

theorem plainW_equiv (k : K') : plainW (fun k => s (e k)) k = plainW s (e k) := by
  rw [plainW, plainW, plainMax_equiv]

theorem plainDen_equiv : plainDen (fun k => s (e k)) = plainDen s := by
  rw [plainDen, plainDen]
  congr 1
  simp only [plainW_equiv]
  exact Equiv.sum_comp e (plainW s)

theorem plainOut_equiv : plainOut (fun k => s (e k)) (fun k d => v (e k) d) d = plainOut s v d := by
  rw [plainOut, plainOut, plainDen_equiv]
  simp only [plainW_equiv]
  exact Equiv.sum_comp e (fun k => Ideal.div (plainW s k) (plainDen s) * v k d)

end Reindex

/-- The row law with the keys of the plain side indexed by any type in bijection with two copies of "K". -/
theorem online_eq_plain_equiv {K N D : Type} [Fintype K] [Nonempty K] [Fintype N] (e : Fin 2 × K ≃ N)
    (S : N → ℝ) (V : N → D → ℝ) (d : D) :
    onlineOut (fun k => (S (e (0, k)) : EReal)) (fun k => (S (e (1, k)) : EReal))
        (fun k d => (V (e (0, k)) d : EReal)) (fun k d => (V (e (1, k)) d : EReal)) d
      = plainOut (fun n => (S n : EReal)) (fun n d => (V n d : EReal)) d := by
  rw [online_eq_plain, ← plainOut_equiv e]
  have hs : (fun p : Fin 2 × K => ((if p.1 = 0 then S (e (0, p.2)) else S (e (1, p.2)) : ℝ) : EReal))
      = fun p => (S (e p) : EReal) := by
    funext p
    obtain ⟨h, k⟩ := p
    revert h
    simp [Fin.forall_fin_two]
  have hv : (fun (p : Fin 2 × K) (d : D) => ((if p.1 = 0 then V (e (0, p.2)) d else V (e (1, p.2)) d : ℝ) : EReal))
      = fun p d => (V (e p) d : EReal) := by
    funext p d
    obtain ⟨h, k⟩ := p
    revert h
    simp [Fin.forall_fin_two]
  rw [hs, hv]

end Cert.Attn

end
-- ==== Proof.Spec.lean ====
/-
  Single-head attention on the extended reals, written twice.

  One query row against its keys is defined in LibOnlineSoftmax, twice: plainOut, the plain softmax-weighted sum of the
  value rows (the scores' maximum M, the weights exp (s k - M), their sum L, each weight divided by L), and onlineOut,
  the same row with the keys cut into two halves and visited one after the other, carrying a running maximum, a running
  denominator and a running numerator (rescaled by exp (m_old - m_new) at each half, the quotient taken once, at the
  end; the first half starts from -∞, 0, 0).

  Here, around them: the three input projections x · W + b, the scaled scores (q · k) * c, and the output
  projection. Every operation is the extended reals' (Ideal.exp, Ideal.div); nothing here mentions a program.
-/
import Idealize.ShloMosaic.PureOps.Ideal
import proofs.«163083_j50611894616492_2_alg».proof.Proof.LibOnlineSoftmax

noncomputable section

namespace Cert.Attn

open Idealize.ShloMosaic

/-! ## The whole layer, over coordinates: batch `Fin 8`, sequence `Fin 2048`, width `Fin 1024` -/

/-- A projection `x · W + b` at (batch, row, column). -/
def proj (X : Fin 8 → Fin 2048 → Fin 1024 → EReal) (W : Fin 1024 → Fin 1024 → EReal) (b : Fin 1024 → EReal)
    (bi : Fin 8) (r : Fin 2048) (j : Fin 1024) : EReal :=
  (∑ i : Fin 1024, X bi r i * W i j) + b j

/-- The scaled score of query row `r` against key row `k`: `(q_r · k_k) * c`. -/
def score (c : EReal) (Q Kk : Fin 8 → Fin 2048 → Fin 1024 → EReal) (bi : Fin 8) (r k : Fin 2048) : EReal :=
  (∑ j : Fin 1024, Q bi r j * Kk bi k j) * c

/-- Key row `k'` of half `h` (`h = 0`: rows `0 … 1023`; `h = 1`: rows `1024 … 2047`). -/
def halfRow (h : Fin 2) (k' : Fin 1024) : Fin 2048 := ⟨h.val * 1024 + k'.val, by have := h.isLt; have := k'.isLt; omega⟩

/-- The layer by the plain softmax: all 2048 keys at once. -/
def plainLayer (c : EReal) (X : Fin 8 → Fin 2048 → Fin 1024 → EReal) (Wq Wk Wv Wo : Fin 1024 → Fin 1024 → EReal)
    (bq bk bv bo : Fin 1024 → EReal) (bi : Fin 8) (r : Fin 2048) (e : Fin 1024) : EReal :=
  (∑ d : Fin 1024,
      plainOut (fun k : Fin 2048 => score c (proj X Wq bq) (proj X Wk bk) bi r k) (fun k d => proj X Wv bv bi k d) d * Wo d e)
    + bo e

/-- The layer by the two-step recurrence: the keys' two halves of 1024 rows one after the other. -/
def onlineLayer (c : EReal) (X : Fin 8 → Fin 2048 → Fin 1024 → EReal) (Wq Wk Wv Wo : Fin 1024 → Fin 1024 → EReal)
    (bq bk bv bo : Fin 1024 → EReal) (bi : Fin 8) (r : Fin 2048) (e : Fin 1024) : EReal :=
  (∑ d : Fin 1024,
      onlineOut (fun k' : Fin 1024 => score c (proj X Wq bq) (proj X Wk bk) bi r (halfRow 0 k'))
        (fun k' : Fin 1024 => score c (proj X Wq bq) (proj X Wk bk) bi r (halfRow 1 k'))
        (fun k' d => proj X Wv bv bi (halfRow 0 k') d) (fun k' d => proj X Wv bv bi (halfRow 1 k') d) d * Wo d e)
    + bo e

end Cert.Attn

end
-- ==== Proof.Algebra.lean ====
/-
  The attention layer by the two-step recurrence equals the layer by the plain softmax, on real inputs.

  The projections and the scaled scores of coerced reals are coerced reals; the 2048 key rows are two halves of 1024,
  a bijection with two copies of the 1024 rows; the row law of LibOnlineSoftmax, through that bijection, gives each
  entry of the attention output, and the output projection is the same on both sides.
-/
import proofs.«163083_j50611894616492_2_alg».proof.Proof.Spec
import Mathlib.Data.Finset.Fold
import Mathlib.Data.Fintype.BigOperators
import Mathlib.Algebra.BigOperators.Fin

noncomputable section

namespace Cert.Attn

open Idealize.ShloMosaic

/-! ## The layer -/

section Layer

/-- The 2048 key rows as two halves of 1024. -/
def halfEquiv : Fin 2 × Fin 1024 ≃ Fin 2048 where
  toFun p := halfRow p.1 p.2
  invFun k := (⟨k.val / 1024, by have := k.isLt; omega⟩, ⟨k.val % 1024, by omega⟩)
  left_inv := by
    rintro ⟨h, k⟩
    have := h.isLt
    have := k.isLt
    ext <;> simp only [halfRow] <;> omega
  right_inv := by
    intro k
    ext
    simp only [halfRow]
    omega

/-- A real projection "x · W + b". -/
def rProj (X : Fin 8 → Fin 2048 → Fin 1024 → ℝ) (W : Fin 1024 → Fin 1024 → ℝ) (b : Fin 1024 → ℝ)
    (bi : Fin 8) (r : Fin 2048) (j : Fin 1024) : ℝ :=
  (∑ i : Fin 1024, X bi r i * W i j) + b j

/-- A real scaled score "(q_r · k_k) * c". -/
def rScore (c : ℝ) (Q Kk : Fin 8 → Fin 2048 → Fin 1024 → ℝ) (bi : Fin 8) (r k : Fin 2048) : ℝ :=
  (∑ j : Fin 1024, Q bi r j * Kk bi k j) * c

theorem proj_coe (X : Fin 8 → Fin 2048 → Fin 1024 → ℝ) (W : Fin 1024 → Fin 1024 → ℝ) (b : Fin 1024 → ℝ) :
    proj (fun b r i => (X b r i : EReal)) (fun i j => (W i j : EReal)) (fun j => (b j : EReal))
      = fun bi r j => (rProj X W b bi r j : EReal) := by
  funext bi r j
  rw [proj, rProj, EReal.coe_add, coe_finsetSum]
  rfl

theorem score_coe (c : ℝ) (Q Kk : Fin 8 → Fin 2048 → Fin 1024 → ℝ) (bi : Fin 8) (r k : Fin 2048) :
    score (c : EReal) (fun b r j => (Q b r j : EReal)) (fun b r j => (Kk b r j : EReal)) bi r k
      = (rScore c Q Kk bi r k : EReal) := by
  rw [score, rScore, EReal.coe_mul, coe_finsetSum]
  rfl

/-- The row law at the layer's sizes: the 2048 keys as two halves of 1024. -/
theorem row_halves (S : Fin 2048 → ℝ) (V : Fin 2048 → Fin 1024 → ℝ) (d : Fin 1024) :
    onlineOut (fun k' : Fin 1024 => (S (halfRow 0 k') : EReal)) (fun k' : Fin 1024 => (S (halfRow 1 k') : EReal))
        (fun k' d => (V (halfRow 0 k') d : EReal)) (fun k' d => (V (halfRow 1 k') d : EReal)) d
      = plainOut (fun k => (S k : EReal)) (fun k d => (V k d : EReal)) d :=
  online_eq_plain_equiv halfEquiv S V d

/-- The layer by the two-step recurrence equals the layer by the plain softmax, on real inputs. -/
theorem onlineLayer_eq_plainLayer (c : ℝ) (X : Fin 8 → Fin 2048 → Fin 1024 → ℝ)
    (Wq Wk Wv Wo : Fin 1024 → Fin 1024 → ℝ) (bq bk bv bo : Fin 1024 → ℝ) (bi : Fin 8) (r : Fin 2048)
    (e : Fin 1024) :
    onlineLayer (c : EReal) (fun b r i => (X b r i : EReal)) (fun i j => (Wq i j : EReal))
        (fun i j => (Wk i j : EReal)) (fun i j => (Wv i j : EReal)) (fun i j => (Wo i j : EReal))
        (fun j => (bq j : EReal)) (fun j => (bk j : EReal)) (fun j => (bv j : EReal)) (fun j => (bo j : EReal)) bi r e
      = plainLayer (c : EReal) (fun b r i => (X b r i : EReal)) (fun i j => (Wq i j : EReal))
        (fun i j => (Wk i j : EReal)) (fun i j => (Wv i j : EReal)) (fun i j => (Wo i j : EReal))
        (fun j => (bq j : EReal)) (fun j => (bk j : EReal)) (fun j => (bv j : EReal)) (fun j => (bo j : EReal)) bi r e := by
  rw [onlineLayer, plainLayer, proj_coe X Wq bq, proj_coe X Wk bk, proj_coe X Wv bv]
  simp only [score_coe]
  simp only [row_halves (fun k => rScore c (rProj X Wq bq) (rProj X Wk bk) bi r k) (fun k d => rProj X Wv bv bi k d)]

end Layer

end Cert.Attn

end
-- ==== Proof.RefValue.lean ====
/-
  The reference program's result, read entry by entry on the extended reals, is the plain softmax attention layer.

  Each intermediate array of the reference is identified, at coordinates (batch, row, column), with the matching
  piece of the specification: the three projections `x · W + b`, the scaled scores, the row maximum, the
  unnormalised weights, their sum, the normalised weights, the attention output and the output projection.
-/
import proofs.«163083_j50611894616492_2_alg».proof.Proof.Spec
import proofs.«163083_j50611894616492_2_alg».proof.Proof.Gen.ReferenceIdeal.Read
import Idealize.ShloMosaic.PureOps.Reduce
import Idealize.ShloMosaic.Lib.ValueIdx

noncomputable section

namespace Cert.RefValue

open Cert.ReferenceIdeal Cert.ReferenceIdeal.Gen Cert.ReferenceIdeal.Read Cert.Attn
open Idealize.ShloMosaic Idealize.ShloMosaic.ValueIdx

/-- The reference's score scale `1 / sqrt 1024`, as the program writes it. -/
def cRef : EReal := Ideal.div (Ideal.ofBits .f32 0x3F800000#32) (Ideal.sqrt (Ideal.ofBits .f32 0x44800000#32))

/-! ## The arrays as functions of coordinates -/

/-- A rank-3 array over (batch, row, column). -/
abbrev arr3 (x : (⟨S8x2048x1024, .f32⟩ : BufTy).Contents (Elt Ideal)) : Fin 8 → Fin 2048 → Fin 1024 → EReal :=
  fun b r i => x (ix3 b r i)
/-- A weight matrix over (row, column). -/
abbrev mat (w : (⟨S1024x1024, .f32⟩ : BufTy).Contents (Elt Ideal)) : Fin 1024 → Fin 1024 → EReal :=
  fun i j => w (ix2 i j)
/-- A bias vector. -/
abbrev vec (v : (⟨S1024, .f32⟩ : BufTy).Contents (Elt Ideal)) : Fin 1024 → EReal :=
  fun j => v (ix1 j)

/-! ## The projections -/

/-- Row `(b, r)` of the input, entry `k`: the left factor of a projection's contraction. -/
theorem lidx_proj (b : Fin 8) (r : Fin 2048) (j k : Fin 1024) :
    lidx_main_v0 (ix3 b r j) k = ix3 b r k :=
  funext fun a => Fin.ext (by match a with | ⟨0, _⟩ => rfl | ⟨1, _⟩ => rfl | ⟨2, _⟩ => rfl)

/-- Entry `(k, j)` of the weight matrix: the right factor. -/
theorem ridx_proj (b : Fin 8) (r : Fin 2048) (j k : Fin 1024) :
    ridx_main_v0 (ix3 b r j) k = ix2 k j :=
  funext fun a => Fin.ext (by match a with | ⟨0, _⟩ => rfl | ⟨1, _⟩ => rfl)

/-- The bias is broadcast along batch and row. -/
theorem idx_bias (b : Fin 8) (r : Fin 2048) (j : Fin 1024) :
    idx_main_v1 (idx_main_v2 (ix3 b r j)) = ix1 j :=
  funext fun a => Fin.ext (by match a with | ⟨0, _⟩ => rfl)

/-- The query projection. -/
theorem q_eq (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (b : Fin 8) (r : Fin 2048) (j : Fin 1024) :
    val_main_v3 (F := Ideal) x0 x1 x2 (ix3 b r j) = proj (arr3 x0) (mat x1) (vec x2) b r j := by
  rw [val_main_v3_apply, val_main_v0_apply, val_main_v2_apply, val_main_v1_apply, idx_bias]
  unfold proj
  refine congrArg (· + x2 (ix1 j)) (Finset.sum_congr rfl fun k _ => ?_)
  rw [lidx_proj, ridx_proj]

/-- The key projection. -/
theorem lidx_projK (b : Fin 8) (r : Fin 2048) (j k : Fin 1024) :
    lidx_main_v4 (ix3 b r j) k = ix3 b r k :=
  funext fun a => Fin.ext (by match a with | ⟨0, _⟩ => rfl | ⟨1, _⟩ => rfl | ⟨2, _⟩ => rfl)
theorem ridx_projK (b : Fin 8) (r : Fin 2048) (j k : Fin 1024) :
    ridx_main_v4 (ix3 b r j) k = ix2 k j :=
  funext fun a => Fin.ext (by match a with | ⟨0, _⟩ => rfl | ⟨1, _⟩ => rfl)
theorem idx_biasK (b : Fin 8) (r : Fin 2048) (j : Fin 1024) :
    idx_main_v5 (idx_main_v6 (ix3 b r j)) = ix1 j :=
  funext fun a => Fin.ext (by match a with | ⟨0, _⟩ => rfl)

theorem k_eq (x0 : (⟨S8x2048x1024, .f32⟩ : BufTy).Contents (Elt Ideal)) (x3 : (⟨S1024x1024, .f32⟩ : BufTy).Contents (Elt Ideal))
    (x4 : (⟨S1024, .f32⟩ : BufTy).Contents (Elt Ideal)) (b : Fin 8) (r : Fin 2048) (j : Fin 1024) :
    val_main_v7 (F := Ideal) x0 x3 x4 (ix3 b r j) = proj (arr3 x0) (mat x3) (vec x4) b r j := by
  rw [val_main_v7_apply, val_main_v4_apply, val_main_v6_apply, val_main_v5_apply, idx_biasK]
  unfold proj
  refine congrArg (· + x4 (ix1 j)) (Finset.sum_congr rfl fun k _ => ?_)
  rw [lidx_projK, ridx_projK]

/-- The value projection. -/
theorem lidx_projV (b : Fin 8) (r : Fin 2048) (j k : Fin 1024) :
    lidx_main_v8 (ix3 b r j) k = ix3 b r k :=
  funext fun a => Fin.ext (by match a with | ⟨0, _⟩ => rfl | ⟨1, _⟩ => rfl | ⟨2, _⟩ => rfl)
theorem ridx_projV (b : Fin 8) (r : Fin 2048) (j k : Fin 1024) :
    ridx_main_v8 (ix3 b r j) k = ix2 k j :=
  funext fun a => Fin.ext (by match a with | ⟨0, _⟩ => rfl | ⟨1, _⟩ => rfl)
theorem idx_biasV (b : Fin 8) (r : Fin 2048) (j : Fin 1024) :
    idx_main_v9 (idx_main_v10 (ix3 b r j)) = ix1 j :=
  funext fun a => Fin.ext (by match a with | ⟨0, _⟩ => rfl)

theorem v_eq (x0 : (⟨S8x2048x1024, .f32⟩ : BufTy).Contents (Elt Ideal)) (x5 : (⟨S1024x1024, .f32⟩ : BufTy).Contents (Elt Ideal))
    (x6 : (⟨S1024, .f32⟩ : BufTy).Contents (Elt Ideal)) (b : Fin 8) (r : Fin 2048) (j : Fin 1024) :
    val_main_v11 (F := Ideal) x0 x5 x6 (ix3 b r j) = proj (arr3 x0) (mat x5) (vec x6) b r j := by
  rw [val_main_v11_apply, val_main_v8_apply, val_main_v10_apply, val_main_v9_apply, idx_biasV]
  unfold proj
  refine congrArg (· + x6 (ix1 j)) (Finset.sum_congr rfl fun k _ => ?_)
  rw [lidx_projV, ridx_projV]

/-! ## The scores -/

section Scores

variable (x0 : (⟨S8x2048x1024, .f32⟩ : BufTy).Contents (Elt Ideal)) (x1 : (⟨S1024x1024, .f32⟩ : BufTy).Contents (Elt Ideal))
  (x2 : (⟨S1024, .f32⟩ : BufTy).Contents (Elt Ideal)) (x3 : (⟨S1024x1024, .f32⟩ : BufTy).Contents (Elt Ideal))
  (x4 : (⟨S1024, .f32⟩ : BufTy).Contents (Elt Ideal))

/-- The scaled scores of query row `(b, r)` against every key row. -/
abbrev scores (b : Fin 8) (r : Fin 2048) : Fin 2048 → EReal :=
  fun k => score cRef (proj (arr3 x0) (mat x1) (vec x2)) (proj (arr3 x0) (mat x3) (vec x4)) b r k

/-- Query row `(b, r)`, entry `j`. -/
theorem lidx_score (b : Fin 8) (r k : Fin 2048) (j : Fin 1024) : lidx_main_v14 (ix3 b r k) j = ix3 b r j :=
  funext fun a => Fin.ext (by match a with | ⟨0, _⟩ => rfl | ⟨1, _⟩ => rfl | ⟨2, _⟩ => rfl)
/-- Key row `(b, k)`, entry `j`. -/
theorem ridx_score (b : Fin 8) (r k : Fin 2048) (j : Fin 1024) : ridx_main_v14 (ix3 b r k) j = ix3 b k j :=
  funext fun a => Fin.ext (by match a with | ⟨0, _⟩ => rfl | ⟨1, _⟩ => rfl | ⟨2, _⟩ => rfl)

/-- The scale is the same word everywhere: the quotient of the two literals. -/
theorem scale_eq (i : S8x2048x2048.Idx) : val_main_v15 (F := Ideal) i = cRef := by
  rw [val_main_v15_apply]; rfl

theorem score_eq (b : Fin 8) (r k : Fin 2048) :
    val_main_v16 (F := Ideal) x0 x1 x2 x3 x4 (ix3 b r k) = scores x0 x1 x2 x3 x4 b r k := by
  rw [val_main_v16_apply, val_main_v14_apply, scale_eq]
  unfold scores score
  refine congrArg (· * cRef) (Finset.sum_congr rfl fun j _ => ?_)
  rw [lidx_score, ridx_score, q_eq, k_eq]

/-! ## The row maximum -/

/-- The word of `-∞`. -/
theorem ofBits_neg_inf : Ideal.ofBits .f32 0xFF800000#32 = (⊥ : EReal) := by simp [Ideal.ofBits, Ideal.ieee]

/-- Row `(b, r)` with key coordinate `k` put back. -/
theorem lift_key (h : S8x2048x2048.Reduces [2] S8x2048) (b : Fin 8) (r : Fin 2048) (k : Fin (S8x2048x2048.size 2)) :
    h.lift (ix2 b r) k = ix3 b r (⟨k.val, k.isLt⟩ : Fin 2048) :=
  funext fun c => Fin.ext (by match c with | ⟨0, _⟩ => rfl | ⟨1, _⟩ => rfl | ⟨2, _⟩ => rfl)

/-- The maximum-reduce over the key axis, from `-∞`, at row `(b, r)`: the greatest entry of the row. -/
theorem rowMax_read (y : S8x2048x2048.Idx → EReal) (b : Fin 8) (r : Fin 2048) :
    Host.reduce (α := EReal) (FloatOps.maximumf (F := Ideal) (φ := .f32)) y (val_main_cst_1 (F := Ideal))
        reducesTo_S8x2048x2048_S8x2048_d2 h_S_ (ix2 b r)
      = foldMax (fun k : Fin 2048 => y (ix3 b r k)) := by
  have h : S8x2048x2048.Reduces [2] S8x2048 := by decide
  rw [Host.reduce_eq_fold_single (α := EReal) (FloatOps.maximumf (F := Ideal) (φ := .f32)) y _ reducesTo_S8x2048x2048_S8x2048_d2 h h_S_]
  have hf : (y ∘ h.lift (ix2 b r)) = fun k : Fin 2048 => y (ix3 b r k) :=
    funext fun k => congrArg y (lift_key h b r k)
  have hi : val_main_cst_1 (F := Ideal) (Shape.Idx.first h_S_) = (⊥ : EReal) := by
    rw [val_main_cst_1_apply]; exact ofBits_neg_inf
  rw [hi]
  unfold foldMax
  exact congrArg (fun f => Finset.fold max (⊥ : EReal) f (Finset.univ : Finset (Fin 2048))) hf

theorem max_eq (b : Fin 8) (r : Fin 2048) :
    val_main_v19 (F := Ideal) x0 x1 x2 x3 x4 (ix2 b r) = plainMax (scores x0 x1 x2 x3 x4 b r) := by
  rw [val_main_v19_apply, val_main_v18_apply, val_main_cst_2_apply]
  unfold val_main_v17
  rw [rowMax_read]
  have hs : (fun k : Fin 2048 => val_main_v16 (F := Ideal) x0 x1 x2 x3 x4 (ix3 b r k)) = scores x0 x1 x2 x3 x4 b r :=
    funext fun k => score_eq x0 x1 x2 x3 x4 b r k
  rw [hs]
  unfold plainMax
  show max (Ideal.ofBits .f32 0xFF800000#32) _ = max ⊥ _
  rw [ofBits_neg_inf]

/-! ## The weights, their sum, and the normalised weights -/

/-- A row statistic is broadcast along the key axis. -/
theorem idx_rowMax (b : Fin 8) (r k : Fin 2048) : idx_main_v20 (idx_main_v21 (ix3 b r k)) = ix2 b r :=
  funext fun a => Fin.ext (by match a with | ⟨0, _⟩ => rfl | ⟨1, _⟩ => rfl)

theorem w_eq (b : Fin 8) (r k : Fin 2048) :
    val_main_v23 (F := Ideal) x0 x1 x2 x3 x4 (ix3 b r k) = plainW (scores x0 x1 x2 x3 x4 b r) k := by
  rw [val_main_v23_apply, val_main_v22_apply, val_main_v21_apply, val_main_v20_apply, idx_rowMax, max_eq, score_eq]
  unfold plainW
  rfl

/-- Row `(b, r)`, key `k`: the summand of the denominator. -/
theorem idx_den (b : Fin 8) (r k : Fin 2048) : idx_main_v24 (ix2 b r) k = ix3 b r k :=
  funext fun a => Fin.ext (by match a with | ⟨0, _⟩ => rfl | ⟨1, _⟩ => rfl | ⟨2, _⟩ => rfl)

theorem den_eq (b : Fin 8) (r : Fin 2048) :
    val_main_v24 (F := Ideal) x0 x1 x2 x3 x4 (ix2 b r) = plainDen (scores x0 x1 x2 x3 x4 b r) := by
  rw [val_main_v24_apply, val_main_cst_3_apply, Ideal.ofBits_def, Ideal.ofBits_zero_f32]
  unfold plainDen
  refine congrArg (0 + ·) (Finset.sum_congr rfl fun k _ => ?_)
  rw [idx_den, w_eq]

theorem idx_rowDen (b : Fin 8) (r k : Fin 2048) : idx_main_v25 (idx_main_v26 (ix3 b r k)) = ix2 b r :=
  funext fun a => Fin.ext (by match a with | ⟨0, _⟩ => rfl | ⟨1, _⟩ => rfl)

theorem p_eq (b : Fin 8) (r k : Fin 2048) :
    val_main_v27 (F := Ideal) x0 x1 x2 x3 x4 (ix3 b r k)
      = Ideal.div (plainW (scores x0 x1 x2 x3 x4 b r) k) (plainDen (scores x0 x1 x2 x3 x4 b r)) := by
  rw [val_main_v27_apply, val_main_v26_apply, val_main_v25_apply, idx_rowDen, w_eq, den_eq]
  rfl

/-! ## The attention output and the output projection -/

variable (x5 : (⟨S1024x1024, .f32⟩ : BufTy).Contents (Elt Ideal)) (x6 : (⟨S1024, .f32⟩ : BufTy).Contents (Elt Ideal))
  (x7 : (⟨S1024x1024, .f32⟩ : BufTy).Contents (Elt Ideal)) (x8 : (⟨S1024, .f32⟩ : BufTy).Contents (Elt Ideal))

/-- Row `(b, r)` of the normalised weights, key `k`. -/
theorem lidx_out (b : Fin 8) (r k : Fin 2048) (d : Fin 1024) : lidx_main_v28 (ix3 b r d) k = ix3 b r k :=
  funext fun a => Fin.ext (by match a with | ⟨0, _⟩ => rfl | ⟨1, _⟩ => rfl | ⟨2, _⟩ => rfl)
/-- Value row `(b, k)`, column `d`. -/
theorem ridx_out (b : Fin 8) (r k : Fin 2048) (d : Fin 1024) : ridx_main_v28 (ix3 b r d) k = ix3 b k d :=
  funext fun a => Fin.ext (by match a with | ⟨0, _⟩ => rfl | ⟨1, _⟩ => rfl | ⟨2, _⟩ => rfl)

theorem out_eq (b : Fin 8) (r : Fin 2048) (d : Fin 1024) :
    val_main_v28 (F := Ideal) x0 x1 x2 x3 x4 x5 x6 (ix3 b r d)
      = plainOut (scores x0 x1 x2 x3 x4 b r) (fun k d => proj (arr3 x0) (mat x5) (vec x6) b k d) d := by
  rw [val_main_v28_apply]
  unfold plainOut
  refine Finset.sum_congr rfl fun k _ => ?_
  rw [lidx_out, ridx_out, p_eq, v_eq]

theorem lidx_res (b : Fin 8) (r : Fin 2048) (e d : Fin 1024) : lidx_main_v29 (ix3 b r e) d = ix3 b r d :=
  funext fun a => Fin.ext (by match a with | ⟨0, _⟩ => rfl | ⟨1, _⟩ => rfl | ⟨2, _⟩ => rfl)
theorem ridx_res (b : Fin 8) (r : Fin 2048) (e d : Fin 1024) : ridx_main_v29 (ix3 b r e) d = ix2 d e :=
  funext fun a => Fin.ext (by match a with | ⟨0, _⟩ => rfl | ⟨1, _⟩ => rfl)
theorem idx_biasO (b : Fin 8) (r : Fin 2048) (e : Fin 1024) : idx_main_v30 (idx_main_v31 (ix3 b r e)) = ix1 e :=
  funext fun a => Fin.ext (by match a with | ⟨0, _⟩ => rfl)

/-- The reference's result at `(b, r, e)` is the plain softmax attention layer there. -/
theorem ref_eq (b : Fin 8) (r : Fin 2048) (e : Fin 1024) :
    val_main_v32 (F := Ideal) x0 x1 x2 x3 x4 x5 x6 x7 x8 (ix3 b r e)
      = plainLayer cRef (fun b r i => x0 (ix3 b r i)) (fun i j => x1 (ix2 i j)) (fun i j => x3 (ix2 i j))
          (fun i j => x5 (ix2 i j)) (fun i j => x7 (ix2 i j)) (fun j => x2 (ix1 j)) (fun j => x4 (ix1 j))
          (fun j => x6 (ix1 j)) (fun j => x8 (ix1 j)) b r e := by
  rw [val_main_v32_apply, val_main_v29_apply, val_main_v31_apply, val_main_v30_apply, idx_biasO]
  unfold plainLayer
  refine congrArg (· + x8 (ix1 e)) (Finset.sum_congr rfl fun d _ => ?_)
  rw [lidx_res, ridx_res, out_eq]

end Scores

end Cert.RefValue

end
-- ==== Proof.Consts.lean ====
/-
  The float words the two programs spell, as the extended reals they denote.

  The kernel multiplies the scores by the word of `1/32`; the reference divides `1` by the square root of `1024`.
  Both are the real number `1/32`, since `1024 = 32²`. Also the words of `0` and of `-∞`.
-/
import Idealize.ShloMosaic.PureOps.Ideal.Laws
import proofs.«163083_j50611894616492_2_alg».proof.Proof.RefValue

noncomputable section

namespace Cert.Consts

open Idealize.ShloMosaic

/-- The word of `1`. -/
theorem one_word : Ideal.ofBits .f32 0x3F800000#32 = ((1 : ℝ) : EReal) := by
  simp [Ideal.ofBits, Ideal.ieee, -EReal.coe_mul]; norm_num

/-- The word of `1024`. -/
theorem word_1024 : Ideal.ofBits .f32 0x44800000#32 = ((1024 : ℝ) : EReal) := by
  simp [Ideal.ofBits, Ideal.ieee, -EReal.coe_mul]; norm_num

/-- The kernel's scale: the word of `1/32`. -/
theorem kernel_scale : Ideal.ofBits .f32 0x3D000000#32 = ((1 / 32 : ℝ) : EReal) := by
  simp [Ideal.ofBits, Ideal.ieee, -EReal.coe_mul]; norm_num

/-- `√1024 = 32`. -/
theorem sqrt_1024 : Real.sqrt 1024 = 32 := by
  rw [show (1024 : ℝ) = 32 ^ 2 by norm_num]; exact Real.sqrt_sq (by norm_num)

/-- The reference's scale `1 / √1024` is `1/32`. -/
theorem ref_scale : Cert.RefValue.cRef = ((1 / 32 : ℝ) : EReal) := by
  unfold Cert.RefValue.cRef
  rw [one_word, word_1024, Ideal.sqrt_coe, if_neg (by norm_num), sqrt_1024, Ideal.div_coe (by norm_num), ← EReal.coe_mul]
  norm_num

/-- The word of `0`. -/
theorem zero_word : Ideal.ofBits .f32 0x00000000#32 = 0 := Ideal.ofBits_zero_f32

/-- The word of `-∞`. -/
theorem neg_inf_word : Ideal.ofBits .f32 0xFF800000#32 = (⊥ : EReal) := Cert.RefValue.ofBits_neg_inf

end Cert.Consts

end
-- ==== Proof.Finite.lean ====
/-
  The precondition says of each of the nine argument arrays that every entry's absolute value is below `+∞`.
  On the extended reals that is: every entry is a real number (neither `-∞` nor `+∞`).

  The predicate is a conjunction of nine conditions, one per array, each the conjunction over all entries of the
  comparison `|x| < +∞`; it is taken apart conjunct by conjunct and entry by entry.
-/
import proofs.«163083_j50611894616492_2_alg».proof.Pre_finite_inputs
import Idealize.ShloMosaic.Lib.ReduceAll
import Idealize.ShloMosaic.Lib.Pipeline.Value
import Idealize.ShloMosaic.Lib.ValueIdx
import Idealize.ShloMosaic.PureOps.Ideal.Laws

noncomputable section

namespace Cert.Finite

open Idealize.ShloMosaic Idealize.ShloMosaic.ValueIdx

/-- The scalar shape has one index. -/
instance : Subsingleton (⟨0, ![]⟩ : Shape).Idx := ⟨fun _ _ => funext fun d => d.elim0⟩

/-- The word of `+∞`. -/
theorem pos_inf_word : Ideal.ofBits .f32 0x7F800000#32 = (⊤ : EReal) := by simp [Ideal.ofBits, Ideal.ieee]

/-- An extended real whose absolute value is below `+∞` is a real. -/
theorem real_of_abs_lt_top (x : EReal) (h : max x (-x) < ⊤) : ∃ r : ℝ, x = (r : EReal) := by
  induction x using EReal.rec with
  | bot => simp at h
  | coe r => exact ⟨r, rfl⟩
  | top => simp at h

/-- One entry of the comparison `|x| < +∞` that came out true: the entry is a real. -/
theorem real_of_cmp (x : EReal)
    (h : FloatOps.cmpf (F := Ideal) (φ := .f32) .olt (FloatOps.hostAbsf x) (FloatOps.ofBits .f32 0x7F800000#32) = 1#1) :
    ∃ r : ℝ, x = (r : EReal) := by
  refine real_of_abs_lt_top x ?_
  rw [Ideal.cmpf_def, Ideal.hostAbsf_def, Ideal.absf_def, Ideal.ofBits_def, pos_inf_word] at h
  by_contra hn
  simp [Ideal.cmp, hn] at h

/-- `all (|x| < +∞)` over a whole array, of any shape, that came out true: every entry is a real. -/
theorem all_real {s : Shape} {axes : List (Fin s.rank)} (x : FVec Ideal s .f32)
    (bc : (⟨0, ![]⟩ : Shape).BroadcastsInDim s (![] : Fin 0 → Fin s.rank)) (h' : s.ReducesTo axes (⟨0, ![]⟩ : Shape))
    (hu : 0 < (⟨0, ![]⟩ : Shape).numel)
    (e : Host.reduce IntOp.andi
          (cmpf .olt (Host.absf x) (broadcastInDim s ![] bc (constant (F := Ideal) (⟨0, ![]⟩ : Shape) .f32 0x7F800000#32)))
          (constantI (⟨0, ![]⟩ : Shape) 1 1#1) h' hu ix0 = 1#1) (i : s.Idx) :
    ∃ r : ℝ, x i = (r : EReal) := by
  have hi := Host.reduce_andi_all _ _ h' hu ix0 e i
  rw [cmpf_apply, broadcastInDim_apply _ bc _ i ix0 (fun a => a.elim0)] at hi
  exact real_of_cmp (x i) hi

open Cert.Pre_finite_inputs in
/-- The precondition, decoded: each of the nine argument arrays holds reals only. -/
theorem reals_of_pre [Cert.Pre_finite_inputs.Facts]
    (x0 : FVec Ideal S8x2048x1024 .f32) (x1 : FVec Ideal S1024x1024 .f32) (x2 : FVec Ideal S1024 .f32)
    (x3 : FVec Ideal S1024x1024 .f32) (x4 : FVec Ideal S1024 .f32) (x5 : FVec Ideal S1024x1024 .f32)
    (x6 : FVec Ideal S1024 .f32) (x7 : FVec Ideal S1024x1024 .f32) (x8 : FVec Ideal S1024 .f32)
    (h : Cert.Pre_finite_inputs.fn (F := Ideal) x0 x1 x2 x3 x4 x5 x6 x7 x8 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) ∧ (∀ i, ∃ r : ℝ, x7 i = (r : EReal)) ∧ (∀ i, ∃ r : ℝ, x8 i = (r : EReal)) := by
  have h0 := congrFun h ix0
  dsimp only [Cert.Pre_finite_inputs.fn, Cert.Pre_finite_inputs.fn_part1, Cert.Pre_finite_inputs.fn_part2] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real x0 _ _ _ e0, all_real x1 _ _ _ e1, all_real x2 _ _ _ e2, all_real x3 _ _ _ e3, all_real x4 _ _ _ e4,
    all_real x5 _ _ _ e5, all_real x6 _ _ _ e6, all_real x7 _ _ _ e7, all_real x8 _ _ _ e8⟩

end Cert.Finite

end
-- ==== Proof.HostValue.lean ====
/-
  The kernel program's host operations, read entry by entry on the extended reals.

  Before its first region the program flattens the input `[8, 2048, 1024]` to `[16384, 1024]` (row `R` is batch
  `R / 2048`, row `R % 2048`), lays the three projection matrices side by side into one `[1024, 3072]` matrix (columns
  `0 … 1023` the query's, `1024 … 2047` the key's, `2048 … 3071` the value's) and the three biases end to end into one
  row `[1, 3072]`, and takes the output matrix and bias as a matrix and a row. A change of float format is the identity
  here. After its regions it unflattens three `[16384, 1024]` arrays back to `[8, 2048, 1024]`.

  Every statement is about the operations alone, from arbitrary contents `W` of the buffers before them.
-/
import proofs.«163083_j50611894616492_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostVal

open Cert.KernelIdeal Cert.KernelIdeal.Gen
open Idealize.ShloMosaic Idealize.ShloMosaic.ValueIdx

variable (W : Valuation τ sig (Elt Ideal))

/-! ## Layout facts over arbitrary arrays -/

/-- `[8, 2048, 1024]` flattened to `[16384, 1024]`: row `R` is `(R / 2048, R % 2048)`. -/
theorem flatten_read (x : S8x2048x1024.Idx → EReal) (R : Fin 16384) (i : Fin 1024) :
    shapeCast S16384x1024 x shapeCasts_S8x2048x1024_S16384x1024 (ix2 R i)
      = x (ix3 (⟨R.val / 2048, by have := R.isLt; omega⟩ : Fin 8) (⟨R.val % 2048, Nat.mod_lt _ (by decide)⟩ : Fin 2048) i) := by
  refine shapeCast_apply (s := S8x2048x1024) (t := S16384x1024) _ _ _ _ ?_
  rw [Shape.rowMajor_val_three, Shape.rowMajor_val_two]
  show ((R.val / 2048) * 2048 + R.val % 2048) * 1024 + i.val = R.val * 1024 + i.val
  have := Nat.div_add_mod R.val 2048
  omega

/-- `[16384, 1024]` unflattened to `[8, 2048, 1024]`: entry `(b, r)` is row `b * 2048 + r`. -/
theorem unflatten_read (x : S16384x1024.Idx → EReal) (b : Fin 8) (r : Fin 2048) (j : Fin 1024) :
    shapeCast S8x2048x1024 x shapeCasts_S16384x1024_S8x2048x1024 (ix3 b r j)
      = x (ix2 (⟨b.val * 2048 + r.val, by have := b.isLt; have := r.isLt; omega⟩ : Fin 16384) j) := by
  refine shapeCast_apply (s := S16384x1024) (t := S8x2048x1024) _ _ _ _ ?_
  rw [Shape.rowMajor_val_three, Shape.rowMajor_val_two]
  rfl

/-! ## Before the first region -/

theorem input_term :
    (StableHlo.after (hostOps0 (F := Ideal)) W (Proc.devRef .tc main_v0) : S16384x1024.Idx → EReal)
      = shapeCast S16384x1024 (W (Proc.devRef .tc main_arg0) : S8x2048x1024.Idx → EReal) shapeCasts_S8x2048x1024_S16384x1024 := by
  after_results
  rfl

/-- The flattened input: row `R`, column `i`. -/
theorem input_apply (R : Fin 16384) (i : Fin 1024) :
    (StableHlo.after (hostOps0 (F := Ideal)) W (Proc.devRef .tc main_v0) : S16384x1024.Idx → EReal) (ix2 R i)
      = (W (Proc.devRef .tc main_arg0) : S8x2048x1024.Idx → EReal)
          (ix3 (⟨R.val / 2048, by have := R.isLt; omega⟩ : Fin 8) (⟨R.val % 2048, Nat.mod_lt _ (by decide)⟩ : Fin 2048) i) := by
  rw [input_term]
  exact flatten_read _ R i

theorem weights_term :
    (StableHlo.after (hostOps0 (F := Ideal)) W (Proc.devRef .tc main_v2) : S1024x3072.Idx → EReal)
      = concatenate S1024x3072 1 [⟨S1024x1024, (W (Proc.devRef .tc main_arg1) : S1024x1024.Idx → EReal)⟩,
          ⟨S1024x1024, (W (Proc.devRef .tc main_arg3) : S1024x1024.Idx → EReal)⟩,
          ⟨S1024x1024, (W (Proc.devRef .tc main_arg5) : S1024x1024.Idx → EReal)⟩]
          concatenates_S1024x1024_S1024x1024_S1024x1024_S1024x3072_d1 := by
  after_results
  rfl

/-- Columns `0 … 1023` of the joint matrix are the query matrix. -/
theorem weights_apply_q (i : Fin 1024) (J : Fin 3072) (j : Fin 1024) (hJ : J.val = j.val) :
    (StableHlo.after (hostOps0 (F := Ideal)) W (Proc.devRef .tc main_v2) : S1024x3072.Idx → EReal) (ix2 i J)
      = (W (Proc.devRef .tc main_arg1) : S1024x1024.Idx → EReal) (ix2 i j) := by
  rw [weights_term]
  refine concatenate_apply_piece (t := S1024x3072) 1 _ _ (ix2 i J) 0 (by simp) S1024x1024 _ rfl rfl 0 rfl (ix2 i j)
    (fun b hb => match b, hb with | ⟨0, _⟩, _ => rfl | ⟨1, _⟩, hb => absurd rfl hb) ?_
  show 0 + j.val = J.val
  omega

/-- Columns `1024 … 2047` are the key matrix. -/
theorem weights_apply_k (i : Fin 1024) (J : Fin 3072) (j : Fin 1024) (hJ : J.val = 1024 + j.val) :
    (StableHlo.after (hostOps0 (F := Ideal)) W (Proc.devRef .tc main_v2) : S1024x3072.Idx → EReal) (ix2 i J)
      = (W (Proc.devRef .tc main_arg3) : S1024x1024.Idx → EReal) (ix2 i j) := by
  rw [weights_term]
  refine concatenate_apply_piece (t := S1024x3072) 1 _ _ (ix2 i J) 1 (by simp) S1024x1024 _ rfl rfl 1024 rfl (ix2 i j)
    (fun b hb => match b, hb with | ⟨0, _⟩, _ => rfl | ⟨1, _⟩, hb => absurd rfl hb) ?_
  show 1024 + j.val = J.val
  omega

/-- Columns `2048 … 3071` are the value matrix. -/
theorem weights_apply_v (i : Fin 1024) (J : Fin 3072) (j : Fin 1024) (hJ : J.val = 2048 + j.val) :
    (StableHlo.after (hostOps0 (F := Ideal)) W (Proc.devRef .tc main_v2) : S1024x3072.Idx → EReal) (ix2 i J)
      = (W (Proc.devRef .tc main_arg5) : S1024x1024.Idx → EReal) (ix2 i j) := by
  rw [weights_term]
  refine concatenate_apply_piece (t := S1024x3072) 1 _ _ (ix2 i J) 2 (by simp) S1024x1024 _ rfl rfl 2048 rfl (ix2 i j)
    (fun b hb => match b, hb with | ⟨0, _⟩, _ => rfl | ⟨1, _⟩, hb => absurd rfl hb) ?_
  show 2048 + j.val = J.val
  omega

theorem biases_term :
    (StableHlo.after (hostOps0 (F := Ideal)) W (Proc.devRef .tc main_v4) : S1x3072.Idx → EReal)
      = shapeCast S1x3072 (concatenate S3072 0 [⟨S1024, (W (Proc.devRef .tc main_arg2) : S1024.Idx → EReal)⟩,
          ⟨S1024, (W (Proc.devRef .tc main_arg4) : S1024.Idx → EReal)⟩,
          ⟨S1024, (W (Proc.devRef .tc main_arg6) : S1024.Idx → EReal)⟩]
          concatenates_S1024_S1024_S1024_S3072_d0) shapeCasts_S3072_S1x3072 := by
  after_results
  rfl

/-- A vector of 3072 entries as one row: entry `(0, J)` is entry `J`. -/
theorem bias_row (x : S3072.Idx → EReal) (u : Fin 1) (J : Fin 3072) :
    shapeCast S1x3072 x shapeCasts_S3072_S1x3072 (ix2 u J) = x (ix1 J) := by
  refine shapeCast_apply (s := S3072) (t := S1x3072) _ _ _ _ ?_
  rw [Shape.rowMajor_val_two, Shape.rowMajor_val_one]
  show J.val = u.val * 3072 + J.val
  have := u.isLt
  omega

/-- Entries `0 … 1023` of the joint bias row are the query bias. -/
theorem biases_apply_q (u : Fin 1) (J : Fin 3072) (j : Fin 1024) (hJ : J.val = j.val) :
    (StableHlo.after (hostOps0 (F := Ideal)) W (Proc.devRef .tc main_v4) : S1x3072.Idx → EReal) (ix2 u J)
      = (W (Proc.devRef .tc main_arg2) : S1024.Idx → EReal) (ix1 j) := by
  rw [biases_term, bias_row]
  refine concatenate_apply_piece (t := S3072) 0 _ _ (ix1 J) 0 (by simp) S1024 _ rfl rfl 0 rfl (ix1 j)
    (fun b hb => match b, hb with | ⟨0, _⟩, hb => absurd rfl hb) ?_
  show 0 + j.val = J.val
  omega

/-- Entries `1024 … 2047` are the key bias. -/
theorem biases_apply_k (u : Fin 1) (J : Fin 3072) (j : Fin 1024) (hJ : J.val = 1024 + j.val) :
    (StableHlo.after (hostOps0 (F := Ideal)) W (Proc.devRef .tc main_v4) : S1x3072.Idx → EReal) (ix2 u J)
      = (W (Proc.devRef .tc main_arg4) : S1024.Idx → EReal) (ix1 j) := by
  rw [biases_term, bias_row]
  refine concatenate_apply_piece (t := S3072) 0 _ _ (ix1 J) 1 (by simp) S1024 _ rfl rfl 1024 rfl (ix1 j)
    (fun b hb => match b, hb with | ⟨0, _⟩, hb => absurd rfl hb) ?_
  show 1024 + j.val = J.val
  omega

/-- Entries `2048 … 3071` are the value bias. -/
theorem biases_apply_v (u : Fin 1) (J : Fin 3072) (j : Fin 1024) (hJ : J.val = 2048 + j.val) :
    (StableHlo.after (hostOps0 (F := Ideal)) W (Proc.devRef .tc main_v4) : S1x3072.Idx → EReal) (ix2 u J)
      = (W (Proc.devRef .tc main_arg6) : S1024.Idx → EReal) (ix1 j) := by
  rw [biases_term, bias_row]
  refine concatenate_apply_piece (t := S3072) 0 _ _ (ix1 J) 2 (by simp) S1024 _ rfl rfl 2048 rfl (ix1 j)
    (fun b hb => match b, hb with | ⟨0, _⟩, hb => absurd rfl hb) ?_
  show 2048 + j.val = J.val
  omega

/-- The output matrix is taken as it is. -/
theorem outWeights_eq :
    (StableHlo.after (hostOps0 (F := Ideal)) W (Proc.devRef .tc main_v5) : S1024x1024.Idx → EReal)
      = (W (Proc.devRef .tc main_arg7) : S1024x1024.Idx → EReal) := by
  after_results
  rfl

theorem outWeights_apply (d e : Fin 1024) :
    (StableHlo.after (hostOps0 (F := Ideal)) W (Proc.devRef .tc main_v5) : S1024x1024.Idx → EReal) (ix2 d e)
      = (W (Proc.devRef .tc main_arg7) : S1024x1024.Idx → EReal) (ix2 d e) := by
  rw [outWeights_eq]

theorem outBias_term :
    (StableHlo.after (hostOps0 (F := Ideal)) W (Proc.devRef .tc main_v6) : S1x1024.Idx → EReal)
      = shapeCast S1x1024 (W (Proc.devRef .tc main_arg8) : S1024.Idx → EReal) shapeCasts_S1024_S1x1024 := by
  after_results
  rfl

/-- The output bias as one row: entry `(0, e)` is entry `e`. -/
theorem outBias_apply (u : Fin 1) (e : Fin 1024) :
    (StableHlo.after (hostOps0 (F := Ideal)) W (Proc.devRef .tc main_v6) : S1x1024.Idx → EReal) (ix2 u e)
      = (W (Proc.devRef .tc main_arg8) : S1024.Idx → EReal) (ix1 e) := by
  rw [outBias_term]
  refine shapeCast_apply (s := S1024) (t := S1x1024) _ _ _ _ ?_
  rw [Shape.rowMajor_val_two, Shape.rowMajor_val_one]
  show e.val = u.val * 1024 + e.val
  have := u.isLt
  omega

/-! ## After the regions -/

theorem out0_term :
    (StableHlo.after (hostOps1 (F := Ideal)) W (Proc.devRef .tc main_v8) : S8x2048x1024.Idx → EReal)
      = shapeCast S8x2048x1024 (W (Proc.devRef .tc main_v7_0) : S16384x1024.Idx → EReal) shapeCasts_S16384x1024_S8x2048x1024 := by
  after_results
  rfl

/-- The first unflattened array at `(b, r, j)`. -/
theorem out0_apply (b : Fin 8) (r : Fin 2048) (j : Fin 1024) :
    (StableHlo.after (hostOps1 (F := Ideal)) W (Proc.devRef .tc main_v8) : S8x2048x1024.Idx → EReal) (ix3 b r j)
      = (W (Proc.devRef .tc main_v7_0) : S16384x1024.Idx → EReal)
          (ix2 (⟨b.val * 2048 + r.val, by have := b.isLt; have := r.isLt; omega⟩ : Fin 16384) j) := by
  rw [out0_term]
  exact unflatten_read _ b r j

theorem out1_term :
    (StableHlo.after (hostOps1 (F := Ideal)) W (Proc.devRef .tc main_v9) : S8x2048x1024.Idx → EReal)
      = shapeCast S8x2048x1024 (W (Proc.devRef .tc main_v7_1) : S16384x1024.Idx → EReal) shapeCasts_S16384x1024_S8x2048x1024 := by
  after_results
  rfl

/-- The second unflattened array at `(b, r, j)`. -/
theorem out1_apply (b : Fin 8) (r : Fin 2048) (j : Fin 1024) :
    (StableHlo.after (hostOps1 (F := Ideal)) W (Proc.devRef .tc main_v9) : S8x2048x1024.Idx → EReal) (ix3 b r j)
      = (W (Proc.devRef .tc main_v7_1) : S16384x1024.Idx → EReal)
          (ix2 (⟨b.val * 2048 + r.val, by have := b.isLt; have := r.isLt; omega⟩ : Fin 16384) j) := by
  rw [out1_term]
  exact unflatten_read _ b r j

theorem out2_term :
    (StableHlo.after (hostOps1 (F := Ideal)) W (Proc.devRef .tc main_v10) : S8x2048x1024.Idx → EReal)
      = shapeCast S8x2048x1024 (W (Proc.devRef .tc main_v7_2) : S16384x1024.Idx → EReal) shapeCasts_S16384x1024_S8x2048x1024 := by
  after_results
  rfl

/-- The third unflattened array at `(b, r, j)`. -/
theorem out2_apply (b : Fin 8) (r : Fin 2048) (j : Fin 1024) :
    (StableHlo.after (hostOps1 (F := Ideal)) W (Proc.devRef .tc main_v10) : S8x2048x1024.Idx → EReal) (ix3 b r j)
      = (W (Proc.devRef .tc main_v7_2) : S16384x1024.Idx → EReal)
          (ix2 (⟨b.val * 2048 + r.val, by have := b.isLt; have := r.isLt; omega⟩ : Fin 16384) j) := by
  rw [out2_term]
  exact unflatten_read _ b r j

end Cert.KernelIdeal.HostVal

end
-- ==== Proof.ProjPayload.lean ====
/-
  The projection body's arithmetic read at an entry, on the extended reals: before the three thirds are cut out, entry
  `(r, J)` of the block is the row `r` of the input block against column `J` of the concatenated weight, plus entry `J` of
  the bias row; a third is that at column `off + j`.
-/
import proofs.«163083_j50611894616492_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

theorem projDot_l0 (j : S1024x3072.Idx) (q : dot_S1024x1024_S1024x3072_S1024x3072_1_0_0_1_n_n.contr.Idx) :
    (dot_S1024x1024_S1024x3072_S1024x3072_1_0_0_1_n_n.lhsIdx j q 0).val = (j 0).val := by
  unfold DotDims.lhsIdx
  rw [dif_neg (show ¬(0 : Fin S1024x1024.rank) ∈ dot_S1024x1024_S1024x3072_S1024x3072_1_0_0_1_n_n.lhsBatch by decide), dif_pos (show (0 : Fin S1024x1024.rank) ∈ dot_S1024x1024_S1024x3072_S1024x3072_1_0_0_1_n_n.lhsNonContracting by decide)]
  rfl
theorem projDot_l1 (j : S1024x3072.Idx) (q : dot_S1024x1024_S1024x3072_S1024x3072_1_0_0_1_n_n.contr.Idx) :
    (dot_S1024x1024_S1024x3072_S1024x3072_1_0_0_1_n_n.lhsIdx j q 1).val = (q ⟨0, by decide⟩).val :=
  dot_S1024x1024_S1024x3072_S1024x3072_1_0_0_1_n_n.lhsIdx_val_of_single rfl j q
theorem projDot_r0 (j : S1024x3072.Idx) (q : dot_S1024x1024_S1024x3072_S1024x3072_1_0_0_1_n_n.contr.Idx) :
    (dot_S1024x1024_S1024x3072_S1024x3072_1_0_0_1_n_n.rhsIdx j q 0).val = (q ⟨0, by decide⟩).val :=
  dot_S1024x1024_S1024x3072_S1024x3072_1_0_0_1_n_n.rhsIdx_val_of_single rfl j q
theorem projDot_r1 (j : S1024x3072.Idx) (q : dot_S1024x1024_S1024x3072_S1024x3072_1_0_0_1_n_n.contr.Idx) :
    (dot_S1024x1024_S1024x3072_S1024x3072_1_0_0_1_n_n.rhsIdx j q 1).val = (j 1).val := by
  unfold DotDims.rhsIdx
  rw [dif_neg (show ¬(1 : Fin S1024x3072.rank) ∈ dot_S1024x1024_S1024x3072_S1024x3072_1_0_0_1_n_n.rhsBatch by decide), dif_pos (show (1 : Fin S1024x3072.rank) ∈ dot_S1024x1024_S1024x3072_S1024x3072_1_0_0_1_n_n.rhsNonContracting by decide)]
  rfl

/-- The product of the block with the concatenated weight, into the zero accumulator, at entry `(r, J)`. -/
theorem projDot_apply (x : FVec Ideal S1024x1024 .bf16) (w : FVec Ideal S1024x3072 .bf16) (r : Fin 1024) (J : Fin 3072) :
    matmul (F := Ideal) dot_S1024x1024_S1024x3072_S1024x3072_1_0_0_1_n_n none x w (constant S1024x3072 .f32 0x00000000#32) (ix2 r J)
      = ∑ i : Fin 1024, x (ix2 r i) * w (ix2 i J) := by
  simp only [matmul]
  rw [Ideal.matmul_constant_zero_apply, ← Equiv.sum_comp (contrEquiv1 dot_S1024x1024_S1024x3072_S1024x3072_1_0_0_1_n_n 1024 rfl rfl).symm]
  refine Finset.sum_congr rfl fun k _ => ?_
  have hk := contrEquiv1_symm_val dot_S1024x1024_S1024x3072_S1024x3072_1_0_0_1_n_n 1024 rfl rfl k
  have el : dot_S1024x1024_S1024x3072_S1024x3072_1_0_0_1_n_n.lhsIdx (ix2 r J) ((contrEquiv1 dot_S1024x1024_S1024x3072_S1024x3072_1_0_0_1_n_n 1024 rfl rfl).symm k) = ix2 r k := funext fun a => Fin.ext (by
    match a with
    | ⟨0, _⟩ => exact projDot_l0 _ _
    | ⟨1, _⟩ => exact (projDot_l1 _ _).trans hk)
  have er : dot_S1024x1024_S1024x3072_S1024x3072_1_0_0_1_n_n.rhsIdx (ix2 r J) ((contrEquiv1 dot_S1024x1024_S1024x3072_S1024x3072_1_0_0_1_n_n 1024 rfl rfl).symm k) = ix2 k J := funext fun a => Fin.ext (by
    match a with
    | ⟨0, _⟩ => exact (projDot_r0 _ _).trans hk
    | ⟨1, _⟩ => exact projDot_r1 _ _)
  rw [el, er]

/-- The bias row spread over the block's rows, at entry `(r, J)`. -/
theorem biasRow_apply (b : FVec Ideal S1x3072 .f32) (r : Fin 1024) (J : Fin 3072) :
    broadcastTo S1024x3072 b broadcasts_S1x3072_S1024x3072 (ix2 r J) = b (ix2 0 J) :=
  broadcastTo_apply b broadcasts_S1x3072_S1024x3072 (ix2 r J) (ix2 0 J) (fun a => by
    match a with
    | ⟨0, _⟩ => rfl
    | ⟨1, _⟩ => rfl)

/-- The block's value before the thirds are cut: `x · W + b` at entry `(r, J)`. -/
theorem full_apply (x : Vec Ideal S1024x1024 .f32) (w : Vec Ideal S1024x3072 .bf16) (b : Vec Ideal S1x3072 .f32) (r : Fin 1024) (J : Fin 3072) :
    k0_pay1 (F := Ideal) x w b (ix2 r J) = (∑ i : Fin 1024, x (ix2 r i) * w (ix2 i J)) + b (ix2 0 J) := by
  unfold k0_pay1
  simp only [shapeCast_self]
  show matmul (F := Ideal) dot_S1024x1024_S1024x3072_S1024x3072_1_0_0_1_n_n none (truncf .bf16 x bitsLt_bf16_f32) w (constant S1024x3072 .f32 0x00000000#32) (ix2 r J)
      + broadcastTo S1024x3072 b broadcasts_S1x3072_S1024x3072 (ix2 r J) = _
  rw [projDot_apply, biasRow_apply]
  rfl

/-- The first third at entry `(r, j)`: column `j`. -/
theorem third0_apply (x : Vec Ideal S1024x1024 .f32) (w : Vec Ideal S1024x3072 .bf16) (b : Vec Ideal S1x3072 .f32) (r j : Fin 1024) :
    k0_pay2 (F := Ideal) x w b (ix2 r j) = (∑ i : Fin 1024, x (ix2 r i) * w (ix2 i ⟨j.val, by omega⟩)) + b (ix2 0 ⟨j.val, by omega⟩) := by
  unfold k0_pay2
  rw [extractStridedSlice_apply ![0, 0] _ slices_S1024x3072_o0_0_S1024x1024 (ix2 r j) (ix2 r ⟨j.val, by omega⟩) (fun a => by
    match a with
    | ⟨0, _⟩ => show r.val = 0 + r.val; omega
    | ⟨1, _⟩ => show j.val = 0 + j.val; omega)]
  exact full_apply x w b r _

/-- The second third: column `1024 + j`. -/
theorem third1_apply (x : Vec Ideal S1024x1024 .f32) (w : Vec Ideal S1024x3072 .bf16) (b : Vec Ideal S1x3072 .f32) (r j : Fin 1024) :
    k0_pay3 (F := Ideal) x w b (ix2 r j) = (∑ i : Fin 1024, x (ix2 r i) * w (ix2 i ⟨1024 + j.val, by omega⟩)) + b (ix2 0 ⟨1024 + j.val, by omega⟩) := by
  unfold k0_pay3
  rw [extractStridedSlice_apply ![0, 1024] _ slices_S1024x3072_o0_1024_S1024x1024 (ix2 r j) (ix2 r ⟨1024 + j.val, by omega⟩) (fun a => by
    match a with
    | ⟨0, _⟩ => show r.val = 0 + r.val; omega
    | ⟨1, _⟩ => show 1024 + j.val = 1024 + j.val; rfl)]
  exact full_apply x w b r _

/-- The last third: column `2048 + j`. -/
theorem third2_apply (x : Vec Ideal S1024x1024 .f32) (w : Vec Ideal S1024x3072 .bf16) (b : Vec Ideal S1x3072 .f32) (r j : Fin 1024) :
    k0_pay4 (F := Ideal) x w b (ix2 r j) = (∑ i : Fin 1024, x (ix2 r i) * w (ix2 i ⟨2048 + j.val, by omega⟩)) + b (ix2 0 ⟨2048 + j.val, by omega⟩) := by
  unfold k0_pay4
  rw [extractStridedSlice_apply ![0, 2048] _ slices_S1024x3072_o0_2048_S1024x1024 (ix2 r j) (ix2 r ⟨2048 + j.val, by omega⟩) (fun a => by
    match a with
    | ⟨0, _⟩ => show r.val = 0 + r.val; omega
    | ⟨1, _⟩ => show 2048 + j.val = 2048 + j.val; rfl)]
  exact full_apply x w b r _

end Cert.KernelIdeal.Pay

end
-- ==== Proof.ProjValue.lean ====
/-
  The projection region's three output arrays as functions of the arrays the region enters with.

  The grid has 16 points; point `t` takes rows `1024 t … 1024 t + 1023` of the flattened input, the whole joint matrix and
  the whole joint bias row, and writes back rows `1024 t … 1024 t + 1023` of each of the three outputs. So each output
  array, after the region, is ONE function of the three entry arrays: at `(R, j)`, row `R` of the input against the
  third's column `j` of the joint matrix, plus that column's entry of the bias row. Per point, what is written back is
  the block of that function; the sixteen blocks cover every row (row `R` lies in the block of point `R / 1024`).
-/
import proofs.«163083_j50611894616492_2_alg».proof.Proof.ProjRegionI
import proofs.«163083_j50611894616492_2_alg».proof.Proof.ProjPayload
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- A block that sits at offset `(0, 0)` is the whole buffer. -/
theorem zeroOffsets : (![0, 0] : Fin 2 → Nat) = fun _ => 0 := funext fun a => by fin_cases a <;> rfl

/-- The columns of the joint matrix that make up each third. -/
def colQ (j : Fin 1024) : Fin 3072 := ⟨j.val, by omega⟩
def colK (j : Fin 1024) : Fin 3072 := ⟨1024 + j.val, by omega⟩
def colV (j : Fin 1024) : Fin 3072 := ⟨2048 + j.val, by omega⟩

/-- One third of the projection as ONE function of the arrays the region enters with: row `R` of the flattened input
    against column `col j` of the joint matrix, plus entry `col j` of the joint bias row. -/
def projArr (col : Fin 1024 → Fin 3072) (X : S16384x1024.Idx → EReal) (Wm : S1024x3072.Idx → EReal) (Bm : S1x3072.Idx → EReal) :
    S16384x1024.Idx → EReal :=
  fun Y => (∑ i : Fin 1024, X (ix2 (⟨(Y 0).val, idx2_lt0 Y⟩ : Fin 16384) i) * Wm (ix2 i (col ⟨(Y 1).val, idx2_lt1 Y⟩)))
    + Bm (ix2 (0 : Fin 1) (col ⟨(Y 1).val, idx2_lt1 Y⟩))

/-- At coordinates. -/
theorem projArr_apply (col : Fin 1024 → Fin 3072) (X : S16384x1024.Idx → EReal) (Wm : S1024x3072.Idx → EReal)
    (Bm : S1x3072.Idx → EReal) (R : Fin 16384) (j : Fin 1024) :
    projArr col X Wm Bm (ix2 R j) = (∑ i : Fin 1024, X (ix2 R i) * Wm (ix2 i (col j))) + Bm (ix2 (0 : Fin 1) (col j)) := rfl

/-- The value computed from a point's three blocks, at entry `y` of the block, is the whole-array function at the
    entry `Y` of the array, once each block entry it reads is the array entry the function reads. -/
theorem projArr_of_reads (col : Fin 1024 → Fin 3072) (X : S16384x1024.Idx → EReal) (Wm : S1024x3072.Idx → EReal)
    (Bm : S1x3072.Idx → EReal) (xb : S1024x1024.Idx → EReal) (wb : S1024x3072.Idx → EReal) (bb : S1x3072.Idx → EReal)
    (y : S1024x1024.Idx) (Y : S16384x1024.Idx)
    (hx : ∀ i : Fin 1024, xb (ix2 (⟨(y 0).val, idx2_lt0 y⟩ : Fin 1024) i) = X (ix2 (⟨(Y 0).val, idx2_lt0 Y⟩ : Fin 16384) i))
    (hw : ∀ i : Fin 1024, wb (ix2 i (col ⟨(y 1).val, idx2_lt1 y⟩)) = Wm (ix2 i (col ⟨(Y 1).val, idx2_lt1 Y⟩)))
    (hb : bb (ix2 (0 : Fin 1) (col ⟨(y 1).val, idx2_lt1 y⟩)) = Bm (ix2 (0 : Fin 1) (col ⟨(Y 1).val, idx2_lt1 Y⟩))) :
    (∑ i : Fin 1024, xb (ix2 (⟨(y 0).val, idx2_lt0 y⟩ : Fin 1024) i) * wb (ix2 i (col ⟨(y 1).val, idx2_lt1 y⟩)))
        + bb (ix2 (0 : Fin 1) (col ⟨(y 1).val, idx2_lt1 y⟩))
      = projArr col X Wm Bm Y := by
  unfold projArr
  rw [hb]
  exact congrArg (· + Bm (ix2 (0 : Fin 1) (col ⟨(Y 1).val, idx2_lt1 Y⟩))) (Finset.sum_congr rfl fun i _ => by rw [hx, hw])

/-- The block index of every window at every point of the grid: the input rows and the three outputs move with the
    point along the rows; the joint matrix and bias row stay. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The query third: output window 3 -/

theorem firstThird_at (x : Vec Ideal S1024x1024 .f32) (w : Vec Ideal S1024x3072 .bf16) (b : Vec Ideal S1x3072 .f32) (y : S1024x1024.Idx) :
    k0_pay2 (F := Ideal) x w b y
      = (∑ i : Fin 1024, x (ix2 (⟨(y 0).val, idx2_lt0 y⟩ : Fin 1024) i) * w (ix2 i (colQ ⟨(y 1).val, idx2_lt1 y⟩)))
        + b (ix2 (0 : Fin 1) (colQ ⟨(y 1).val, idx2_lt1 y⟩)) := by
  obtain ⟨r, j, rfl⟩ : ∃ (r : Fin 1024) (j : Fin 1024), y = ix2 r j := ⟨y 0, y 1, eq_ix2 y⟩
  exact Pay.third0_apply x w b r j

/-- What point `t` writes back is block `t` of the whole-array function. -/
theorem flushed_q (c : Dev nD) (t : Fin cfg0.N) :
    (pdat (F := Ideal) V c).flushed 3 t
      = ((cfg0.win 3).blk t).view.read (Elt Ideal) (projArr colQ (V c main_v0) (V c main_v2) (V c main_v4)) := by
  show (cfg0.win 3).cut (grid0.coords t) ((pdat (F := Ideal) V c).after 3 t) = _
  rw [pafter_3]
  unfold q0
  rw [View.canon_unit_zero zeroOffsets]
  simp only [View.ld_unit_zero (S := S1024x1024) zeroOffsets, View.ld_unit_zero (S := S1024x3072) zeroOffsets,
    View.ld_unit_zero (S := S1x3072) zeroOffsets]
  obtain ⟨f00, f01, f10, f11, f20, f21, f30, f31, f40, f41, f50, f51⟩ := blockIndex t
  funext y
  refine (firstThird_at _ _ _ y).trans ?_
  show _ = projArr colQ (V c main_v0) (V c main_v2) (V c main_v4) (((cfg0.win 3).blk t).view.emb y)
  refine projArr_of_reads colQ _ _ _ _ _ _ y _ (fun i => ?_) (fun i => ?_) ?_
  · show V c main_v0 (((cfg0.win 0).blk t).view.emb (ix2 (⟨(y 0).val, idx2_lt0 y⟩ : Fin 1024) i)) = _
    refine congrArg (V c main_v0) (funext fun a => Fin.ext ?_)
    match a with
    | ⟨0, _⟩ =>
      show win0_0.index t (0 : Fin 2) * 1024 + 1 * (y 0).val = win0_3.index t (0 : Fin 2) * 1024 + 1 * (y 0).val
      omega
    | ⟨1, _⟩ =>
      show win0_0.index t (1 : Fin 2) * 1024 + 1 * i.val = i.val
      omega
  · show V c main_v2 (((cfg0.win 1).blk t).view.emb (ix2 i (colQ ⟨(y 1).val, idx2_lt1 y⟩))) = _
    refine congrArg (V c main_v2) (funext fun a => Fin.ext ?_)
    match a with
    | ⟨0, _⟩ =>
      show win0_1.index t (0 : Fin 2) * 1024 + 1 * i.val = i.val
      omega
    | ⟨1, _⟩ =>
      show win0_1.index t (1 : Fin 2) * 3072 + 1 * (colQ ⟨(y 1).val, idx2_lt1 y⟩).val
        = (colQ ⟨win0_3.index t (1 : Fin 2) * 1024 + 1 * (y 1).val, _⟩).val
      unfold colQ
      show win0_1.index t (1 : Fin 2) * 3072 + 1 * ((y 1).val) = (win0_3.index t (1 : Fin 2) * 1024 + 1 * (y 1).val)
      omega
  · show V c main_v4 (((cfg0.win 2).blk t).view.emb (ix2 (0 : Fin 1) (colQ ⟨(y 1).val, idx2_lt1 y⟩))) = _
    refine congrArg (V c main_v4) (funext fun a => Fin.ext ?_)
    match a with
    | ⟨0, _⟩ =>
      show win0_2.index t (0 : Fin 2) * 1 + 1 * 0 = 0
      omega
    | ⟨1, _⟩ =>
      show win0_2.index t (1 : Fin 2) * 3072 + 1 * (colQ ⟨(y 1).val, idx2_lt1 y⟩).val
        = (colQ ⟨win0_3.index t (1 : Fin 2) * 1024 + 1 * (y 1).val, _⟩).val
      unfold colQ
      show win0_2.index t (1 : Fin 2) * 3072 + 1 * ((y 1).val) = (win0_3.index t (1 : Fin 2) * 1024 + 1 * (y 1).val)
      omega

/-- An entry of the array is in point `t`'s block when its row is among the block's 1024 rows. -/
theorem mem_block_q (t : Fin cfg0.N) (i : S16384x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v7_0).slice (win0_3.rect t)).set ↔ _
  rw [View.set_slice_whole, Rect.mem_set_unit]
  exact Iff.rfl

/-- Every row `R` is in the block of point `R / 1024`. -/
theorem cover_q (i : S16384x1024.Idx) :
    ∃ t : Fin cfg0.N, (cfg0.win 3).flush t = true ∧ i ∈ ((cfg0.win 3).blk t).view.set := by
  have hi0 : (i 0).val < 16384 := idx2_lt0 i
  have hi1 : (i 1).val < 1024 := idx2_lt1 i
  have hN : cfg0.N = 16 := N_0
  have ht : (i 0).val / 1024 < cfg0.N := by rw [hN]; omega
  obtain ⟨f00, f01, f10, f11, f20, f21, f30, f31, f40, f41, f50, f51⟩ := blockIndex ⟨(i 0).val / 1024, ht⟩
  refine ⟨⟨(i 0).val / 1024, ht⟩, flush0_3 _, ?_⟩
  rw [mem_block_q]
  intro a
  match a with
  | ⟨0, _⟩ =>
    show win0_3.index ⟨(i 0).val / 1024, ht⟩ (0 : Fin 2) * 1024 ≤ (i 0).val
      ∧ (i 0).val < win0_3.index ⟨(i 0).val / 1024, ht⟩ (0 : Fin 2) * 1024 + 1024
    rw [f30]
    show (i 0).val / 1024 * 1024 ≤ (i 0).val ∧ (i 0).val < (i 0).val / 1024 * 1024 + 1024
    omega
  | ⟨1, _⟩ =>
    show win0_3.index ⟨(i 0).val / 1024, ht⟩ (1 : Fin 2) * 1024 ≤ (i 1).val
      ∧ (i 1).val < win0_3.index ⟨(i 0).val / 1024, ht⟩ (1 : Fin 2) * 1024 + 1024
    rw [f31]
    omega

/-- The array after the region is the whole-array function. -/
theorem proj_array_q (c : Dev nD) :
    (pdat (F := Ideal) V c).arrAt 3 cfg0.N = projArr colQ (V c main_v0) (V c main_v2) (V c main_v4) :=
  (pdat (F := Ideal) V c).arrAt_eq_of_cover 3 _ (fun t _ => flushed_q V c t) cover_q

/-! ## The key third: output window 4 -/

theorem secondThird_at (x : Vec Ideal S1024x1024 .f32) (w : Vec Ideal S1024x3072 .bf16) (b : Vec Ideal S1x3072 .f32) (y : S1024x1024.Idx) :
    k0_pay3 (F := Ideal) x w b y
      = (∑ i : Fin 1024, x (ix2 (⟨(y 0).val, idx2_lt0 y⟩ : Fin 1024) i) * w (ix2 i (colK ⟨(y 1).val, idx2_lt1 y⟩)))
        + b (ix2 (0 : Fin 1) (colK ⟨(y 1).val, idx2_lt1 y⟩)) := by
  obtain ⟨r, j, rfl⟩ : ∃ (r : Fin 1024) (j : Fin 1024), y = ix2 r j := ⟨y 0, y 1, eq_ix2 y⟩
  exact Pay.third1_apply x w b r j

/-- What point `t` writes back is block `t` of the whole-array function. -/
theorem flushed_k (c : Dev nD) (t : Fin cfg0.N) :
    (pdat (F := Ideal) V c).flushed 4 t
      = ((cfg0.win 4).blk t).view.read (Elt Ideal) (projArr colK (V c main_v0) (V c main_v2) (V c main_v4)) := by
  show (cfg0.win 4).cut (grid0.coords t) ((pdat (F := Ideal) V c).after 4 t) = _
  rw [pafter_4]
  unfold k0
  rw [View.canon_unit_zero zeroOffsets]
  simp only [View.ld_unit_zero (S := S1024x1024) zeroOffsets, View.ld_unit_zero (S := S1024x3072) zeroOffsets,
    View.ld_unit_zero (S := S1x3072) zeroOffsets]
  obtain ⟨f00, f01, f10, f11, f20, f21, f30, f31, f40, f41, f50, f51⟩ := blockIndex t
  funext y
  refine (secondThird_at _ _ _ y).trans ?_
  show _ = projArr colK (V c main_v0) (V c main_v2) (V c main_v4) (((cfg0.win 4).blk t).view.emb y)
  refine projArr_of_reads colK _ _ _ _ _ _ y _ (fun i => ?_) (fun i => ?_) ?_
  · show V c main_v0 (((cfg0.win 0).blk t).view.emb (ix2 (⟨(y 0).val, idx2_lt0 y⟩ : Fin 1024) i)) = _
    refine congrArg (V c main_v0) (funext fun a => Fin.ext ?_)
    match a with
    | ⟨0, _⟩ =>
      show win0_0.index t (0 : Fin 2) * 1024 + 1 * (y 0).val = win0_4.index t (0 : Fin 2) * 1024 + 1 * (y 0).val
      omega
    | ⟨1, _⟩ =>
      show win0_0.index t (1 : Fin 2) * 1024 + 1 * i.val = i.val
      omega
  · show V c main_v2 (((cfg0.win 1).blk t).view.emb (ix2 i (colK ⟨(y 1).val, idx2_lt1 y⟩))) = _
    refine congrArg (V c main_v2) (funext fun a => Fin.ext ?_)
    match a with
    | ⟨0, _⟩ =>
      show win0_1.index t (0 : Fin 2) * 1024 + 1 * i.val = i.val
      omega
    | ⟨1, _⟩ =>
      show win0_1.index t (1 : Fin 2) * 3072 + 1 * (colK ⟨(y 1).val, idx2_lt1 y⟩).val
        = (colK ⟨win0_4.index t (1 : Fin 2) * 1024 + 1 * (y 1).val, _⟩).val
      unfold colK
      show win0_1.index t (1 : Fin 2) * 3072 + 1 * (1024 + (y 1).val) = 1024 + (win0_4.index t (1 : Fin 2) * 1024 + 1 * (y 1).val)
      omega
  · show V c main_v4 (((cfg0.win 2).blk t).view.emb (ix2 (0 : Fin 1) (colK ⟨(y 1).val, idx2_lt1 y⟩))) = _
    refine congrArg (V c main_v4) (funext fun a => Fin.ext ?_)
    match a with
    | ⟨0, _⟩ =>
      show win0_2.index t (0 : Fin 2) * 1 + 1 * 0 = 0
      omega
    | ⟨1, _⟩ =>
      show win0_2.index t (1 : Fin 2) * 3072 + 1 * (colK ⟨(y 1).val, idx2_lt1 y⟩).val
        = (colK ⟨win0_4.index t (1 : Fin 2) * 1024 + 1 * (y 1).val, _⟩).val
      unfold colK
      show win0_2.index t (1 : Fin 2) * 3072 + 1 * (1024 + (y 1).val) = 1024 + (win0_4.index t (1 : Fin 2) * 1024 + 1 * (y 1).val)
      omega

/-- An entry of the array is in point `t`'s block when its row is among the block's 1024 rows. -/
theorem mem_block_k (t : Fin cfg0.N) (i : S16384x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v7_1).slice (win0_4.rect t)).set ↔ _
  rw [View.set_slice_whole, Rect.mem_set_unit]
  exact Iff.rfl

/-- Every row `R` is in the block of point `R / 1024`. -/
theorem cover_k (i : S16384x1024.Idx) :
    ∃ t : Fin cfg0.N, (cfg0.win 4).flush t = true ∧ i ∈ ((cfg0.win 4).blk t).view.set := by
  have hi0 : (i 0).val < 16384 := idx2_lt0 i
  have hi1 : (i 1).val < 1024 := idx2_lt1 i
  have hN : cfg0.N = 16 := N_0
  have ht : (i 0).val / 1024 < cfg0.N := by rw [hN]; omega
  obtain ⟨f00, f01, f10, f11, f20, f21, f30, f31, f40, f41, f50, f51⟩ := blockIndex ⟨(i 0).val / 1024, ht⟩
  refine ⟨⟨(i 0).val / 1024, ht⟩, flush0_4 _, ?_⟩
  rw [mem_block_k]
  intro a
  match a with
  | ⟨0, _⟩ =>
    show win0_4.index ⟨(i 0).val / 1024, ht⟩ (0 : Fin 2) * 1024 ≤ (i 0).val
      ∧ (i 0).val < win0_4.index ⟨(i 0).val / 1024, ht⟩ (0 : Fin 2) * 1024 + 1024
    rw [f40]
    show (i 0).val / 1024 * 1024 ≤ (i 0).val ∧ (i 0).val < (i 0).val / 1024 * 1024 + 1024
    omega
  | ⟨1, _⟩ =>
    show win0_4.index ⟨(i 0).val / 1024, ht⟩ (1 : Fin 2) * 1024 ≤ (i 1).val
      ∧ (i 1).val < win0_4.index ⟨(i 0).val / 1024, ht⟩ (1 : Fin 2) * 1024 + 1024
    rw [f41]
    omega

/-- The array after the region is the whole-array function. -/
theorem proj_array_k (c : Dev nD) :
    (pdat (F := Ideal) V c).arrAt 4 cfg0.N = projArr colK (V c main_v0) (V c main_v2) (V c main_v4) :=
  (pdat (F := Ideal) V c).arrAt_eq_of_cover 4 _ (fun t _ => flushed_k V c t) cover_k

/-! ## The value third: output window 5 -/

theorem lastThird_at (x : Vec Ideal S1024x1024 .f32) (w : Vec Ideal S1024x3072 .bf16) (b : Vec Ideal S1x3072 .f32) (y : S1024x1024.Idx) :
    k0_pay4 (F := Ideal) x w b y
      = (∑ i : Fin 1024, x (ix2 (⟨(y 0).val, idx2_lt0 y⟩ : Fin 1024) i) * w (ix2 i (colV ⟨(y 1).val, idx2_lt1 y⟩)))
        + b (ix2 (0 : Fin 1) (colV ⟨(y 1).val, idx2_lt1 y⟩)) := by
  obtain ⟨r, j, rfl⟩ : ∃ (r : Fin 1024) (j : Fin 1024), y = ix2 r j := ⟨y 0, y 1, eq_ix2 y⟩
  exact Pay.third2_apply x w b r j

/-- What point `t` writes back is block `t` of the whole-array function. -/
theorem flushed_v (c : Dev nD) (t : Fin cfg0.N) :
    (pdat (F := Ideal) V c).flushed 5 t
      = ((cfg0.win 5).blk t).view.read (Elt Ideal) (projArr colV (V c main_v0) (V c main_v2) (V c main_v4)) := by
  show (cfg0.win 5).cut (grid0.coords t) ((pdat (F := Ideal) V c).after 5 t) = _
  rw [pafter_5]
  unfold v0
  rw [View.canon_unit_zero zeroOffsets]
  simp only [View.ld_unit_zero (S := S1024x1024) zeroOffsets, View.ld_unit_zero (S := S1024x3072) zeroOffsets,
    View.ld_unit_zero (S := S1x3072) zeroOffsets]
  obtain ⟨f00, f01, f10, f11, f20, f21, f30, f31, f40, f41, f50, f51⟩ := blockIndex t
  funext y
  refine (lastThird_at _ _ _ y).trans ?_
  show _ = projArr colV (V c main_v0) (V c main_v2) (V c main_v4) (((cfg0.win 5).blk t).view.emb y)
  refine projArr_of_reads colV _ _ _ _ _ _ y _ (fun i => ?_) (fun i => ?_) ?_
  · show V c main_v0 (((cfg0.win 0).blk t).view.emb (ix2 (⟨(y 0).val, idx2_lt0 y⟩ : Fin 1024) i)) = _
    refine congrArg (V c main_v0) (funext fun a => Fin.ext ?_)
    match a with
    | ⟨0, _⟩ =>
      show win0_0.index t (0 : Fin 2) * 1024 + 1 * (y 0).val = win0_5.index t (0 : Fin 2) * 1024 + 1 * (y 0).val
      omega
    | ⟨1, _⟩ =>
      show win0_0.index t (1 : Fin 2) * 1024 + 1 * i.val = i.val
      omega
  · show V c main_v2 (((cfg0.win 1).blk t).view.emb (ix2 i (colV ⟨(y 1).val, idx2_lt1 y⟩))) = _
    refine congrArg (V c main_v2) (funext fun a => Fin.ext ?_)
    match a with
    | ⟨0, _⟩ =>
      show win0_1.index t (0 : Fin 2) * 1024 + 1 * i.val = i.val
      omega
    | ⟨1, _⟩ =>
      show win0_1.index t (1 : Fin 2) * 3072 + 1 * (colV ⟨(y 1).val, idx2_lt1 y⟩).val
        = (colV ⟨win0_5.index t (1 : Fin 2) * 1024 + 1 * (y 1).val, _⟩).val
      unfold colV
      show win0_1.index t (1 : Fin 2) * 3072 + 1 * (2048 + (y 1).val) = 2048 + (win0_5.index t (1 : Fin 2) * 1024 + 1 * (y 1).val)
      omega
  · show V c main_v4 (((cfg0.win 2).blk t).view.emb (ix2 (0 : Fin 1) (colV ⟨(y 1).val, idx2_lt1 y⟩))) = _
    refine congrArg (V c main_v4) (funext fun a => Fin.ext ?_)
    match a with
    | ⟨0, _⟩ =>
      show win0_2.index t (0 : Fin 2) * 1 + 1 * 0 = 0
      omega
    | ⟨1, _⟩ =>
      show win0_2.index t (1 : Fin 2) * 3072 + 1 * (colV ⟨(y 1).val, idx2_lt1 y⟩).val
        = (colV ⟨win0_5.index t (1 : Fin 2) * 1024 + 1 * (y 1).val, _⟩).val
      unfold colV
      show win0_2.index t (1 : Fin 2) * 3072 + 1 * (2048 + (y 1).val) = 2048 + (win0_5.index t (1 : Fin 2) * 1024 + 1 * (y 1).val)
      omega

/-- An entry of the array is in point `t`'s block when its row is among the block's 1024 rows. -/
theorem mem_block_v (t : Fin cfg0.N) (i : S16384x1024.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v7_2).slice (win0_5.rect t)).set ↔ _
  rw [View.set_slice_whole, Rect.mem_set_unit]
  exact Iff.rfl

/-- Every row `R` is in the block of point `R / 1024`. -/
theorem cover_v (i : S16384x1024.Idx) :
    ∃ t : Fin cfg0.N, (cfg0.win 5).flush t = true ∧ i ∈ ((cfg0.win 5).blk t).view.set := by
  have hi0 : (i 0).val < 16384 := idx2_lt0 i
  have hi1 : (i 1).val < 1024 := idx2_lt1 i
  have hN : cfg0.N = 16 := N_0
  have ht : (i 0).val / 1024 < cfg0.N := by rw [hN]; omega
  obtain ⟨f00, f01, f10, f11, f20, f21, f30, f31, f40, f41, f50, f51⟩ := blockIndex ⟨(i 0).val / 1024, ht⟩
  refine ⟨⟨(i 0).val / 1024, ht⟩, flush0_5 _, ?_⟩
  rw [mem_block_v]
  intro a
  match a with
  | ⟨0, _⟩ =>
    show win0_5.index ⟨(i 0).val / 1024, ht⟩ (0 : Fin 2) * 1024 ≤ (i 0).val
      ∧ (i 0).val < win0_5.index ⟨(i 0).val / 1024, ht⟩ (0 : Fin 2) * 1024 + 1024
    rw [f50]
    show (i 0).val / 1024 * 1024 ≤ (i 0).val ∧ (i 0).val < (i 0).val / 1024 * 1024 + 1024
    omega
  | ⟨1, _⟩ =>
    show win0_5.index ⟨(i 0).val / 1024, ht⟩ (1 : Fin 2) * 1024 ≤ (i 1).val
      ∧ (i 1).val < win0_5.index ⟨(i 0).val / 1024, ht⟩ (1 : Fin 2) * 1024 + 1024
    rw [f51]
    omega

/-- The array after the region is the whole-array function. -/
theorem proj_array_v (c : Dev nD) :
    (pdat (F := Ideal) V c).arrAt 5 cfg0.N = projArr colV (V c main_v0) (V c main_v2) (V c main_v4) :=
  (pdat (F := Ideal) V c).arrAt_eq_of_cover 5 _ (fun t _ => flushed_v V c t) cover_v

/-! ## The three arrays at coordinates -/

/- The sums and products below are the extended reals'; they are written with their types named because an array's
   entry is typed by its buffer's element type, which only unfolds to the extended reals. -/

theorem proj_final_q (c : Dev nD) (R : Fin 16384) (j : Fin 1024) :
    ((pdat (F := Ideal) V c).arrAt 3 cfg0.N : S16384x1024.Idx → EReal) (ix2 R j)
      = HAdd.hAdd (α := EReal) (β := EReal) (γ := EReal)
          (Finset.sum (M := EReal) Finset.univ fun i : Fin 1024 =>
            HMul.hMul (α := EReal) (β := EReal) (γ := EReal) (V c main_v0 (ix2 R i))
              (V c main_v2 (ix2 i (⟨j.val, by omega⟩ : Fin 3072))))
          (V c main_v4 (ix2 (0 : Fin 1) (⟨j.val, by omega⟩ : Fin 3072))) := by
  rw [proj_array_q]
  rfl

theorem proj_final_k (c : Dev nD) (R : Fin 16384) (j : Fin 1024) :
    ((pdat (F := Ideal) V c).arrAt 4 cfg0.N : S16384x1024.Idx → EReal) (ix2 R j)
      = HAdd.hAdd (α := EReal) (β := EReal) (γ := EReal)
          (Finset.sum (M := EReal) Finset.univ fun i : Fin 1024 =>
            HMul.hMul (α := EReal) (β := EReal) (γ := EReal) (V c main_v0 (ix2 R i))
              (V c main_v2 (ix2 i (⟨1024 + j.val, by omega⟩ : Fin 3072))))
          (V c main_v4 (ix2 (0 : Fin 1) (⟨1024 + j.val, by omega⟩ : Fin 3072))) := by
  rw [proj_array_k]
  rfl

theorem proj_final_v (c : Dev nD) (R : Fin 16384) (j : Fin 1024) :
    ((pdat (F := Ideal) V c).arrAt 5 cfg0.N : S16384x1024.Idx → EReal) (ix2 R j)
      = HAdd.hAdd (α := EReal) (β := EReal) (γ := EReal)
          (Finset.sum (M := EReal) Finset.univ fun i : Fin 1024 =>
            HMul.hMul (α := EReal) (β := EReal) (γ := EReal) (V c main_v0 (ix2 R i))
              (V c main_v2 (ix2 i (⟨2048 + j.val, by omega⟩ : Fin 3072))))
          (V c main_v4 (ix2 (0 : Fin 1) (⟨2048 + j.val, by omega⟩ : Fin 3072))) := by
  rw [proj_array_v]
  rfl

end Cert.KernelIdeal.Hand

end
-- ==== Proof.AttnPiecesI.lean ====
/-
  What the attention body's two runs leave, as the body's own arithmetic. The runs find each written buffer's contents
  as pieces; each buffer is written whole, last, by one store, so its contents are that store's value, and a buffer
  read back after such a store reads that value. After a first-half point: the new maximum, denominator and numerator
  from the reset values `-∞`, `0`, `0`. After a second-half point: the output block from one more step over what the
  first half left.
-/
import proofs.«163083_j50611894616492_2_alg».proof.Proof.AttnRegionI
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zero3 : (![0, 0, 0] : Fin S1x1024x1024.rank → Nat) = fun _ => 0 := by funext a; fin_cases a <;> rfl
theorem zeroSq : (![0, 0] : Fin S1024x1024.rank → Nat) = fun _ => 0 := by funext a; fin_cases a <;> rfl
theorem zeroCol : (![0, 0] : Fin S1024x1.rank → Nat) = fun _ => 0 := by funext a; fin_cases a <;> rfl
theorem zeroRow : (![0, 0] : Fin S1x1024.rank → Nat) = fun _ => 0 := by funext a; fin_cases a <;> rfl

/-- A scratch buffer handed in at known contents reads those contents. -/
theorem scMax_read (h : (scMax : Memref sig .tc .vmem S1024x1 .f32).IsWhole) (X : Vec F S1024x1 .f32) :
    View.read (Elt F) (View.whole cc1_scratch0 : View sig .tc .vmem S1024x1 .f32) (h.unread X) = X := h.read_unread X
theorem scDen_read (h : (scDen : Memref sig .tc .vmem S1024x1 .f32).IsWhole) (X : Vec F S1024x1 .f32) :
    View.read (Elt F) (View.whole cc1_scratch1 : View sig .tc .vmem S1024x1 .f32) (h.unread X) = X := h.read_unread X
theorem scNum_read (h : (scNum : Memref sig .tc .vmem S1024x1024 .f32).IsWhole) (X : Vec F S1024x1024 .f32) :
    View.read (Elt F) (View.whole cc1_scratch2 : View sig .tc .vmem S1024x1024 .f32) (h.unread X) = X := h.read_unread X

/-- The running maximum after a first-half point: `max (-∞) (the block's row maxima)`. -/
theorem mAfter_eq (c : Dev nD) (t : Fin cfg1.N) (h : t.val % 2 = 0) :
    mAfter V c t h = k1_pay2 (k1_pay8 (ablk V c 0 t) (ablk V c 1 t) (k1_pay4 (F := F))) := by
  unfold mAfter
  rw [View.read_writes_eq_canon _ _ _ (first_cover_max V c t h)]
  unfold firstPieces firstHalfRun
  dsimp only
  sl_unfold_words
  rw [View.canon_cons_unit_zero zeroCol]
  simp only [View.readAt_eq_ld, Memref.IsWhole.read_unread, View.ld_unit_zero (S := S1x1024x1024) zero3,
    View.readCov_unit_zero (S := S1024x1) _ zeroCol]

/-- The running denominator after a first-half point. -/
theorem lAfter_eq (c : Dev nD) (t : Fin cfg1.N) (h : t.val % 2 = 0) :
    lAfter V c t h = k1_pay11 (ablk V c 0 t) (ablk V c 1 t) (k1_pay4 (F := F)) (k1_pay4 (F := F)) (k1_pay5 (F := F)) := by
  unfold lAfter
  rw [View.read_writes_eq_canon _ _ _ (first_cover_den V c t h)]
  unfold firstPieces firstHalfRun
  dsimp only
  sl_unfold_words
  rw [View.canon_cons_unit_zero zeroCol]
  simp only [View.readAt_eq_ld, Memref.IsWhole.read_unread, View.ld_unit_zero (S := S1x1024x1024) zero3,
    View.readCov_unit_zero (S := S1024x1) _ zeroCol]

/-- The running numerator after a first-half point. -/
theorem accAfter_eq (c : Dev nD) (t : Fin cfg1.N) (h : t.val % 2 = 0) :
    accAfter V c t h = k1_pay1 (k1_pay9 (ablk V c 0 t) (ablk V c 1 t) (k1_pay4 (F := F)))
      (k1_pay10 (ablk V c 0 t) (ablk V c 1 t) (k1_pay4 (F := F)) (k1_pay4 (F := F))) (k1_pay12 (ablk V c 2 t)) (k1_pay6 (F := F)) := by
  unfold accAfter
  rw [View.read_writes_eq_canon _ _ _ (first_cover_num V c t h)]
  unfold firstPieces firstHalfRun
  dsimp only
  sl_unfold_words
  rw [View.canon_cons_unit_zero zeroSq]
  simp only [View.readAt_eq_ld, Memref.IsWhole.read_unread, View.ld_unit_zero (S := S1x1024x1024) zero3,
    View.readCov_unit_zero (S := S1024x1) _ zeroCol, View.readCov_unit_zero (S := S1024x1024) _ zeroSq]

/-- The output block after a second-half point, over what the first-half point `t'` left. -/
theorem outAfter_eq (c : Dev nD) (t : Fin cfg1.N) (h : t.val % 2 = 1) (t' : Fin cfg1.N) (h' : t'.val % 2 = 0) :
    outAfter V c t h t' h' = k1_pay3
      (k1_pay1 (k1_pay9 (ablk V c 0 t) (ablk V c 1 t) (mAfter V c t' h'))
        (k1_pay10 (ablk V c 0 t) (ablk V c 1 t) (mAfter V c t' h') (mAfter V c t' h')) (k1_pay12 (ablk V c 2 t)) (accAfter V c t' h'))
      (k1_pay11 (ablk V c 0 t) (ablk V c 1 t) (mAfter V c t' h') (mAfter V c t' h') (lAfter V c t' h'))
      (ablk V c 3 t) (ablk V c 4 t) := by
  unfold outAfter
  rw [View.read_writes_eq_canon _ _ _ (second_cover_out V c t h t' h')]
  unfold secondPieces secondHalfRun
  dsimp only
  sl_unfold_words
  rw [View.canon_unit_zero zero3]
  simp only [View.readAt_eq_ld, Memref.IsWhole.read_unread, View.ld_unit_zero (S := S1x1024x1024) zero3,
    View.ld_unit_zero (S := S1024x1024) zeroSq, View.ld_unit_zero (S := S1024x1) zeroCol, View.ld_unit_zero (S := S1x1024) zeroRow,
    View.readCov_unit_zero (S := S1024x1) _ zeroCol, View.readCov_unit_zero (S := S1024x1024) _ zeroSq]
  simp only [scMax_read, scDen_read, scNum_read]

end Cert.KernelIdeal.Hand

end
-- ==== Proof.AttnPayload.lean ====
/-
  The attention body's arithmetic, read one entry at a time on the extended reals.

  Each value the body computes is a function on index tuples; here each is evaluated at an entry given by
  explicit coordinates. A layout change reads one entry of its operand; an elementwise operation acts on the
  entries; a product of matrices is a sum over the contracted coordinate; a reduction along the key axis is a
  sum, or a greatest element, over that coordinate.
-/
import proofs.«163083_j50611894616492_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

namespace Cert.KernelIdeal.Pay

open Cert.KernelIdeal Cert.KernelIdeal.Gen Idealize.ShloMosaic Idealize.ShloMosaic.ValueIdx

/-! ## Two layout changes by columns -/

section Columns

variable {α : Type}

/-- A vector of length a viewed as an a × 1 column reads, at (i, u), the vector at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column repeated along b columns reads, at (p, c), the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## The starting values and the copies -/

/-- The running maximum starts at -∞. -/
theorem pay4_apply (r : Fin 1024) : k1_pay4 (F := Ideal) (ix2 r (0 : Fin 1)) = ⊥ := by
  show Ideal.ofBits .f32 0xFF800000#32 = ⊥
  simp [Ideal.ofBits, Ideal.ieee]

/-- The running denominator starts at 0. -/
theorem pay5_apply (r : Fin 1024) : k1_pay5 (F := Ideal) (ix2 r (0 : Fin 1)) = 0 :=
  Ideal.ofBits_zero_f32

/-- The running numerator starts at 0. -/
theorem pay6_apply (r d : Fin 1024) : k1_pay6 (F := Ideal) (ix2 r d) = 0 :=
  Ideal.ofBits_zero_f32

/-- The new running maximum is stored as it is. -/
theorem pay2_apply (mn : FVec Ideal S1024x1 .f32) (r : Fin 1024) :
    k1_pay2 mn (ix2 r (0 : Fin 1)) = mn (ix2 r (0 : Fin 1)) := by
  unfold k1_pay2
  rw [shapeCast_self]

/-- The value block with its leading unit axis dropped. -/
theorem pay12_apply (x5 : Vec Ideal S1x1024x1024 .bf16) (k d : Fin 1024) :
    k1_pay12 x5 (ix2 k d) = x5 (ix3 (0 : Fin 1) k d) := by
  unfold k1_pay12
  exact shapeCast_1ab_ab_apply x5 _ k d

/-! ## The two matrix products at an entry -/

section Products

theorem nt_lhs_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

theorem nt_lhs_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q

theorem nt_rhs_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

theorem nt_rhs_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product of a matrix with a transposed matrix, from zero: entry (p, q) is the sum over j of
    l (p, j) * r (q, j). -/
theorem matmul_nt_apply (l r : FVec Ideal S1024x1024 .bf16) (p q : Fin 1024) :
    matmul dot_S1024x1024_S1024x1024_S1024x1024_1_1_0_0_n_n none l r (constant (F := Ideal) S1024x1024 .f32 0x00000000#32) (ix2 p q)
      = ∑ j : Fin 1024, l (ix2 p j) * r (ix2 q j) := by
  simp only [matmul]
  rw [Ideal.matmul_constant_zero_apply,
    ← Equiv.sum_comp (contrEquiv1 dot_S1024x1024_S1024x1024_S1024x1024_1_1_0_0_n_n 1024 rfl rfl).symm]
  refine Finset.sum_congr rfl fun j _ => ?_
  have hk := contrEquiv1_symm_val dot_S1024x1024_S1024x1024_S1024x1024_1_1_0_0_n_n 1024 rfl rfl j
  have el : dot_S1024x1024_S1024x1024_S1024x1024_1_1_0_0_n_n.lhsIdx (ix2 p q) ((contrEquiv1 dot_S1024x1024_S1024x1024_S1024x1024_1_1_0_0_n_n 1024 rfl rfl).symm j) = ix2 p j :=
    funext fun a => Fin.ext (by
      match a with
      | ⟨0, _⟩ => exact nt_lhs_0 _ _
      | ⟨1, _⟩ => exact (nt_lhs_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm j) = ix2 q j :=
    funext fun a => Fin.ext (by
      match a with
      | ⟨0, _⟩ => exact nt_rhs_0 _ _
      | ⟨1, _⟩ => exact (nt_rhs_1 _ _).trans hk)
  rw [el, er]

theorem nn_lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

theorem nn_lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q

theorem nn_rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q

theorem nn_rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The plain product of two matrices, from zero: entry (p, q) is the sum over j of l (p, j) * r (j, q). -/
theorem matmul_nn_apply (l r : FVec Ideal S1024x1024 .bf16) (p q : Fin 1024) :
    matmul dot_S1024x1024_S1024x1024_S1024x1024_1_0_0_1_n_n none l r (constant (F := Ideal) S1024x1024 .f32 0x00000000#32) (ix2 p q)
      = ∑ j : Fin 1024, l (ix2 p j) * r (ix2 j q) := by
  simp only [matmul]
  rw [Ideal.matmul_constant_zero_apply,
    ← Equiv.sum_comp (contrEquiv1 dot_S1024x1024_S1024x1024_S1024x1024_1_0_0_1_n_n 1024 rfl rfl).symm]
  refine Finset.sum_congr rfl fun j _ => ?_
  have hk := contrEquiv1_symm_val dot_S1024x1024_S1024x1024_S1024x1024_1_0_0_1_n_n 1024 rfl rfl j
  have el : dot_S1024x1024_S1024x1024_S1024x1024_1_0_0_1_n_n.lhsIdx (ix2 p q) ((contrEquiv1 dot_S1024x1024_S1024x1024_S1024x1024_1_0_0_1_n_n 1024 rfl rfl).symm j) = ix2 p j :=
    funext fun a => Fin.ext (by
      match a with
      | ⟨0, _⟩ => exact nn_lhs_0 _ _
      | ⟨1, _⟩ => exact (nn_lhs_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm j) = ix2 j q :=
    funext fun a => Fin.ext (by
      match a with
      | ⟨0, _⟩ => exact (nn_rhs_0 _ _).trans hk
      | ⟨1, _⟩ => exact nn_rhs_1 _ _)
  rw [el, er]

end Products

/-! ## The scores, their running maximum, the weights and the running denominator -/

/-- The scaled score of query row r against key row k of the two blocks. -/
def sc (x3 x4 : Vec Ideal S1x1024x1024 .bf16) (r k : Fin 1024) : EReal :=
  (∑ j : Fin 1024, x3 (ix3 (0 : Fin 1) r j) * x4 (ix3 (0 : Fin 1) k j)) * Ideal.ofBits .f32 0x3D000000#32

/-- The score matrix at (r, k). -/
theorem pay7_apply (x3 x4 : Vec Ideal S1x1024x1024 .bf16) (r k : Fin 1024) :
    k1_pay7 x3 x4 (ix2 r k) = sc x3 x4 r k := by
  unfold k1_pay7 sc
  rw [mulf_apply, matmul_nt_apply]
  simp only [shapeCast_1ab_ab_apply]
  rfl

/-- The word the maximum along the keys starts from denotes -∞. -/
theorem ofBits_neg_inf : Ideal.ofBits .f32 0xFF800000#32 = ⊥ := by
  simp [Ideal.ofBits, Ideal.ieee]

/-- A row index with the key coordinate put back on axis 1 is the pair (row, key). -/
theorem lift_row (h : S1024x1024.Reduces [1] S1024) (r k : Fin 1024) : h.lift (ix1 r) k = ix2 r k :=
  funext fun a => Fin.ext (by
    match a with
    | ⟨0, _⟩ => rfl
    | ⟨1, _⟩ => rfl)

/-- The new running maximum of row r: the greater of the old one and the greatest score of the row. -/
theorem pay8_apply (x3 x4 : Vec Ideal S1x1024x1024 .bf16) (m : Vec Ideal S1024x1 .f32) (r : Fin 1024) :
    k1_pay8 x3 x4 m (ix2 r (0 : Fin 1))
      = max (m (ix2 r (0 : Fin 1))) ((Finset.univ : Finset (Fin 1024)).fold max ⊥ (fun k => sc x3 x4 r k)) := by
  unfold k1_pay8
  rw [maximumf_apply, shapeCast_a_a1_apply]
  refine congrArg (max _) ?_
  refine (Ideal.multiReduction_maximumf_single _ _ _ _ _ (ix1 r)).trans ?_
  show (Finset.univ : Finset (Fin 1024)).fold max (Ideal.ofBits .f32 0xFF800000#32)
    (fun k => k1_pay7 x3 x4 (Facts₀.reduces_S1024x1024_S1024.lift (ix1 r) k)) = _
  rw [ofBits_neg_inf]
  refine congrArg (fun f => Finset.fold max ⊥ f (Finset.univ : Finset (Fin 1024))) (funext fun (k : Fin 1024) => ?_)
  exact (congrArg (k1_pay7 x3 x4) (lift_row _ r k)).trans (pay7_apply x3 x4 r k)

/-- The unnormalised weight of key k for row r, against the new running maximum. -/
theorem pay9_apply (x3 x4 : Vec Ideal S1x1024x1024 .bf16) (m : Vec Ideal S1024x1 .f32) (r k : Fin 1024) :
    k1_pay9 x3 x4 m (ix2 r k) = Ideal.exp (sc x3 x4 r k - k1_pay8 x3 x4 m (ix2 r (0 : Fin 1))) := by
  unfold k1_pay9
  show Ideal.exp (subf (k1_pay7 x3 x4) (broadcastTo S1024x1024 (k1_pay8 x3 x4 m) _) (ix2 r k)) = _
  rw [subf_apply, broadcastTo_a1_ab_apply, pay7_apply]

/-- The factor that rescales what row r carries: the exponential of old maximum minus new maximum. -/
theorem pay10_apply (x3 x4 : Vec Ideal S1x1024x1024 .bf16) (m m' : Vec Ideal S1024x1 .f32) (r : Fin 1024) :
    k1_pay10 x3 x4 m m' (ix2 r (0 : Fin 1))
      = Ideal.exp (m' (ix2 r (0 : Fin 1)) - k1_pay8 x3 x4 m (ix2 r (0 : Fin 1))) := by
  unfold k1_pay10
  show Ideal.exp (subf m' (k1_pay8 x3 x4 m) (ix2 r (0 : Fin 1))) = _
  rw [subf_apply]

/-- The new running denominator of row r: the old one rescaled, plus the sum of the row's weights. -/
theorem pay11_apply (x3 x4 : Vec Ideal S1x1024x1024 .bf16) (m m' l : Vec Ideal S1024x1 .f32) (r : Fin 1024) :
    k1_pay11 x3 x4 m m' l (ix2 r (0 : Fin 1))
      = k1_pay10 x3 x4 m m' (ix2 r (0 : Fin 1)) * l (ix2 r (0 : Fin 1))
        + ∑ k : Fin 1024, k1_pay9 x3 x4 m (ix2 r k) := by
  unfold k1_pay11
  rw [shapeCast_self, addf_apply, mulf_apply, shapeCast_a_a1_apply]
  refine congrArg (fun z => k1_pay10 x3 x4 m m' (ix2 r (0 : Fin 1)) * l (ix2 r (0 : Fin 1)) + z) ?_
  refine (Ideal.multiReduction_add_single _ _ _ _ _ (ix1 r)).trans ?_
  show ∑ k : Fin 1024, k1_pay9 x3 x4 m (Facts₀.reduces_S1024x1024_S1024.lift (ix1 r) k) = _
  exact Finset.sum_congr rfl fun k _ => congrArg (k1_pay9 x3 x4 m) (lift_row _ r k)

/-! ## The running numerator and the output -/

/-- The new running numerator at (r, d): the old one rescaled, plus the weights of row r against column d of
    the values. -/
theorem pay1_apply (p : FVec Ideal S1024x1024 .f32) (a : FVec Ideal S1024x1 .f32) (v : FVec Ideal S1024x1024 .bf16)
    (acc : Vec Ideal S1024x1024 .f32) (r d : Fin 1024) :
    k1_pay1 p a v acc (ix2 r d)
      = a (ix2 r (0 : Fin 1)) * acc (ix2 r d) + ∑ k : Fin 1024, p (ix2 r k) * v (ix2 k d) := by
  unfold k1_pay1
  rw [shapeCast_self, addf_apply, mulf_apply, broadcastTo_a1_ab_apply, matmul_nn_apply]
  rfl

/-- The output at (0, r, e): the numerator of row r over its denominator, against column e of the output
    weights, plus the output bias. -/
theorem pay3_apply (acc : Vec Ideal S1024x1024 .f32) (l : Vec Ideal S1024x1 .f32) (wo : Vec Ideal S1024x1024 .bf16)
    (bo : Vec Ideal S1x1024 .f32) (r e : Fin 1024) :
    k1_pay3 acc l wo bo (ix3 (0 : Fin 1) r e)
      = (∑ d : Fin 1024, Ideal.div (acc (ix2 r d)) (l (ix2 r (0 : Fin 1))) * wo (ix2 d e))
        + bo (ix2 (0 : Fin 1) e) := by
  unfold k1_pay3
  rw [shapeCast_ab_1ab_apply, addf_apply, matmul_nn_apply, broadcastTo_1b_ab_apply, shapeCast_self, shapeCast_self]
  refine congrArg (fun z => z + bo (ix2 (0 : Fin 1) e)) (Finset.sum_congr rfl fun d _ => ?_)
  rw [truncf_apply, divf_apply, broadcastTo_a1_ab_apply]

end Cert.KernelIdeal.Pay

end
-- ==== Proof.AttnRow.lean ====
/-
  The attention body's two visits to a query row, as the two-step softmax recurrence.

  The first visit (first half of the keys) starts from -∞, 0, 0 and leaves a running maximum, denominator and
  numerator; the second visit (second half) rescales them and divides once. Entry by entry these are the
  recurrence's running quantities on the row's scaled scores against the two key blocks, and the stored output is the
  recurrence's quotient against the output weights, plus the bias.
-/
import proofs.«163083_j50611894616492_2_alg».proof.Proof.AttnPayload
import proofs.«163083_j50611894616492_2_alg».proof.Proof.Spec

set_option synthInstance.maxSize 4096

noncomputable section

namespace Cert.KernelIdeal.Row

open Cert.KernelIdeal Cert.KernelIdeal.Gen Cert.KernelIdeal.Pay Cert.Attn Idealize.ShloMosaic Idealize.ShloMosaic.ValueIdx

section Row

variable (Q K0 V0 K1 V1 : Vec Ideal S1x1024x1024 .bf16)

local notation "P4" => (k1_pay4 (F := Ideal))
local notation "P5" => (k1_pay5 (F := Ideal))
local notation "P6" => (k1_pay6 (F := Ideal))
local notation "M0" => k1_pay2 (k1_pay8 Q K0 P4)
local notation "L0" => k1_pay11 Q K0 P4 P4 P5
local notation "A0" => k1_pay1 (k1_pay9 Q K0 P4) (k1_pay10 Q K0 P4 P4) (k1_pay12 V0) P6

/-! ## After the first half of the keys -/

theorem max0_row' (r : Fin 1024) :
    k1_pay8 Q K0 P4 (ix2 r (0 : Fin 1)) = onlineMax0 (fun k' => sc Q K0 r k') := by
  rw [pay8_apply, pay4_apply]
  rfl

/-- The running maximum of row r after the first half. -/
theorem max0_row (r : Fin 1024) : M0 (ix2 r (0 : Fin 1)) = onlineMax0 (fun k' => sc Q K0 r k') := by
  rw [pay2_apply, max0_row']

/-- The first half's rescaling factor of row r. -/
theorem scale0_row (r : Fin 1024) :
    k1_pay10 Q K0 P4 P4 (ix2 r (0 : Fin 1)) = onlineScale0 (fun k' => sc Q K0 r k') := by
  rw [pay10_apply, pay4_apply, max0_row']
  rfl

/-- The running denominator of row r after the first half. -/
theorem den0_row (r : Fin 1024) : L0 (ix2 r (0 : Fin 1)) = onlineDen0 (fun k' => sc Q K0 r k') := by
  rw [pay11_apply, scale0_row, pay5_apply]
  simp only [pay9_apply, max0_row']
  rfl

/-- The running numerator at (r, d) after the first half. -/
theorem num0_row (r d : Fin 1024) :
    A0 (ix2 r d) = onlineNum0 (fun k' => sc Q K0 r k') (fun k' d => V0 (ix3 (0 : Fin 1) k' d)) d := by
  rw [pay1_apply, scale0_row, pay6_apply]
  simp only [pay9_apply, max0_row', pay12_apply]
  rfl

/-! ## After the second half of the keys -/

/-- The running maximum of row r after the second half. -/
theorem max1_row (r : Fin 1024) :
    k1_pay8 Q K1 M0 (ix2 r (0 : Fin 1)) = onlineMax1 (fun k' => sc Q K0 r k') (fun k' => sc Q K1 r k') := by
  rw [pay8_apply, max0_row]
  rfl

/-- The second half's rescaling factor of row r. -/
theorem scale1_row (r : Fin 1024) :
    k1_pay10 Q K1 M0 M0 (ix2 r (0 : Fin 1)) = onlineScale1 (fun k' => sc Q K0 r k') (fun k' => sc Q K1 r k') := by
  rw [pay10_apply, max0_row, max1_row]
  rfl

/-- The running denominator of row r after the second half. -/
theorem den1_row (r : Fin 1024) :
    k1_pay11 Q K1 M0 M0 L0 (ix2 r (0 : Fin 1))
      = onlineDen1 (fun k' => sc Q K0 r k') (fun k' => sc Q K1 r k') := by
  rw [pay11_apply, scale1_row, den0_row]
  simp only [pay9_apply, max1_row]
  rfl

/-- The running numerator at (r, d) after the second half. -/
theorem num1_row (r d : Fin 1024) :
    k1_pay1 (k1_pay9 Q K1 M0) (k1_pay10 Q K1 M0 M0) (k1_pay12 V1) A0 (ix2 r d)
      = onlineNum1 (fun k' => sc Q K0 r k') (fun k' => sc Q K1 r k') (fun k' d => V0 (ix3 (0 : Fin 1) k' d))
          (fun k' d => V1 (ix3 (0 : Fin 1) k' d)) d := by
  rw [pay1_apply, scale1_row, num0_row]
  simp only [pay9_apply, max1_row, pay12_apply]
  rfl

/-- The output block at (0, r, e): the recurrence's row r against column e of the output weights, plus the bias. -/
theorem out_row (wo : Vec Ideal S1024x1024 .bf16) (bo : Vec Ideal S1x1024 .f32) (r e : Fin 1024) :
    k1_pay3 (k1_pay1 (k1_pay9 Q K1 M0) (k1_pay10 Q K1 M0 M0) (k1_pay12 V1) A0) (k1_pay11 Q K1 M0 M0 L0) wo bo
        (ix3 (0 : Fin 1) r e)
      = (∑ d : Fin 1024,
          onlineOut (fun k' => sc Q K0 r k') (fun k' => sc Q K1 r k') (fun k' d => V0 (ix3 (0 : Fin 1) k' d))
            (fun k' d => V1 (ix3 (0 : Fin 1) k' d)) d * wo (ix2 d e))
        + bo (ix2 (0 : Fin 1) e) := by
  rw [pay3_apply]
  simp only [num1_row, den1_row]
  rfl

end Row

end Cert.KernelIdeal.Row

end
-- ==== Proof.AttnValue.lean ====
/-
  The attention region's output array as one function of the arrays the region enters with.

  A point of the second key half writes one block of the output: rows of one batch and one query half. Its value there
  is the two-step recurrence of Spec on that row's scores against the two key halves, which the point and the point
  before it read as blocks of the query, key and value arrays. The second-half points' blocks tile the output array.
-/
import proofs.«163083_j50611894616492_2_alg».proof.Proof.AttnPiecesI
import proofs.«163083_j50611894616492_2_alg».proof.Proof.AttnRow
import proofs.«163083_j50611894616492_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Pay Cert.KernelIdeal.Row

variable (V : (c : Dev nD) → (b : Ref sig .tc) → Buf (Elt Ideal) ((c : Thread nD τ).loc b))

/-! ## The printed index maps over the grid -/

/-- Point t = 4 b + 2 qi + kv reads query block (b, qi, 0), key and value block (b, kv, 0), the weights and bias
    whole, and owns output block (b, qi, 0). -/
theorem idx_facts : ∀ t : Fin cfg1.N,
    win1_0.index t (0 : Fin 3) = t.val / 4 ∧ win1_0.index t (1 : Fin 3) = t.val / 2 % 2 ∧ win1_0.index t (2 : Fin 3) = 0
    ∧ win1_1.index t (0 : Fin 3) = t.val / 4 ∧ win1_1.index t (1 : Fin 3) = t.val % 2 ∧ win1_1.index t (2 : Fin 3) = 0
    ∧ win1_2.index t (0 : Fin 3) = t.val / 4 ∧ win1_2.index t (1 : Fin 3) = t.val % 2 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 4 ∧ win1_5.index t (1 : Fin 3) = t.val / 2 % 2 ∧ win1_5.index t (2 : Fin 3) = 0 :=
  (by decide +kernel : ∀ t : Fin grid1.N, _)

/-! ## The blocks read off the arrays -/

/-- The query block at point t. -/
theorem ablk0_apply (c : Dev nD) (t : Fin cfg1.N) (b : Fin 8) (R : Fin 2048) (u : Fin 1) (r j : Fin 1024)
    (hb : b.val = t.val / 4) (hR : R.val = t.val / 2 % 2 * 1024 + r.val) :
    (ablk V c 0 t : S1x1024x1024.Idx → EReal) (ix3 u r j) = (V c main_v8 : S8x2048x1024.Idx → EReal) (ix3 b R j) := by
  obtain ⟨e0, e1, e2, -⟩ := idx_facts t
  unfold ablk
  rw [View.read_apply]
  refine congrArg (V c main_v8 : S8x2048x1024.Idx → EReal) (funext fun a => Fin.ext ?_)
  have hu : u.val = 0 := by omega
  match a with
  | ⟨0, _⟩ => show win1_0.index t (0 : Fin 3) * 1 + 1 * u.val = b.val; omega
  | ⟨1, _⟩ => show win1_0.index t (1 : Fin 3) * 1024 + 1 * r.val = R.val; omega
  | ⟨2, _⟩ => show win1_0.index t (2 : Fin 3) * 1024 + 1 * j.val = j.val; omega

/-- The key block at point t. -/
theorem ablk1_apply (c : Dev nD) (t : Fin cfg1.N) (b : Fin 8) (K : Fin 2048) (u : Fin 1) (k j : Fin 1024)
    (hb : b.val = t.val / 4) (hK : K.val = t.val % 2 * 1024 + k.val) :
    (ablk V c 1 t : S1x1024x1024.Idx → EReal) (ix3 u k j) = (V c main_v9 : S8x2048x1024.Idx → EReal) (ix3 b K j) := by
  obtain ⟨-, -, -, e0, e1, e2, -⟩ := idx_facts t
  unfold ablk
  rw [View.read_apply]
  refine congrArg (V c main_v9 : S8x2048x1024.Idx → EReal) (funext fun a => Fin.ext ?_)
  have hu : u.val = 0 := by omega
  match a with
  | ⟨0, _⟩ => show win1_1.index t (0 : Fin 3) * 1 + 1 * u.val = b.val; omega
  | ⟨1, _⟩ => show win1_1.index t (1 : Fin 3) * 1024 + 1 * k.val = K.val; omega
  | ⟨2, _⟩ => show win1_1.index t (2 : Fin 3) * 1024 + 1 * j.val = j.val; omega

/-- The value block at point t. -/
theorem ablk2_apply (c : Dev nD) (t : Fin cfg1.N) (b : Fin 8) (K : Fin 2048) (u : Fin 1) (k j : Fin 1024)
    (hb : b.val = t.val / 4) (hK : K.val = t.val % 2 * 1024 + k.val) :
    (ablk V c 2 t : S1x1024x1024.Idx → EReal) (ix3 u k j) = (V c main_v10 : S8x2048x1024.Idx → EReal) (ix3 b K j) := by
  obtain ⟨-, -, -, -, -, -, e0, e1, e2, -⟩ := idx_facts t
  unfold ablk
  rw [View.read_apply]
  refine congrArg (V c main_v10 : S8x2048x1024.Idx → EReal) (funext fun a => Fin.ext ?_)
  have hu : u.val = 0 := by omega
  match a with
  | ⟨0, _⟩ => show win1_2.index t (0 : Fin 3) * 1 + 1 * u.val = b.val; omega
  | ⟨1, _⟩ => show win1_2.index t (1 : Fin 3) * 1024 + 1 * k.val = K.val; omega
  | ⟨2, _⟩ => show win1_2.index t (2 : Fin 3) * 1024 + 1 * j.val = j.val; omega

/-- The output weights, whole at every point. -/
theorem ablk3_apply (c : Dev nD) (t : Fin cfg1.N) (d e : Fin 1024) :
    (ablk V c 3 t : S1024x1024.Idx → EReal) (ix2 d e) = (V c main_v5 : S1024x1024.Idx → EReal) (ix2 d e) := by
  obtain ⟨-, -, -, -, -, -, -, -, -, e0, e1, -⟩ := idx_facts t
  unfold ablk
  rw [View.read_apply]
  refine congrArg (V c main_v5 : S1024x1024.Idx → EReal) (funext fun a => Fin.ext ?_)
  match a with
  | ⟨0, _⟩ => show win1_3.index t (0 : Fin 2) * 1024 + 1 * d.val = d.val; omega
  | ⟨1, _⟩ => show win1_3.index t (1 : Fin 2) * 1024 + 1 * e.val = e.val; omega

/-- The output bias, whole at every point. -/
theorem ablk4_apply (c : Dev nD) (t : Fin cfg1.N) (u : Fin 1) (e : Fin 1024) :
    (ablk V c 4 t : S1x1024.Idx → EReal) (ix2 u e) = (V c main_v6 : S1x1024.Idx → EReal) (ix2 u e) := by
  obtain ⟨-, -, -, -, -, -, -, -, -, -, -, e0, e1, -⟩ := idx_facts t
  unfold ablk
  rw [View.read_apply]
  refine congrArg (V c main_v6 : S1x1024.Idx → EReal) (funext fun a => Fin.ext ?_)
  match a with
  | ⟨0, _⟩ => show win1_4.index t (0 : Fin 2) * 1 + 1 * u.val = u.val; omega
  | ⟨1, _⟩ => show win1_4.index t (1 : Fin 2) * 1024 + 1 * e.val = e.val; omega

/-! ## The function of the arrays -/

/-- The scale of the scores. -/
abbrev cK : EReal := Ideal.ofBits .f32 0x3D000000#32

/-- The query, key and value arrays by coordinates. -/
def Qf (c : Dev nD) : Fin 8 → Fin 2048 → Fin 1024 → EReal :=
  fun b r j => (V c main_v8 : S8x2048x1024.Idx → EReal) (ix3 b r j)
def Kf (c : Dev nD) : Fin 8 → Fin 2048 → Fin 1024 → EReal :=
  fun b r j => (V c main_v9 : S8x2048x1024.Idx → EReal) (ix3 b r j)
def Vf (c : Dev nD) : Fin 8 → Fin 2048 → Fin 1024 → EReal :=
  fun b r j => (V c main_v10 : S8x2048x1024.Idx → EReal) (ix3 b r j)

/-- The output at (b, r, e): the recurrence of row (b, r) over the two key halves, against column e of the output
    weights, plus the bias. -/
def attnAt (c : Dev nD) (b : Fin 8) (r : Fin 2048) (e : Fin 1024) : EReal :=
  (∑ d : Fin 1024, Cert.Attn.onlineOut
      (fun k' : Fin 1024 => Cert.Attn.score cK (Qf V c) (Kf V c) b r (Cert.Attn.halfRow 0 k'))
      (fun k' : Fin 1024 => Cert.Attn.score cK (Qf V c) (Kf V c) b r (Cert.Attn.halfRow 1 k'))
      (fun k' d => Vf V c b (Cert.Attn.halfRow 0 k') d) (fun k' d => Vf V c b (Cert.Attn.halfRow 1 k') d) d
    * (V c main_v5 : S1024x1024.Idx → EReal) (ix2 d e))
  + (V c main_v6 : S1x1024.Idx → EReal) (ix2 (0 : Fin 1) e)

/-- The same as a function on the output array's indices. -/
def attnG (c : Dev nD) : S8x2048x1024.Idx → EReal := fun i => attnAt V c (i 0) (i 1) (i 2)

/-- A row's scaled score read through the blocks is the score of the arrays. -/
theorem sc_read (c : Dev nD) (t tk : Fin cfg1.N) (b : Fin 8) (R : Fin 2048) (h : Fin 2) (r k' : Fin 1024)
    (hb : b.val = t.val / 4) (hbk : b.val = tk.val / 4) (hR : R.val = t.val / 2 % 2 * 1024 + r.val)
    (hh : h.val = tk.val % 2) :
    sc (ablk V c 0 t) (ablk V c 1 tk) r k' = Cert.Attn.score cK (Qf V c) (Kf V c) b R (Cert.Attn.halfRow h k') := by
  unfold sc Cert.Attn.score Qf Kf
  refine congrArg (fun z : EReal => z * cK) (Finset.sum_congr rfl fun j _ => ?_)
  rw [ablk0_apply V c t b R 0 r j hb hR,
    ablk1_apply V c tk b (Cert.Attn.halfRow h k') 0 k' j hbk (by show h.val * 1024 + k'.val = _; rw [hh])]

/-- A value entry read through the block is the entry of the array. -/
theorem v_read (c : Dev nD) (tk : Fin cfg1.N) (b : Fin 8) (h : Fin 2) (k' d : Fin 1024)
    (hbk : b.val = tk.val / 4) (hh : h.val = tk.val % 2) :
    (ablk V c 2 tk : S1x1024x1024.Idx → EReal) (ix3 (0 : Fin 1) k' d) = Vf V c b (Cert.Attn.halfRow h k') d := by
  unfold Vf
  exact ablk2_apply V c tk b (Cert.Attn.halfRow h k') 0 k' d hbk (by show h.val * 1024 + k'.val = _; rw [hh])

/-! ## What a second-half point writes back -/

/-- The query block is the same at a second-half point and at the first-half point before it. -/
theorem ablk0_prev (c : Dev nD) (t t' : Fin cfg1.N) (h : t.val % 2 = 1) (ht' : t'.val = t.val - 1) :
    (ablk V c 0 t' : S1x1024x1024.Idx → EReal) = ablk V c 0 t := by
  funext y
  obtain ⟨u, r, j, rfl⟩ : ∃ (u : Fin 1) (r j : Fin 1024), y = ix3 u r j := ⟨y 0, y 1, y 2, eq_ix3 y⟩
  have hN : cfg1.N = 32 := N_1
  have ht := t.isLt
  have hr := r.isLt
  rw [ablk0_apply V c t' (⟨t.val / 4, by omega⟩ : Fin 8) (⟨t.val / 2 % 2 * 1024 + r.val, by omega⟩ : Fin 2048) u r j
      (by show t.val / 4 = t'.val / 4; omega) (by show t.val / 2 % 2 * 1024 + r.val = t'.val / 2 % 2 * 1024 + r.val; omega),
    ablk0_apply V c t (⟨t.val / 4, by omega⟩ : Fin 8) (⟨t.val / 2 % 2 * 1024 + r.val, by omega⟩ : Fin 2048) u r j rfl rfl]

/-- An entry of point t's output block is the entry of the output array at batch t / 4, row (t / 2 % 2) * 1024 + r. -/
theorem emb5 (t : Fin cfg1.N) (b : Fin 8) (R : Fin 2048) (u : Fin 1) (r e : Fin 1024)
    (hb : b.val = t.val / 4) (hR : R.val = t.val / 2 % 2 * 1024 + r.val) :
    (((cfg1.win 5).blk t).view.emb (ix3 u r e) : S8x2048x1024.Idx) = ix3 b R e := by
  obtain ⟨-, -, -, -, -, -, -, -, -, -, -, -, -, e0, e1, e2⟩ := idx_facts t
  refine funext fun a => Fin.ext ?_
  have hu : u.val = 0 := by omega
  match a with
  | ⟨0, _⟩ => show win1_5.index t (0 : Fin 3) * 1 + 1 * u.val = b.val; omega
  | ⟨1, _⟩ => show win1_5.index t (1 : Fin 3) * 1024 + 1 * r.val = R.val; omega
  | ⟨2, _⟩ => show win1_5.index t (2 : Fin 3) * 1024 + 1 * e.val = e.val; omega

/-- WHAT A SECOND-HALF POINT WRITES BACK is its block of the one function of the arrays. -/
theorem flushed_eq (c : Dev nD) (t : Fin cfg1.N) (hf : (cfg1.win 5).flush t = true) :
    (adat V c).flushed 5 t = ((cfg1.win 5).blk t).view.read (Elt Ideal) (attnG V c) := by
  have h : t.val % 2 = 1 := (flush1_5 t).mp hf
  have hN : cfg1.N = 32 := N_1
  have ht := t.isLt
  show (cfg1.win 5).cut (grid1.coords t) ((adat V c).after 5 t) = _
  rw [aafter_5, outAt_odd V c t h, outAfter_eq, mAfter_eq, lAfter_eq, accAfter_eq]
  rw [ablk0_prev V c t ⟨t.val - 1, Nat.lt_of_le_of_lt (Nat.sub_le _ _) t.isLt⟩ h rfl]
  funext y
  obtain ⟨u, r, e, rfl⟩ : ∃ (u : Fin 1) (r e : Fin 1024), y = ix3 u r e := ⟨y 0, y 1, y 2, eq_ix3 y⟩
  obtain rfl : u = 0 := Subsingleton.elim _ _
  have hr := r.isLt
  obtain ⟨b, hb⟩ : ∃ b : Fin 8, b.val = t.val / 4 := ⟨⟨t.val / 4, by omega⟩, rfl⟩
  obtain ⟨R, hR⟩ : ∃ R : Fin 2048, R.val = t.val / 2 % 2 * 1024 + r.val := ⟨⟨t.val / 2 % 2 * 1024 + r.val, by omega⟩, rfl⟩
  rw [View.read_apply, emb5 t b R 0 r e hb hR]
  show k1_pay3 (F := Ideal) _ _ _ _ (ix3 (0 : Fin 1) r e) = attnAt V c b R e
  rw [out_row]
  unfold attnAt
  have hs0 : ∀ k' : Fin 1024, sc (ablk V c 0 t) (ablk V c 1 ⟨t.val - 1, Nat.lt_of_le_of_lt (Nat.sub_le _ _) t.isLt⟩) r k'
      = Cert.Attn.score cK (Qf V c) (Kf V c) b R (Cert.Attn.halfRow 0 k') :=
    fun k' => sc_read V c t _ b R 0 r k' hb (by show b.val = (t.val - 1) / 4; omega) hR (by show (0 : Fin 2).val = (t.val - 1) % 2; show 0 = _; omega)
  have hs1 : ∀ k' : Fin 1024, sc (ablk V c 0 t) (ablk V c 1 t) r k'
      = Cert.Attn.score cK (Qf V c) (Kf V c) b R (Cert.Attn.halfRow 1 k') :=
    fun k' => sc_read V c t t b R 1 r k' hb hb hR (by show (1 : Fin 2).val = t.val % 2; show 1 = _; omega)
  have hv0 : ∀ k' d : Fin 1024, (ablk V c 2 ⟨t.val - 1, Nat.lt_of_le_of_lt (Nat.sub_le _ _) t.isLt⟩ : S1x1024x1024.Idx → EReal) (ix3 (0 : Fin 1) k' d)
      = Vf V c b (Cert.Attn.halfRow 0 k') d :=
    fun k' d => v_read V c _ b 0 k' d (by show b.val = (t.val - 1) / 4; omega) (by show (0 : Fin 2).val = (t.val - 1) % 2; show 0 = _; omega)
  have hv1 : ∀ k' d : Fin 1024, (ablk V c 2 t : S1x1024x1024.Idx → EReal) (ix3 (0 : Fin 1) k' d)
      = Vf V c b (Cert.Attn.halfRow 1 k') d :=
    fun k' d => v_read V c t b 1 k' d hb (by show (1 : Fin 2).val = t.val % 2; show 1 = _; omega)
  simp only [hs0, hs1, hv0, hv1, ablk3_apply, ablk4_apply]

/-! ## The second-half points' blocks tile the output array -/

/-- An index of the output array is in point t's block iff each coordinate is in the block's range on its axis. -/
theorem mem_blk5 (t : Fin cfg1.N) (i : S8x2048x1024.Idx) :
    i ∈ ((cfg1.win 5).blk t).view.set ↔ ∀ a : Fin 3, win1_5.index t a * S1x1024x1024.size a ≤ (i a).val
      ∧ (i a).val < win1_5.index t a * S1x1024x1024.size a + S1x1024x1024.size a := by
  show i ∈ ((View.whole main_v11).slice (win1_5.rect t)).set ↔ _
  rw [View.set_slice_whole, Rect.mem_set_unit]
  exact Iff.rfl

/-- Row (b, r) is in the block of the second-half point 4 b + 2 (r / 1024) + 1. -/
theorem cover5 (i : S8x2048x1024.Idx) :
    ∃ t : Fin cfg1.N, (cfg1.win 5).flush t = true ∧ i ∈ ((cfg1.win 5).blk t).view.set := by
  have hN : cfg1.N = 32 := N_1
  have h0 : (i 0).val < 8 := (i 0).isLt
  have h1 : (i 1).val < 2048 := (i 1).isLt
  have h2 : (i 2).val < 1024 := (i 2).isLt
  obtain ⟨t, ht⟩ : ∃ t : Fin cfg1.N, t.val = 4 * (i 0).val + 2 * ((i 1).val / 1024) + 1 := ⟨⟨_, by omega⟩, rfl⟩
  refine ⟨t, (flush1_5 t).mpr (by omega), ?_⟩
  rw [mem_blk5]
  obtain ⟨-, -, -, -, -, -, -, -, -, -, -, -, -, e0, e1, e2⟩ := idx_facts t
  intro a
  match a with
  | ⟨0, _⟩ =>
    show win1_5.index t (0 : Fin 3) * 1 ≤ (i 0).val ∧ (i 0).val < win1_5.index t (0 : Fin 3) * 1 + 1
    omega
  | ⟨1, _⟩ =>
    show win1_5.index t (1 : Fin 3) * 1024 ≤ (i 1).val ∧ (i 1).val < win1_5.index t (1 : Fin 3) * 1024 + 1024
    omega
  | ⟨2, _⟩ =>
    show win1_5.index t (2 : Fin 3) * 1024 ≤ (i 2).val ∧ (i 2).val < win1_5.index t (2 : Fin 3) * 1024 + 1024
    omega

/-! ## The output array after the region -/

/-- The output array ends holding the one function of the arrays the region entered with. -/
theorem attn_array (c : Dev nD) : (adat V c).arrAt 5 cfg1.N = attnG V c :=
  (adat V c).arrAt_eq_of_cover 5 (attnG V c) (flushed_eq V c) cover5

/-- Entry (b, r, e) of the output array after the region. -/
theorem attn_final (c : Dev nD) (b : Fin 8) (r : Fin 2048) (e : Fin 1024) :
    ((adat V c).arrAt 5 cfg1.N : S8x2048x1024.Idx → EReal) (ix3 b r e)
      = (∑ d : Fin 1024, Cert.Attn.onlineOut
          (fun k' : Fin 1024 => Cert.Attn.score cK (Qf V c) (Kf V c) b r (Cert.Attn.halfRow 0 k'))
          (fun k' : Fin 1024 => Cert.Attn.score cK (Qf V c) (Kf V c) b r (Cert.Attn.halfRow 1 k'))
          (fun k' d => Vf V c b (Cert.Attn.halfRow 0 k') d) (fun k' d => Vf V c b (Cert.Attn.halfRow 1 k') d) d
        * (V c main_v5 : S1024x1024.Idx → EReal) (ix2 d e))
      + (V c main_v6 : S1x1024.Idx → EReal) (ix2 (0 : Fin 1) e) := by
  rw [attn_array]
  rfl

end Cert.KernelIdeal.Hand

end
-- ==== Proof.KernelValue.lean ====
/-
  The kernel's result array as a function of its nine inputs.

  Followed backwards through the program: the result array is what the attention region's write-backs leave — per
  batch and row the two-step recurrence over the region's entry arrays q, k, v and the output weight and bias; q, k, v
  are the projection region's three output arrays seen through a reshape, and those are `x · W + b` of the projection
  region's entry arrays, column third by column third; the entry arrays are the inputs seen through the host operations
  (a reshape of x, the three weights side by side, the three biases end to end, the output weight and bias as they are).
  Put together: the layer by the two-step recurrence, of the inputs.
-/
import proofs.«163083_j50611894616492_2_alg».proof.Proof.KernelRunI
import proofs.«163083_j50611894616492_2_alg».proof.Proof.HostValue
import proofs.«163083_j50611894616492_2_alg».proof.Proof.ProjValue
import proofs.«163083_j50611894616492_2_alg».proof.Proof.AttnValue
import proofs.«163083_j50611894616492_2_alg».proof.Proof.Spec

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The inputs over coordinates. -/
abbrev inX (c : Dev nD) : Fin 8 → Fin 2048 → Fin 1024 → EReal :=
  fun b r i => (m ((c.tc : Thread nD τ).loc main_arg0) : S8x2048x1024.Idx → EReal) (ix3 b r i)
abbrev inWq (c : Dev nD) : Fin 1024 → Fin 1024 → EReal := fun i j => (m ((c.tc : Thread nD τ).loc main_arg1) : S1024x1024.Idx → EReal) (ix2 i j)
abbrev inWk (c : Dev nD) : Fin 1024 → Fin 1024 → EReal := fun i j => (m ((c.tc : Thread nD τ).loc main_arg3) : S1024x1024.Idx → EReal) (ix2 i j)
abbrev inWv (c : Dev nD) : Fin 1024 → Fin 1024 → EReal := fun i j => (m ((c.tc : Thread nD τ).loc main_arg5) : S1024x1024.Idx → EReal) (ix2 i j)
abbrev inWo (c : Dev nD) : Fin 1024 → Fin 1024 → EReal := fun i j => (m ((c.tc : Thread nD τ).loc main_arg7) : S1024x1024.Idx → EReal) (ix2 i j)
abbrev inBq (c : Dev nD) : Fin 1024 → EReal := fun j => (m ((c.tc : Thread nD τ).loc main_arg2) : S1024.Idx → EReal) (ix1 j)
abbrev inBk (c : Dev nD) : Fin 1024 → EReal := fun j => (m ((c.tc : Thread nD τ).loc main_arg4) : S1024.Idx → EReal) (ix1 j)
abbrev inBv (c : Dev nD) : Fin 1024 → EReal := fun j => (m ((c.tc : Thread nD τ).loc main_arg6) : S1024.Idx → EReal) (ix1 j)
abbrev inBo (c : Dev nD) : Fin 1024 → EReal := fun j => (m ((c.tc : Thread nD τ).loc main_arg8) : S1024.Idx → EReal) (ix1 j)

/-- Row `b · 2048 + r` of the flattened input is row `(b, r)` of the input. -/
theorem flat_row (c : Dev nD) (b : Fin 8) (r : Fin 2048) (i : Fin 1024) :
    (R1 m ρ c main_v0 : S16384x1024.Idx → EReal) (ix2 (⟨b.val * 2048 + r.val, by have := b.isLt; have := r.isLt; omega⟩ : Fin 16384) i) = inX m c b r i := by
  show (StableHlo.after (hostOps0 (F := Ideal)) (B0 m ρ c) (Proc.devRef .tc main_v0) : S16384x1024.Idx → EReal) (ix2 _ i) = _
  rw [HostVal.input_apply (B0 m ρ c)]
  have hb : (⟨(b.val * 2048 + r.val) / 2048, by have := b.isLt; have := r.isLt; omega⟩ : Fin 8) = b := Fin.ext (by have := r.isLt; show (b.val * 2048 + r.val) / 2048 = b.val; omega)
  have hr : (⟨(b.val * 2048 + r.val) % 2048, Nat.mod_lt _ (by decide)⟩ : Fin 2048) = r := Fin.ext (by have := r.isLt; show (b.val * 2048 + r.val) % 2048 = r.val; omega)
  show (B0 m ρ c (Proc.devRef .tc main_arg0) : S8x2048x1024.Idx → EReal) (ix3 (⟨(b.val * 2048 + r.val) / 2048, _⟩ : Fin 8) (⟨(b.val * 2048 + r.val) % 2048, _⟩ : Fin 2048) i) = _
  rw [hb, hr]

/-- The attention region's query array is the query projection of the inputs; likewise keys and values. -/
theorem q_entry (c : Dev nD) (b : Fin 8) (r : Fin 2048) (j : Fin 1024) :
    (R3 m ρ c main_v8 : S8x2048x1024.Idx → EReal) (ix3 b r j) = Cert.Attn.proj (inX m c) (inWq m c) (inBq m c) b r j := by
  show (StableHlo.after (hostOps1 (F := Ideal)) (B2 m ρ c) (Proc.devRef .tc main_v8) : S8x2048x1024.Idx → EReal) (ix3 b r j) = _
  rw [HostVal.out0_apply (B2 m ρ c) b r j]
  rw [show (B2 m ρ c (Proc.devRef .tc main_v7_0) : S16384x1024.Idx → EReal) = ((pdat (R1 m ρ) c).arrAt 3 cfg0.N : S16384x1024.Idx → EReal) from B2_arr m ρ c 3]
  rw [proj_final_q (R1 m ρ) c _ j]
  unfold Cert.Attn.proj
  congr 1
  · refine Finset.sum_congr rfl fun i _ => ?_
    rw [flat_row m ρ c b r i]
    congr 1
    exact HostVal.weights_apply_q (B0 m ρ c) i _ j rfl
  · exact HostVal.biases_apply_q (B0 m ρ c) 0 _ j rfl

theorem k_entry (c : Dev nD) (b : Fin 8) (r : Fin 2048) (j : Fin 1024) :
    (R3 m ρ c main_v9 : S8x2048x1024.Idx → EReal) (ix3 b r j) = Cert.Attn.proj (inX m c) (inWk m c) (inBk m c) b r j := by
  show (StableHlo.after (hostOps1 (F := Ideal)) (B2 m ρ c) (Proc.devRef .tc main_v9) : S8x2048x1024.Idx → EReal) (ix3 b r j) = _
  rw [HostVal.out1_apply (B2 m ρ c) b r j]
  rw [show (B2 m ρ c (Proc.devRef .tc main_v7_1) : S16384x1024.Idx → EReal) = ((pdat (R1 m ρ) c).arrAt 4 cfg0.N : S16384x1024.Idx → EReal) from B2_arr m ρ c 4]
  rw [proj_final_k (R1 m ρ) c _ j]
  unfold Cert.Attn.proj
  congr 1
  · refine Finset.sum_congr rfl fun i _ => ?_
    rw [flat_row m ρ c b r i]
    congr 1
    exact HostVal.weights_apply_k (B0 m ρ c) i _ j rfl
  · exact HostVal.biases_apply_k (B0 m ρ c) 0 _ j rfl

theorem v_entry (c : Dev nD) (b : Fin 8) (r : Fin 2048) (j : Fin 1024) :
    (R3 m ρ c main_v10 : S8x2048x1024.Idx → EReal) (ix3 b r j) = Cert.Attn.proj (inX m c) (inWv m c) (inBv m c) b r j := by
  show (StableHlo.after (hostOps1 (F := Ideal)) (B2 m ρ c) (Proc.devRef .tc main_v10) : S8x2048x1024.Idx → EReal) (ix3 b r j) = _
  rw [HostVal.out2_apply (B2 m ρ c) b r j]
  rw [show (B2 m ρ c (Proc.devRef .tc main_v7_2) : S16384x1024.Idx → EReal) = ((pdat (R1 m ρ) c).arrAt 5 cfg0.N : S16384x1024.Idx → EReal) from B2_arr m ρ c 5]
  rw [proj_final_v (R1 m ρ) c _ j]
  unfold Cert.Attn.proj
  congr 1
  · refine Finset.sum_congr rfl fun i _ => ?_
    rw [flat_row m ρ c b r i]
    congr 1
    exact HostVal.weights_apply_v (B0 m ρ c) i _ j rfl
  · exact HostVal.biases_apply_v (B0 m ρ c) 0 _ j rfl

/-- The attention region's output weight and bias arrays are the inputs': no region and no later host operation
    writes them. -/
theorem wo_entry (c : Dev nD) (d e : Fin 1024) :
    (R3 m ρ c main_v5 : S1024x1024.Idx → EReal) (ix2 d e) = inWo m c d e := by
  have h : R3 m ρ c main_v5 = B1 m ρ c (Proc.devRef .tc main_v5) :=
    (host1_keeps m ρ c main_v5 (by decide)).trans (B2_of_ne m ρ c main_v5 (by decide))
  rw [h]
  exact HostVal.outWeights_apply (B0 m ρ c) d e

theorem bo_entry (c : Dev nD) (e : Fin 1024) :
    (R3 m ρ c main_v6 : S1x1024.Idx → EReal) (ix2 0 e) = inBo m c e := by
  have h : R3 m ρ c main_v6 = B1 m ρ c (Proc.devRef .tc main_v6) :=
    (host1_keeps m ρ c main_v6 (by decide)).trans (B2_of_ne m ρ c main_v6 (by decide))
  rw [h]
  exact HostVal.outBias_apply (B0 m ρ c) 0 e

/-- THE KERNEL'S VALUE: entry `(b, r, e)` of the result array is the layer by the two-step recurrence, of the inputs, at
    the kernel's scale. -/
theorem kernel_value (c : Dev nD) (b : Fin 8) (r : Fin 2048) (e : Fin 1024) :
    (B4 (F := Ideal) m ρ c (Proc.devRef .tc main_v11) : S8x2048x1024.Idx → EReal) (ix3 b r e)
      = Cert.Attn.onlineLayer (Ideal.ofBits .f32 0x3D000000#32) (inX m c) (inWq m c) (inWk m c) (inWv m c) (inWo m c)
          (inBq m c) (inBk m c) (inBv m c) (inBo m c) b r e := by
  rw [show (B4 (F := Ideal) m ρ c (Proc.devRef .tc main_v11) : S8x2048x1024.Idx → EReal) = ((adat (R3 m ρ) c).arrAt 5 cfg1.N : S8x2048x1024.Idx → EReal) from B4_arr m ρ c 5]
  rw [attn_final (R3 m ρ) c b r e]
  unfold Cert.Attn.onlineLayer Cert.Attn.score Qf Kf Vf
  simp only [q_entry m ρ c, k_entry m ρ c, v_entry m ρ c, wo_entry m ρ c, bo_entry m ρ c]

end Cert.KernelIdeal.Hand

end
-- ==== Proof.lean ====
/-
  Single-head attention, a fused kernel against its plain reference, over the extended reals.

  The kernel computes q, k, v = x · W + b in one projection region (the three weights side by side, the result cut in
  thirds), then, per batch and per half of the query rows, visits the key rows in two halves with a running maximum, a
  running denominator and a running numerator, and at the second half divides, applies the output weight and adds the
  bias. The reference computes the scores of all 2048 keys at once, their softmax, the weighted sum of the value rows
  and the output projection.

  On the extended reals both are the same function of the inputs when every input is finite: with `M` the row's maximum
  score, `exp (m₀ - M) · exp (s - m₀) = exp (s - M)`, so the rescaled running sums are the plain sums; the denominator is a
  sum of positive reals, so dividing the sum is summing the quotients; the kernel's scale `2⁻⁵` is the reference's
  `1 / sqrt 1024`. Finiteness is what the precondition says, and it is used: distributing a quotient over a sum fails at
  infinities.

  The three frames: each program terminates from any memory, nothing faulting, its argument arrays unchanged. The two
  kernel programs' are read off their runs (the contents of every unscoped buffer followed through the four segments of
  the program); the reference's off its generated run.
-/
import proofs.«163083_j50611894616492_2_alg».proof.Defs
import proofs.«163083_j50611894616492_2_alg».proof.Proof.Gen.Kernel
import proofs.«163083_j50611894616492_2_alg».proof.Proof.Gen.Kernel.Skeleton
import proofs.«163083_j50611894616492_2_alg».proof.Proof.Gen.Kernel.Launch
import proofs.«163083_j50611894616492_2_alg».proof.Proof.Gen.Kernel.Regions
import proofs.«163083_j50611894616492_2_alg».proof.Proof.Gen.Kernel.Points
import proofs.«163083_j50611894616492_2_alg».proof.Proof.Gen.KernelIdeal
import proofs.«163083_j50611894616492_2_alg».proof.Proof.Gen.KernelIdeal.Skeleton
import proofs.«163083_j50611894616492_2_alg».proof.Proof.Gen.KernelIdeal.Launch
import proofs.«163083_j50611894616492_2_alg».proof.Proof.Gen.KernelIdeal.Regions
import proofs.«163083_j50611894616492_2_alg».proof.Proof.Gen.KernelIdeal.Points
import proofs.«163083_j50611894616492_2_alg».proof.Proof.Gen.ReferenceIdeal
import proofs.«163083_j50611894616492_2_alg».proof.Proof.Gen.Pre_finite_inputs
import proofs.«163083_j50611894616492_2_alg».proof.Proof.Gen.ReferenceIdeal.Run
import proofs.«163083_j50611894616492_2_alg».proof.Proof.Gen.ReferenceIdeal.Read
import proofs.«163083_j50611894616492_2_alg».proof.Proof.KernelRunB
import proofs.«163083_j50611894616492_2_alg».proof.Proof.KernelRunI
import proofs.«163083_j50611894616492_2_alg».proof.Proof.Spec
import proofs.«163083_j50611894616492_2_alg».proof.Proof.Algebra
import proofs.«163083_j50611894616492_2_alg».proof.Proof.RefValue
import proofs.«163083_j50611894616492_2_alg».proof.Proof.Consts
import proofs.«163083_j50611894616492_2_alg».proof.Proof.Finite
import proofs.«163083_j50611894616492_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Hand.frame (F := Bits) m ρ

theorem frame_kernelIdeal [Cert.KernelIdeal.Facts] [Cert.Pre_finite_inputs.Facts] : Cert.frame_KernelIdeal :=
  fun m ρ _ => Cert.KernelIdeal.Hand.frame (F := Ideal) m ρ

theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both programs end with equal results. The kernel's result array is the two-step recurrence of the inputs (the kernel's
    run read back), the reference's the plain softmax attention of the same inputs (its generated run read back); the inputs
    are real by the precondition, the two scales are both `1/32`, and on real inputs the two are one function. -/
theorem algebraic [Cert.KernelIdeal.Facts] [Cert.ReferenceIdeal.Facts] [Cert.Pre_finite_inputs.Facts] : Cert.algebraic_KernelIdeal_ReferenceIdeal := by
  intro m ρ m' ρ' hpre hagree
  refine ⟨fun c => Cert.KernelIdeal.Hand.B4 (F := Ideal) m ρ c (Proc.devRef .tc Cert.KernelIdeal.main_v11), ?_, ?_⟩
  · exact (θ_run Cert.KernelIdeal.defs _ _).mono (fun s h c =>
      ⟨h c _ (Cert.KernelIdeal.Hand.mem_uc Cert.KernelIdeal.main_v11 (by decide)),
       (h c _ (Cert.KernelIdeal.Hand.mem_uc Cert.KernelIdeal.main_arg0 (by decide))).trans (Cert.KernelIdeal.Hand.args_kept m ρ c).1,
       (h c _ (Cert.KernelIdeal.Hand.mem_uc Cert.KernelIdeal.main_arg1 (by decide))).trans (Cert.KernelIdeal.Hand.args_kept m ρ c).2.1,
       (h c _ (Cert.KernelIdeal.Hand.mem_uc Cert.KernelIdeal.main_arg2 (by decide))).trans (Cert.KernelIdeal.Hand.args_kept m ρ c).2.2.1,
       (h c _ (Cert.KernelIdeal.Hand.mem_uc Cert.KernelIdeal.main_arg3 (by decide))).trans (Cert.KernelIdeal.Hand.args_kept m ρ c).2.2.2.1,
       (h c _ (Cert.KernelIdeal.Hand.mem_uc Cert.KernelIdeal.main_arg4 (by decide))).trans (Cert.KernelIdeal.Hand.args_kept m ρ c).2.2.2.2.1,
       (h c _ (Cert.KernelIdeal.Hand.mem_uc Cert.KernelIdeal.main_arg5 (by decide))).trans (Cert.KernelIdeal.Hand.args_kept m ρ c).2.2.2.2.2.1,
       (h c _ (Cert.KernelIdeal.Hand.mem_uc Cert.KernelIdeal.main_arg6 (by decide))).trans (Cert.KernelIdeal.Hand.args_kept m ρ c).2.2.2.2.2.2.1,
       (h c _ (Cert.KernelIdeal.Hand.mem_uc Cert.KernelIdeal.main_arg7 (by decide))).trans (Cert.KernelIdeal.Hand.args_kept m ρ c).2.2.2.2.2.2.2.1,
       (h c _ (Cert.KernelIdeal.Hand.mem_uc Cert.KernelIdeal.main_arg8 (by decide))).trans (Cert.KernelIdeal.Hand.args_kept m ρ c).2.2.2.2.2.2.2.2⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v32_eq]
    obtain ⟨a0, a1, a2, a3, a4, a5, a6, a7, a8⟩ := hagree c
    rw [a0, a1, a2, a3, a4, a5, a6, a7, a8]
    obtain ⟨f0, f1, f2, f3, f4, f5, f6, f7, f8⟩ := Cert.Finite.reals_of_pre _ _ _ _ _ _ _ _ _ (hpre c)
    choose X0 hX0 using f0
    choose X1 hX1 using f1
    choose X2 hX2 using f2
    choose X3 hX3 using f3
    choose X4 hX4 using f4
    choose X5 hX5 using f5
    choose X6 hX6 using f6
    choose X7 hX7 using f7
    choose X8 hX8 using f8
    funext i
    obtain ⟨b, r, e, rfl⟩ : ∃ (b : Fin 8) (r : Fin 2048) (e : Fin 1024), i = ValueIdx.ix3 b r e := ⟨i 0, i 1, i 2, ValueIdx.eq_ix3 i⟩
    rw [Cert.RefValue.ref_eq, Cert.Consts.ref_scale]
    refine Eq.trans ?_ (Cert.KernelIdeal.Hand.kernel_value m ρ c b r e).symm
    rw [Cert.Consts.kernel_scale]
    simp only [hX0, hX1, hX2, hX3, hX4, hX5, hX6, hX7, hX8]
    have e0 : Cert.KernelIdeal.Hand.inX m c = fun b r i => ((X0 (ValueIdx.ix3 b r i) : ℝ) : EReal) := funext fun b => funext fun r => funext fun i => hX0 _
    have e1 : Cert.KernelIdeal.Hand.inWq m c = fun i j => ((X1 (ValueIdx.ix2 i j) : ℝ) : EReal) := funext fun i => funext fun j => hX1 _
    have e3 : Cert.KernelIdeal.Hand.inWk m c = fun i j => ((X3 (ValueIdx.ix2 i j) : ℝ) : EReal) := funext fun i => funext fun j => hX3 _
    have e5 : Cert.KernelIdeal.Hand.inWv m c = fun i j => ((X5 (ValueIdx.ix2 i j) : ℝ) : EReal) := funext fun i => funext fun j => hX5 _
    have e7 : Cert.KernelIdeal.Hand.inWo m c = fun i j => ((X7 (ValueIdx.ix2 i j) : ℝ) : EReal) := funext fun i => funext fun j => hX7 _
    have e2 : Cert.KernelIdeal.Hand.inBq m c = fun j => ((X2 (ValueIdx.ix1 j) : ℝ) : EReal) := funext fun j => hX2 _
    have e4 : Cert.KernelIdeal.Hand.inBk m c = fun j => ((X4 (ValueIdx.ix1 j) : ℝ) : EReal) := funext fun j => hX4 _
    have e6 : Cert.KernelIdeal.Hand.inBv m c = fun j => ((X6 (ValueIdx.ix1 j) : ℝ) : EReal) := funext fun j => hX6 _
    have e8 : Cert.KernelIdeal.Hand.inBo m c = fun j => ((X8 (ValueIdx.ix1 j) : ℝ) : EReal) := funext fun j => hX8 _
    rw [e0, e1, e2, e3, e4, e5, e6, e7, e8]
    exact (Cert.Attn.onlineLayer_eq_plainLayer (1 / 32) (fun b r i => X0 (ValueIdx.ix3 b r i)) (fun i j => X1 (ValueIdx.ix2 i j))
      (fun i j => X3 (ValueIdx.ix2 i j)) (fun i j => X5 (ValueIdx.ix2 i j)) (fun i j => X7 (ValueIdx.ix2 i j))
      (fun j => X2 (ValueIdx.ix1 j)) (fun j => X4 (ValueIdx.ix1 j)) (fun j => X6 (ValueIdx.ix1 j)) (fun j => X8 (ValueIdx.ix1 j)) b r e).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
